-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg11 : FVec F S16 .f32) (main_arg12 : FVec F S128x16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S128x16 .f32 := Host.absf main_arg12
  let main_cst_22 : FVec F S_ .f32 := constant S_ .f32 0x7F800000#32
  let main_v60 : FVec F S128x16 .f32 := broadcastInDim S128x16 ![] bcast_S_S128x16 main_cst_22
  let main_v61 : IVec S128x16 1 := cmpf .olt main_v59 main_v60
  let main_c_23 : IVec S_ 1 := constantI S_ 1 1#1
  let main_v62 : IVec S_ 1 := (fun x v => Host.reduce IntOp.andi x v reducesTo_S128x16_S_d0_1 h_S_) main_v61 main_c_23
  let main_v63 : IVec S_ 1 := andi main_v58 main_v62
  main_v63

def fn_part2 {F : FTy → Type} [FloatOps F] (main_arg7 : FVec F S128x16 .f32) (main_arg8 : FVec F S16 .f32) (main_arg9 : FVec F S128x16 .f32) (main_arg10 : FVec F S128x16 .f32) (main_arg11 : FVec F S16 .f32) (main_arg12 : FVec F S128x16 .f32) (main_v33 : IVec S_ 1) : IVec S_ 1 :=
  let main_v34 : FVec F S128x16 .f32 := Host.absf main_arg7
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S128x16 .f32 := Host.absf main_arg9
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S128x16 .f32 := Host.absf main_arg10
  let main_cst_18 : FVec F S_ .f32 := constant S_ .f32 0x7F800000#32
  let main_v50 : FVec F S128x16 .f32 := broadcastInDim S128x16 ![] bcast_S_S128x16 main_cst_18
  fn_part3 (F := F) main_arg11 main_arg12 main_v48 main_v49 main_v50

def fn_part1 {F : FTy → Type} [FloatOps F] (main_arg4 : FVec F S256x128 .f32) (main_arg5 : FVec F S128 .f32) (main_arg6 : FVec F S256x128 .f32) (main_arg7 : FVec F S128x16 .f32) (main_arg8 : FVec F S16 .f32) (main_arg9 : FVec F S128x16 .f32) (main_arg10 : FVec F S128x16 .f32) (main_arg11 : FVec F S16 .f32) (main_arg12 : FVec F S128x16 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x64 .f32) (main_arg1 : FVec F S64x256 .f32) (main_arg2 : FVec F S256 .f32) (main_arg3 : FVec F S64x256 .f32) (main_arg4 : FVec F S256x128 .f32) (main_arg5 : FVec F S128 .f32) (main_arg6 : FVec F S256x128 .f32) (main_arg7 : FVec F S128x16 .f32) (main_arg8 : FVec F S16 .f32) (main_arg9 : FVec F S128x16 .f32) (main_arg10 : FVec F S128x16 .f32) (main_arg11 : FVec F S16 .f32) (main_arg12 : FVec F S128x16 .f32) (main_arg13 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x256 : Shape := ⟨2, ![1, 256]⟩
abbrev S50000x256 : Shape := ⟨2, ![50000, 256]⟩
abbrev S5000x64 : Shape := ⟨2, ![5000, 64]⟩
abbrev S5000x1 : Shape := ⟨2, ![5000, 1]⟩
abbrev S5000x256 : Shape := ⟨2, ![5000, 256]⟩
abbrev S50000x128 : Shape := ⟨2, ![50000, 128]⟩
abbrev S5000x128 : Shape := ⟨2, ![5000, 128]⟩
abbrev S800000x128 : Shape := ⟨2, ![800000, 128]⟩
abbrev S1x128 : Shape := ⟨2, ![1, 128]⟩
abbrev S128x32 : Shape := ⟨2, ![128, 32]⟩
abbrev S32 : Shape := ⟨1, ![32]⟩
abbrev S50000x32 : Shape := ⟨2, ![50000, 32]⟩
abbrev S5000x32 : Shape := ⟨2, ![5000, 32]⟩
abbrev S800000x32 : Shape := ⟨2, ![800000, 32]⟩
abbrev S1x32 : Shape := ⟨2, ![1, 32]⟩
abbrev S50000x16 : Shape := ⟨2, ![50000, 16]⟩

abbrev nBuf : Space → Nat
  | .hbm => 90
  | .vmem => 41
  | .smem => 0
  | _ => 0

abbrev bufTy : (tb : Table) → Fin (tcTables nBuf tb) → BufTy
  | .hbm, ⟨0, _⟩ => ⟨S50000x64, .f32⟩
  | .hbm, ⟨1, _⟩ => ⟨S64x256, .f32⟩
  | .hbm, ⟨2, _⟩ => ⟨S256, .f32⟩
  | .hbm, ⟨3, _⟩ => ⟨S64x256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128x16, .f32⟩
  | .hbm, ⟨8, _⟩ => ⟨S16, .f32⟩
  | .hbm, ⟨9, _⟩ => ⟨S128x16, .f32⟩
  | .hbm, ⟨10, _⟩ => ⟨S128x16, .f32⟩
  | .hbm, ⟨11, _⟩ => ⟨S16, .f32⟩
  | .hbm, ⟨12, _⟩ => ⟨S128x16, .f32⟩
  | .hbm, ⟨13, _⟩ => ⟨S2x800000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S1x256, .f32⟩
  | .hbm, ⟨52, _⟩ => ⟨S50000x256, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S128x32, .f32⟩
  | .hbm, ⟨70, _⟩ => ⟨S128x32, .f32⟩
  | .hbm, ⟨71, _⟩ => ⟨S32, .f32⟩
  | .hbm, ⟨72, _⟩ => ⟨S50000x32, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x32, .f32⟩
  | .hbm, ⟨82, _⟩ => ⟨S_, .f32⟩
  | .hbm, ⟨83, _⟩ => ⟨S50000x32, .f32⟩
  | .hbm, ⟨84, _⟩ => ⟨S800000x1, .i32⟩
  | .hbm, ⟨85, _⟩ => ⟨S50000x32, .f32⟩
  | .hbm, ⟨86, _⟩ => ⟨S1x32, .f32⟩
  | .hbm, ⟨87, _⟩ => ⟨S50000x32, .f32⟩
  | .hbm, ⟨88, _⟩ => ⟨S50000x16, .f32⟩
  | .hbm, ⟨89, _⟩ => ⟨S50000x16, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x256, .f32⟩
  | .local _ .vmem, ⟨7, _⟩ => ⟨S1x256, .f32⟩
  | .local _ .vmem, ⟨8, _⟩ => ⟨S64x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x256, .f32⟩
  | .local _ .vmem, ⟨21, _⟩ => ⟨S5000x256, .f32⟩
  | .local _ .vmem, ⟨22, _⟩ => ⟨S256x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S5000x32, .f32⟩
  | .local _ .vmem, ⟨33, _⟩ => ⟨S5000x1, .f32⟩
  | .local _ .vmem, ⟨34, _⟩ => ⟨S5000x1, .f32⟩
  | .local _ .vmem, ⟨35, _⟩ => ⟨S5000x128, .f32⟩
  | .local _ .vmem, ⟨36, _⟩ => ⟨S5000x128, .f32⟩
  | .local _ .vmem, ⟨37, _⟩ => ⟨S128x32, .f32⟩
  | .local _ .vmem, ⟨38, _⟩ => ⟨S1x32, .f32⟩
  | .local _ .vmem, ⟨39, _⟩ => ⟨S5000x32, .f32⟩
  | .local _ .vmem, ⟨40, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_c_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem5_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x16_S128x16_S128x32_d1 : Shape.Concatenates [S128x16, S128x16] S128x32 1
  concatenates_S16_S16_S32_d0 : Shape.Concatenates [S16, S16] S32 0
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  slices_S50000x32_S50000x16_0_0 : S50000x32.Slices ![0, 0] S50000x16
  slices_S50000x32_S50000x16_0_16 : S50000x32.Slices ![0, 16] S50000x16
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x256_S5000x256_1_0_0_1_n_n_wf : DotDims.WF S5000x64 S64x256 S5000x256 [1] [0] [0] [1] [] []
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x32_S5000x32_1_0_0_1_n_n_wf : DotDims.WF S5000x128 S128x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x32.size a ≤ S128x32.size a
  hwx3_1 : ∀ i : grid3.Coords, EltTy.bits .f32 = 32 ∨ (Rect.block (s := S128x32) S128x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x32.size a ≤ S128x32.size a
  hwx4_3 : ∀ i : grid4.Coords, EltTy.bits .f32 = 32 ∨ (Rect.block (s := S128x32) S128x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x32.size a ≤ S50000x32.size a
  hwx4_5 : ∀ i : grid4.Coords, EltTy.bits .f32 = 32 ∨ (Rect.block (s := S50000x32) S5000x32.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_v25) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S128x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v40) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42) S128x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S5000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S800000x128 : Shape := ⟨2, ![800000, 128]⟩
abbrev S50000x16 : Shape := ⟨2, ![50000, 16]⟩
abbrev S1x16 : Shape := ⟨2, ![1, 16]⟩

abbrev nBuf : Space → Nat
  | .hbm => 131
  | .vmem => 0
  | .smem => 0
  | _ => 0

abbrev hbmTy0_0 (i : Nat) : BufTy := match i % 128 with
  | 0 => ⟨S50000x64, .f32⟩
  | 1 => ⟨S64x256, .f32⟩
  | 2 => ⟨S256, .f32⟩
  | 3 => ⟨S64x256, .f32⟩
  | 4 => ⟨S256x128, .f32⟩
  | 5 => ⟨S128, .f32⟩
  | 6 => ⟨S256x128, .f32⟩
  | 7 => ⟨S128x16, .f32⟩
  | 8 => ⟨S16, .f32⟩
  | 9 => ⟨S128x16, .f32⟩
  | 10 => ⟨S128x16, .f32⟩
  | 11 => ⟨S16, .f32⟩
  | 12 => ⟨S128x16, .f32⟩
  | 13 => ⟨S2x800000, .i32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S_, .f32⟩
  | 47 => ⟨S50000x64, .f32⟩
  | 48 => ⟨S800000x1, .i32⟩
  | 49 => ⟨S50000x64, .f32⟩
  | 50 => ⟨S50000x1, .f32⟩
  | 51 => ⟨S50000x64, .f32⟩
  | 52 => ⟨S50000x64, .f32⟩
  | 53 => ⟨S50000x256, .f32⟩
  | 54 => ⟨S1x256, .f32⟩
  | 55 => ⟨S50000x256, .f32⟩
  | 56 => ⟨S50000x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x256, .f32⟩
  | 71 => ⟨S_, .f32⟩
  | 72 => ⟨S50000x256, .f32⟩
  | 73 => ⟨S800000x1, .i32⟩
  | 74 => ⟨S50000x256, .f32⟩
  | 75 => ⟨S50000x1, .f32⟩
  | 76 => ⟨S50000x256, .f32⟩
  | 77 => ⟨S50000x256, .f32⟩
  | 78 => ⟨S50000x128, .f32⟩
  | 79 => ⟨S1x128, .f32⟩
  | 80 => ⟨S50000x128, .f32⟩
  | 81 => ⟨S50000x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x1, .f32⟩
  | 101 => ⟨S50000x128, .f32⟩
  | 102 => ⟨S50000x128, .f32⟩
  | 103 => ⟨S50000x16, .f32⟩
  | 104 => ⟨S1x16, .f32⟩
  | 105 => ⟨S50000x16, .f32⟩
  | 106 => ⟨S50000x16, .f32⟩
  | 107 => ⟨S50000x16, .f32⟩
  | 108 => ⟨S50000x16, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S50000x1, .f32⟩
  | 123 => ⟨S50000x128, .f32⟩
  | 124 => ⟨S50000x128, .f32⟩
  | 125 => ⟨S50000x16, .f32⟩
  | 126 => ⟨S1x16, .f32⟩
  | 127 => ⟨S50000x16, .f32⟩
  | _ => ⟨S50000x64, .f32⟩

abbrev hbmTy0_1 (i : Nat) : BufTy := match i % 128 with
  | 0 => ⟨S50000x16, .f32⟩
  | 1 => ⟨S50000x16, .f32⟩
  | 2 => ⟨S50000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_cst : Ref sig .tc := ⟨.hbm, 59, rfl⟩
abbrev main_call1_v0 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_cst : Ref sig .tc := ⟨.hbm, 84, rfl⟩
abbrev main_call2_v0 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_13 : Ref sig .tc := ⟨.hbm, 109, rfl⟩
abbrev main_v74 : Ref sig .tc := ⟨.hbm, 110, rfl⟩
abbrev main_v75 : Ref sig .tc := ⟨.hbm, 111, rfl⟩
abbrev main_c_14 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_15 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x16_S50000x16_1_0_0_1_n_n_wf : DotDims.WF S50000x128 S128x16 S50000x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KHostBase.lean ====
/-
  The idealized kernel program between its regions: what each region finds in its windows' arrays.

  The run folds the buffers' contents through @main's segments (host stretches and regions). An array that a region reads
  was written either by a host operation before it, by an earlier region, or never (an argument); everything else passes
  each boundary untouched: a host stretch changes only the buffers its operations write, a region only its output
  window's array. Reading back through the fold gives, for every window of every region, either an argument array, a host
  term of argument arrays, or an earlier region's output. The host terms that only depend on the edge list (the source
  and target index columns, the inverse in-degree) and the first layer's neighbour sums are the same operations the
  reference program applies, so they are stated by the reference's stage functions.
-/
import proofs.«128211_j27066883899544_2_alg».proof.Proof.Gen.KernelIdeal.Frame
import proofs.«128211_j27066883899544_2_alg».proof.Proof.RefReadPatched

set_option maxRecDepth 16384
set_option quotPrecheck false

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- A host stretch leaves a buffer none of its operations writes as it found it. -/
macro "host_skip" : tactic => `(tactic|
  refine (StableHlo.after_of_forall_not_mem _ _ (List.forall_iff_forall_mem.mp (by
    simp only [hostOps0, hostOps0_1, hostOps0_2, hostOps2, hostOps3, hostOps4, hostOps5, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- A region leaves a buffer that is none of its windows' arrays as it found it. -/
macro "reg_skip" : tactic => `(tactic| first
  | refine (W4_of_ne _ _ _ _ (by decide)).trans ?_
  | refine (W5_of_ne _ _ _ _ (by decide)).trans ?_
  | refine (W7_of_ne _ _ _ _ (by decide)).trans ?_
  | refine (W9_of_ne _ _ _ _ (by decide)).trans ?_
  | refine (W11_of_ne _ _ _ _ (by decide)).trans ?_)

/-- A region leaves an input window's array as it found it. -/
macro "reg_in0" w:num : tactic => `(tactic| refine ((W4_arr _ _ _ $w).trans (((dat0 (V3 _ _) _).arrAt_in $w rfl _).trans (A_eq0 (V3 _ _) _ $w))).trans ?_)
macro "reg_in1" w:num : tactic => `(tactic| refine ((W5_arr _ _ _ $w).trans (((dat1 (V4 _ _) _).arrAt_in $w rfl _).trans (A_eq1 (V4 _ _) _ $w))).trans ?_)
macro "reg_in2" w:num : tactic => `(tactic| refine ((W7_arr _ _ _ $w).trans (((dat2 (V6 _ _) _).arrAt_in $w rfl _).trans (A_eq2 (V6 _ _) _ $w))).trans ?_)
macro "reg_in3" w:num : tactic => `(tactic| refine ((W9_arr _ _ _ $w).trans (((dat3 (V8 _ _) _).arrAt_in $w rfl _).trans (A_eq3 (V8 _ _) _ $w))).trans ?_)
macro "reg_in4" w:num : tactic => `(tactic| refine ((W11_arr _ _ _ $w).trans (((dat4 (V10 _ _) _).arrAt_in $w rfl _).trans (A_eq4 (V10 _ _) _ $w))).trans ?_)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)

/-! ## Before the first region: host terms of the arguments, one stretch at a time

  The first stretch slices the edge list into its source and target words and computes the in-degree, where it is positive,
  and one over the larger of it and one; the second chooses between that quotient and zero; the third recasts the choice as
  a column, gathers the feature rows at the source words and adds them at the target words, and recasts the first bias as
  a row. -/

section Pieces
open Cert.ReferenceIdeal.ReadP

/-- The target index column is the same operation in both programs. -/
theorem e_dst : broadcastInDim S800000x1 ![0] bcast_S800000_S800000x1_0 (val_main_v3 (F := Ideal) x13) = val_main_v23 (F := Ideal) x13 := by
  unfold val_main_v23; rfl

/-- The source index column (a negative word wrapped once) is the same operations in both programs. -/
theorem e_src : broadcastInDim S800000x1 ![0] bcast_S800000_S800000x1_0
      (select (cmpi CmpIPredicate.slt (val_main_v1 (F := Ideal) x13) (broadcastInDim S800000 ![] bcast_S_S800000 (constantI S_ 32 0#32)))
        (addi (val_main_v1 (F := Ideal) x13) (broadcastInDim S800000 ![] bcast_S_S800000 (constantI S_ 32 50000#32)))
        (val_main_v1 (F := Ideal) x13))
    = val_main_v20 (F := Ideal) x13 := by
  unfold val_main_v20 val_main_v19 val_main_v18 val_main_v17 val_main_c_5 val_main_v16 val_main_v15 val_main_c
  rfl

theorem e_zero64 : broadcastInDim S50000x64 ![] bcast_S_S50000x64 (constant (F := Ideal) S_ .f32 0x00000000#32) = val_main_v22 (F := Ideal) := by
  unfold val_main_v22 val_main_cst_6; rfl

/-- The two programs' records of the same dimension numbers. -/
theorem e_scatter64 : scatter_S50000x64_S800000x1_S800000x64_1_0_0_1 = Cert.ReferenceIdeal.scatter_S50000x64_S800000x1_S800000x64_1_0_0_1 := rfl
theorem e_gather64 : gather_S50000x64_S800000x1_S800000x64_1_0_n_n_0_1_164 = Cert.ReferenceIdeal.gather_S50000x64_S800000x1_S800000x64_1_0_n_n_0_1_164 := rfl

end Pieces

theorem W1_eq (b : DevRef τ sig) : W1 m ρ c b = StableHlo.after hostOps0 (W0 m ρ c) b := rfl
theorem W2_eq (b : DevRef τ sig) : W2 m ρ c b = StableHlo.after hostOps0_1 (W1 m ρ c) b := rfl
theorem W3_eq (b : DevRef τ sig) : W3 m ρ c b = StableHlo.after hostOps0_2 (W2 m ρ c) b := rfl

/-- The edges' source rows, as a word per edge. -/
theorem W1_v1 : W1 m ρ c (Proc.devRef .tc main_v1) = Cert.ReferenceIdeal.ReadP.val_main_v1 (F := Ideal) x13 := by
  rw [W1_eq]; dsimp only [hostOps0]; after_results; rfl

/-- The edges' target rows, as a word per edge. -/
theorem W1_v3 : W1 m ρ c (Proc.devRef .tc main_v3) = Cert.ReferenceIdeal.ReadP.val_main_v3 (F := Ideal) x13 := by
  rw [W1_eq]; dsimp only [hostOps0]; after_results; rfl

open Cert.ReferenceIdeal.ReadP in
/-- Where the in-degree is positive. -/
theorem W1_v9 : W1 m ρ c (Proc.devRef .tc main_v9) = Cert.ReferenceIdeal.ReadP.val_main_v9 (F := Ideal) x13 := by
  rw [W1_eq]; dsimp only [hostOps0]; after_results
  unfold val_main_v9 val_main_v8 val_main_cst_1 val_main_v7 val_main_v6 val_main_v5 val_main_cst_0 val_main_v4 val_main_cst val_main_v3 val_main_v2
  rfl

open Cert.ReferenceIdeal.ReadP in
/-- One over the in-degree or one. -/
theorem W1_v13 : W1 m ρ c (Proc.devRef .tc main_v13) = Cert.ReferenceIdeal.ReadP.val_main_v13 (F := Ideal) x13 := by
  rw [W1_eq]; dsimp only [hostOps0]; after_results
  unfold val_main_v13 val_main_v12 val_main_cst_3 val_main_v11 val_main_v10 val_main_cst_2 val_main_v7 val_main_v6 val_main_v5 val_main_cst_0 val_main_v4 val_main_cst val_main_v3 val_main_v2
  rfl

theorem W1_cst4 : W1 m ρ c (Proc.devRef .tc main_cst_4) = Cert.ReferenceIdeal.ReadP.val_main_cst_4 (F := Ideal) := by
  rw [W1_eq]; dsimp only [hostOps0]; after_results; rfl

/-- The outlined choice, over ANY contents of the buffers it reads: given what its three operands hold, the result
    buffer holds the choice between the second operand and the third's one entry copied to every row. -/
theorem where_after (V1 : Valuation τ sig (Elt Ideal))
    (a9 : (⟨S50000, .i1⟩ : BufTy).Contents (Elt Ideal)) (a13 : (⟨S50000, .f32⟩ : BufTy).Contents (Elt Ideal))
    (a4 : (⟨S_, .f32⟩ : BufTy).Contents (Elt Ideal))
    (h9 : V1 (Proc.devRef .tc main_v9) = a9) (h13 : V1 (Proc.devRef .tc main_v13) = a13)
    (h4 : V1 (Proc.devRef .tc main_cst_4) = a4) :
    StableHlo.after hostOps0_1 V1 (Proc.devRef .tc main_v14)
      = select a9 a13 (broadcastInDim S50000 ![] bcast_S_S50000 (id a4)) := by
  dsimp only [hostOps0_1]
  after_results
  rw [h9, h13, h4]
  rfl

open Cert.ReferenceIdeal.ReadP in
/-- The inverse in-degree: the choice between one over the in-degree and zero. -/
theorem W2_v14 : W2 m ρ c (Proc.devRef .tc main_v14) = Cert.ReferenceIdeal.ReadP.val_main_v14 (F := Ideal) x13 := by
  unfold val_main_v14 val_main_call0_v1 val_main_call0_v0
  exact where_after (W1 m ρ c) _ _ _ (W1_v9 m ρ c) (W1_v13 m ρ c) (W1_cst4 m ρ c)

theorem W2_v1 : W2 m ρ c (Proc.devRef .tc main_v1) = Cert.ReferenceIdeal.ReadP.val_main_v1 (F := Ideal) x13 := by
  host_skip; exact W1_v1 m ρ c
theorem W2_v3 : W2 m ρ c (Proc.devRef .tc main_v3) = Cert.ReferenceIdeal.ReadP.val_main_v3 (F := Ideal) x13 := by
  host_skip; exact W1_v3 m ρ c
theorem W2_arg0 : W2 m ρ c (Proc.devRef .tc main_arg0) = x0 := by host_skip; host_skip; rfl
theorem W2_arg2 : W2 m ρ c (Proc.devRef .tc main_arg2) = x2 := by host_skip; host_skip; rfl

theorem W3_v1 : W3 m ρ c (Proc.devRef .tc main_v1) = Cert.ReferenceIdeal.ReadP.val_main_v1 (F := Ideal) x13 := by
  host_skip; exact W2_v1 m ρ c
theorem W3_v3 : W3 m ρ c (Proc.devRef .tc main_v3) = Cert.ReferenceIdeal.ReadP.val_main_v3 (F := Ideal) x13 := by
  host_skip; exact W2_v3 m ρ c

/-- The last stretch before the first region, over ANY contents of the buffers it reads: the inverse in-degree recast
    as a column. -/
theorem v15_after (V2 : Valuation τ sig (Elt Ideal)) (a14 : (⟨S50000, .f32⟩ : BufTy).Contents (Elt Ideal))
    (h14 : V2 (Proc.devRef .tc main_v14) = a14) :
    StableHlo.after hostOps0_2 V2 (Proc.devRef .tc main_v15) = shapeCast S50000x1 a14 shapeCasts_S50000_S50000x1 := by
  dsimp only [hostOps0_2]
  after_results
  rw [h14]
  rfl

/-- The same stretch: the first bias recast as a row. -/
theorem v26_after (V2 : Valuation τ sig (Elt Ideal)) (a2 : (⟨S256, .f32⟩ : BufTy).Contents (Elt Ideal))
    (h2 : V2 (Proc.devRef .tc main_arg2) = a2) :
    StableHlo.after hostOps0_2 V2 (Proc.devRef .tc main_v26) = shapeCast S1x256 a2 shapeCasts_S256_S1x256 := by
  dsimp only [hostOps0_2]
  after_results
  rw [h2]
  rfl

set_option maxHeartbeats 1000000 in
/-- The same stretch: the rows of the features gathered at the edges' source rows (a negative word wrapped once) and
    added at the edges' target rows, onto zeros. -/
theorem v25_after (V2 : Valuation τ sig (Elt Ideal))
    (a1 a3 : (⟨S800000, .i32⟩ : BufTy).Contents (Elt Ideal)) (a0 : (⟨S50000x64, .f32⟩ : BufTy).Contents (Elt Ideal))
    (h1 : V2 (Proc.devRef .tc main_v1) = a1) (h3 : V2 (Proc.devRef .tc main_v3) = a3)
    (h0 : V2 (Proc.devRef .tc main_arg0) = a0) :
    StableHlo.after hostOps0_2 V2 (Proc.devRef .tc main_v25)
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 a3)
          (Host.gather gather_S50000x64_S800000x1_S800000x64_1_0_n_n_0_1_164 a0
            (broadcastInDim S800000x1 ![0] bcast_S800000_S800000x1_0
              (select (cmpi CmpIPredicate.slt a1 (broadcastInDim S800000 ![] bcast_S_S800000 (constantI S_ 32 0#32)))
                (addi a1 (broadcastInDim S800000 ![] bcast_S_S800000 (constantI S_ 32 50000#32))) a1))) := by
  dsimp only [hostOps0_2]
  after_results
  rw [h1, h3, h0]

/-- The inverse in-degree, as a column. -/
theorem W3_v15 : W3 m ρ c (Proc.devRef .tc main_v15)
    = shapeCast S50000x1 (Cert.ReferenceIdeal.ReadP.val_main_v14 (F := Ideal) x13) shapeCasts_S50000_S50000x1 :=
  v15_after (W2 m ρ c) _ (W2_v14 m ρ c)

open Cert.ReferenceIdeal.ReadP in
/-- The first layer's neighbour sums. -/
theorem W3_v25 : W3 m ρ c (Proc.devRef .tc main_v25) = Cert.ReferenceIdeal.ReadP.val_main_v24 (F := Ideal) x0 x13 := by
  refine (v25_after (W2 m ρ c) _ _ _ (W2_v1 m ρ c) (W2_v3 m ρ c) (W2_arg0 m ρ c)).trans ?_
  unfold val_main_v24 val_main_v21
  rw [e_src, e_dst, e_zero64, e_scatter64, e_gather64]

/-- The first bias, as a row. -/
theorem W3_v26 : W3 m ρ c (Proc.devRef .tc main_v26) = shapeCast S1x256 x2 shapeCasts_S256_S1x256 :=
  v26_after (W2 m ρ c) _ (W2_arg2 m ρ c)

/-- An argument array is what was launched, before the first region. -/
theorem W3_arg0 : W3 m ρ c (Proc.devRef .tc main_arg0) = x0 := by host_skip; host_skip; host_skip; rfl
theorem W3_arg1 : W3 m ρ c (Proc.devRef .tc main_arg1) = x1 := by host_skip; host_skip; host_skip; rfl
theorem W3_arg3 : W3 m ρ c (Proc.devRef .tc main_arg3) = x3 := by host_skip; host_skip; host_skip; rfl
theorem W3_arg4 : W3 m ρ c (Proc.devRef .tc main_arg4) = x4 := by host_skip; host_skip; host_skip; rfl
theorem W3_arg5 : W3 m ρ c (Proc.devRef .tc main_arg5) = x5 := by host_skip; host_skip; host_skip; rfl
theorem W3_arg6 : W3 m ρ c (Proc.devRef .tc main_arg6) = x6 := by host_skip; host_skip; host_skip; rfl
theorem W3_arg7 : W3 m ρ c (Proc.devRef .tc main_arg7) = x7 := by host_skip; host_skip; host_skip; rfl
theorem W3_arg8 : W3 m ρ c (Proc.devRef .tc main_arg8) = x8 := by host_skip; host_skip; host_skip; rfl
theorem W3_arg9 : W3 m ρ c (Proc.devRef .tc main_arg9) = x9 := by host_skip; host_skip; host_skip; rfl
theorem W3_arg10 : W3 m ρ c (Proc.devRef .tc main_arg10) = x10 := by host_skip; host_skip; host_skip; rfl
theorem W3_arg11 : W3 m ρ c (Proc.devRef .tc main_arg11) = x11 := by host_skip; host_skip; host_skip; rfl
theorem W3_arg12 : W3 m ρ c (Proc.devRef .tc main_arg12) = x12 := by host_skip; host_skip; host_skip; rfl

end Cert.KernelIdeal.HostValue

end
-- ==== Proof.KHostMid.lean ====
/-
  The idealized kernel program between its regions, continued: what regions 1 to 4 find in their windows' arrays, in
  terms of the argument arrays, the edge list's host terms and the earlier regions' outputs, and the two results as
  slices of the last region's output.
-/
import proofs.«128211_j27066883899544_2_alg».proof.Proof.KHostBase

set_option maxRecDepth 16384
set_option quotPrecheck false

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)

/-- The regions' outputs, as the fold names them. -/
abbrev H1k := W4 m ρ c (Proc.devRef .tc main_v27)
abbrev P2k := W5 m ρ c (Proc.devRef .tc main_v28)
abbrev H2k := W7 m ρ c (Proc.devRef .tc main_v40)
abbrev P3k := W9 m ρ c (Proc.devRef .tc main_v44)
abbrev O3k := W11 m ρ c (Proc.devRef .tc main_v56)

/-! ## Region 1's windows -/

theorem W4_arg4 : W4 m ρ c (Proc.devRef .tc main_arg4) = x4 := by reg_skip; exact W3_arg4 m ρ c

/-! ## Region 2's windows -/

theorem W5_v1 : W5 m ρ c (Proc.devRef .tc main_v1) = Cert.ReferenceIdeal.ReadP.val_main_v1 (F := Ideal) x13 := by
  reg_skip; reg_skip; exact W3_v1 m ρ c
theorem W5_v3 : W5 m ρ c (Proc.devRef .tc main_v3) = Cert.ReferenceIdeal.ReadP.val_main_v3 (F := Ideal) x13 := by
  reg_skip; reg_skip; exact W3_v3 m ρ c
theorem W5_arg5 : W5 m ρ c (Proc.devRef .tc main_arg5) = x5 := by reg_skip; reg_skip; exact W3_arg5 m ρ c

set_option maxHeartbeats 1000000 in
/-- The stretch before the second region, over ANY contents of the buffers it reads: the rows of the projected features
    gathered at the edges' source rows (a negative word wrapped once) and added at the edges' target rows, onto zeros. -/
theorem v38_after (V5 : Valuation τ sig (Elt Ideal))
    (a1 a3 : (⟨S800000, .i32⟩ : BufTy).Contents (Elt Ideal)) (a28 : (⟨S50000x128, .f32⟩ : BufTy).Contents (Elt Ideal))
    (h1 : V5 (Proc.devRef .tc main_v1) = a1) (h3 : V5 (Proc.devRef .tc main_v3) = a3)
    (h28 : V5 (Proc.devRef .tc main_v28) = a28) :
    StableHlo.after hostOps2 V5 (Proc.devRef .tc main_v38)
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 a3)
          (Host.gather gather_S50000x128_S800000x1_S800000x128_1_0_n_n_0_1_1128 a28
            (broadcastInDim S800000x1 ![0] bcast_S800000_S800000x1_0
              (select (cmpi CmpIPredicate.slt a1 (broadcastInDim S800000 ![] bcast_S_S800000 (constantI S_ 32 0#32)))
                (addi a1 (broadcastInDim S800000 ![] bcast_S_S800000 (constantI S_ 32 50000#32))) a1))) := by
  dsimp only [hostOps2]
  after_results
  rw [h1, h3, h28]

/-- The second layer's neighbour sums are taken of the projected rows: gathered at the source column, added at the
    target column. -/
theorem W6_v38 : W6 m ρ c (Proc.devRef .tc main_v38)
    = Host.scatterAdd (F := Ideal) scatter_S50000x128_S800000x1_S800000x128_1_0_0_1
        (broadcastInDim S50000x128 ![] bcast_S_S50000x128 (constant (F := Ideal) S_ .f32 0x00000000#32))
        (Cert.ReferenceIdeal.ReadP.val_main_v23 (F := Ideal) x13)
        (Host.gather gather_S50000x128_S800000x1_S800000x128_1_0_n_n_0_1_1128 (P2k m ρ c)
          (Cert.ReferenceIdeal.ReadP.val_main_v20 (F := Ideal) x13)) := by
  refine (v38_after (W5 m ρ c) _ _ _ (W5_v1 m ρ c) (W5_v3 m ρ c) rfl).trans ?_
  rw [e_src, e_dst]

theorem W6_v15 : W6 m ρ c (Proc.devRef .tc main_v15)
    = shapeCast S50000x1 (Cert.ReferenceIdeal.ReadP.val_main_v14 (F := Ideal) x13) shapeCasts_S50000_S50000x1 := by
  host_skip; reg_skip; reg_in0 1; exact W3_v15 m ρ c

theorem W6_v27 : W6 m ρ c (Proc.devRef .tc main_v27) = H1k m ρ c := by host_skip; reg_in1 0; rfl

theorem W6_arg6 : W6 m ρ c (Proc.devRef .tc main_arg6) = x6 := by host_skip; reg_skip; reg_skip; exact W3_arg6 m ρ c

theorem W6_v39 : W6 m ρ c (Proc.devRef .tc main_v39) = shapeCast S1x128 x5 shapeCasts_S128_S1x128 := by
  show StableHlo.after hostOps2 (W5 m ρ c) (Proc.devRef .tc main_v39) = _
  dsimp only [hostOps2]
  after_results
  rw [W5_arg5]
  rfl

/-! ## Region 3's windows -/

theorem W7_arg7 : W7 m ρ c (Proc.devRef .tc main_arg7) = x7 := by reg_skip; host_skip; reg_skip; reg_skip; exact W3_arg7 m ρ c
theorem W7_arg8 : W7 m ρ c (Proc.devRef .tc main_arg8) = x8 := by reg_skip; host_skip; reg_skip; reg_skip; exact W3_arg8 m ρ c
theorem W7_arg9 : W7 m ρ c (Proc.devRef .tc main_arg9) = x9 := by reg_skip; host_skip; reg_skip; reg_skip; exact W3_arg9 m ρ c
theorem W7_arg10 : W7 m ρ c (Proc.devRef .tc main_arg10) = x10 := by reg_skip; host_skip; reg_skip; reg_skip; exact W3_arg10 m ρ c
theorem W7_arg11 : W7 m ρ c (Proc.devRef .tc main_arg11) = x11 := by reg_skip; host_skip; reg_skip; reg_skip; exact W3_arg11 m ρ c
theorem W7_arg12 : W7 m ρ c (Proc.devRef .tc main_arg12) = x12 := by reg_skip; host_skip; reg_skip; reg_skip; exact W3_arg12 m ρ c

theorem W8_v40 : W8 m ρ c (Proc.devRef .tc main_v40) = H2k m ρ c := by host_skip; rfl

/-- The two heads' projection matrices side by side. -/
theorem W8_v41 : W8 m ρ c (Proc.devRef .tc main_v41)
    = concatenate S128x32 1 [⟨S128x16, x7⟩, ⟨S128x16, x10⟩] concatenates_S128x16_S128x16_S128x32_d1 := by
  show StableHlo.after hostOps3 (W7 m ρ c) (Proc.devRef .tc main_v41) = _
  dsimp only [hostOps3]
  after_results
  rw [W7_arg7, W7_arg10]

/-- The two heads' root matrices side by side. -/
theorem W8_v42 : W8 m ρ c (Proc.devRef .tc main_v42)
    = concatenate S128x32 1 [⟨S128x16, x9⟩, ⟨S128x16, x12⟩] concatenates_S128x16_S128x16_S128x32_d1 := by
  show StableHlo.after hostOps3 (W7 m ρ c) (Proc.devRef .tc main_v42) = _
  dsimp only [hostOps3]
  after_results
  rw [W7_arg9, W7_arg12]

/-- The two heads' biases end to end. -/
theorem W8_v43 : W8 m ρ c (Proc.devRef .tc main_v43)
    = concatenate S32 0 [⟨S16, x8⟩, ⟨S16, x11⟩] concatenates_S16_S16_S32_d0 := by
  show StableHlo.after hostOps3 (W7 m ρ c) (Proc.devRef .tc main_v43) = _
  dsimp only [hostOps3]
  after_results
  rw [W7_arg8, W7_arg11]

/-! ## Region 4's windows -/

theorem W9_v1 : W9 m ρ c (Proc.devRef .tc main_v1) = Cert.ReferenceIdeal.ReadP.val_main_v1 (F := Ideal) x13 := by
  reg_skip; host_skip; reg_skip; host_skip; exact W5_v1 m ρ c
theorem W9_v3 : W9 m ρ c (Proc.devRef .tc main_v3) = Cert.ReferenceIdeal.ReadP.val_main_v3 (F := Ideal) x13 := by
  reg_skip; host_skip; reg_skip; host_skip; exact W5_v3 m ρ c
theorem W9_v43 : W9 m ρ c (Proc.devRef .tc main_v43)
    = concatenate S32 0 [⟨S16, x8⟩, ⟨S16, x11⟩] concatenates_S16_S16_S32_d0 := by
  reg_skip; exact W8_v43 m ρ c

set_option maxHeartbeats 1000000 in
/-- The stretch before the fourth region, over ANY contents of the buffers it reads: the rows of the heads' projected
    features gathered at the edges' source rows and added at the edges' target rows, onto zeros. -/
theorem v54_after (V9 : Valuation τ sig (Elt Ideal))
    (a1 a3 : (⟨S800000, .i32⟩ : BufTy).Contents (Elt Ideal)) (a44 : (⟨S50000x32, .f32⟩ : BufTy).Contents (Elt Ideal))
    (h1 : V9 (Proc.devRef .tc main_v1) = a1) (h3 : V9 (Proc.devRef .tc main_v3) = a3)
    (h44 : V9 (Proc.devRef .tc main_v44) = a44) :
    StableHlo.after hostOps4 V9 (Proc.devRef .tc main_v54)
      = Host.scatterAdd (F := Ideal) scatter_S50000x32_S800000x1_S800000x32_1_0_0_1
          (broadcastInDim S50000x32 ![] bcast_S_S50000x32 (constant (F := Ideal) S_ .f32 0x00000000#32))
          (broadcastInDim S800000x1 ![0] bcast_S800000_S800000x1_0 a3)
          (Host.gather gather_S50000x32_S800000x1_S800000x32_1_0_n_n_0_1_132 a44
            (broadcastInDim S800000x1 ![0] bcast_S800000_S800000x1_0
              (select (cmpi CmpIPredicate.slt a1 (broadcastInDim S800000 ![] bcast_S_S800000 (constantI S_ 32 0#32)))
                (addi a1 (broadcastInDim S800000 ![] bcast_S_S800000 (constantI S_ 32 50000#32))) a1))) := by
  dsimp only [hostOps4]
  after_results
  rw [h1, h3, h44]

/-- The heads' neighbour sums are taken of the projected rows. -/
theorem W10_v54 : W10 m ρ c (Proc.devRef .tc main_v54)
    = Host.scatterAdd (F := Ideal) scatter_S50000x32_S800000x1_S800000x32_1_0_0_1
        (broadcastInDim S50000x32 ![] bcast_S_S50000x32 (constant (F := Ideal) S_ .f32 0x00000000#32))
        (Cert.ReferenceIdeal.ReadP.val_main_v23 (F := Ideal) x13)
        (Host.gather gather_S50000x32_S800000x1_S800000x32_1_0_n_n_0_1_132 (P3k m ρ c)
          (Cert.ReferenceIdeal.ReadP.val_main_v20 (F := Ideal) x13)) := by
  refine (v54_after (W9 m ρ c) _ _ _ (W9_v1 m ρ c) (W9_v3 m ρ c) rfl).trans ?_
  rw [e_src, e_dst]

theorem W10_v15 : W10 m ρ c (Proc.devRef .tc main_v15)
    = shapeCast S50000x1 (Cert.ReferenceIdeal.ReadP.val_main_v14 (F := Ideal) x13) shapeCasts_S50000_S50000x1 := by
  host_skip; reg_skip; host_skip; reg_in2 1; exact W6_v15 m ρ c

theorem W10_v40 : W10 m ρ c (Proc.devRef .tc main_v40) = H2k m ρ c := by host_skip; reg_in3 0; host_skip; rfl

theorem W10_v42 : W10 m ρ c (Proc.devRef .tc main_v42)
    = concatenate S128x32 1 [⟨S128x16, x9⟩, ⟨S128x16, x12⟩] concatenates_S128x16_S128x16_S128x32_d1 := by
  host_skip; reg_skip; exact W8_v42 m ρ c

theorem W10_v55 : W10 m ρ c (Proc.devRef .tc main_v55)
    = shapeCast S1x32 (concatenate S32 0 [⟨S16, x8⟩, ⟨S16, x11⟩] concatenates_S16_S16_S32_d0) shapeCasts_S32_S1x32 := by
  show StableHlo.after hostOps4 (W9 m ρ c) (Proc.devRef .tc main_v55) = _
  dsimp only [hostOps4]
  after_results
  rw [W9_v43]
  rfl

/-! ## The two results -/

theorem W12_v57 : W12 m ρ c (Proc.devRef .tc main_v57)
    = extractStridedSlice S50000x16 ![0, 0] (O3k m ρ c) slices_S50000x32_S50000x16_0_0 := by
  show StableHlo.after hostOps5 (W11 m ρ c) (Proc.devRef .tc main_v57) = _
  dsimp only [hostOps5]
  after_results

theorem W12_v58 : W12 m ρ c (Proc.devRef .tc main_v58)
    = extractStridedSlice S50000x16 ![0, 16] (O3k m ρ c) slices_S50000x32_S50000x16_0_16 := by
  show StableHlo.after hostOps5 (W11 m ρ c) (Proc.devRef .tc main_v58) = _
  dsimp only [hostOps5]
  after_results

end Cert.KernelIdeal.HostValue

end
-- ==== Proof.KernelRun.lean ====
/-
  The idealized kernel program's run with its results named.

  @main is five pipelined regions among stretches of host operations. The generated frame certificate folds the buffer
  contents through those segments: `Gen.W12 m ρ c` is what core c's buffers hold after the last segment, as a function of
  the launch memory. The launch theorem for a program of regions ends by reading every unscoped buffer of the final state
  against that fold; here that reading is kept for all buffers, so the two results are named as well as the arguments.
-/
import proofs.«128211_j27066883899544_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends at
    the fold of the segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The run with the two results named: each is the last fold's contents at its buffer; the arguments end as launched. -/
theorem run_results : θ_run defs (onTc (τ := τ) (main (F := F))) ⟨m, fun _ => 0, ρ⟩ (fun r => ∀ c : Dev nD,
      r.2.mem ((c.tc : Thread nD τ).loc main_v57) = W12 m ρ c (Proc.devRef .tc main_v57)
      ∧ r.2.mem ((c.tc : Thread nD τ).loc main_v58) = W12 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v57 (by decide)),
       h c _ (mem_uc main_v58 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)
    (run_all m ρ)

end Cert.KernelIdeal.RunValue

end
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.GraphConv.lean ====
/-
  Mean-aggregation graph convolutions over the extended reals, as plain formulas.

  A node p of a graph with N nodes and E edges receives the rows of a feature table T : N × C carried by the edges that
  land on it: `nsum L s T p q = Σ_{e ∈ L p} T (s e) q`, where `L p` is the finite set of edges landing on p and `s e` the
  node edge e starts from. A layer scales that neighbour sum by a per-node factor d p (the inverse in-degree), maps it
  through W, adds a bias and the node's own row mapped through W':

      layerRef      : (Σ_k (nsum T p k · d p) · W k q  +  b q)  +  Σ_k T p k · W' k q      aggregate, then project
      layerAggFirst : (Σ_k (nsum T p k · d p) · W k q  +  Σ_k T p k · W' k q)  +  b q      the same, bias added last
      layerProjFirst: (nsum (T·W) p q · d p  +  Σ_k T p k · W' k q)  +  b q                project, then aggregate

  The first two differ by the order of a sum of three terms, and addition of extended reals is commutative and
  associative, so they are equal for all entries. The third moves the projection inside the neighbour sum and the factor
  d p outside the sum over k: Σ_k (Σ_e T(s e,k)) · d · W(k,q) = (Σ_e Σ_k T(s e,k) · W(k,q)) · d. That is distributivity
  and an exchange of two finite sums; it holds on the extended reals when T, d and W have real entries (at infinite
  entries the products and sums of opposite infinities break it), and it is proved by computing both sides in ℝ.
  Real entries are kept by every layer (finite sums and products of reals, max with 0), so two layers can be chained.
-/
import Idealize.ShloMosaic.PureOps.Ideal
import Idealize.ShloMosaic.Lib.ValueIdx
import proofs.«128211_j27066883899544_2_alg».proof.Proof.LibReal

noncomputable section

open scoped BigOperators

namespace GraphConv

open Idealize.ShloMosaic Idealize.ShloMosaic.ValueIdx

/-! ## The formulas -/

section Formulas
variable {N E : Nat} (L : Fin N → Finset (Fin E)) (s : Fin E → Fin N)

/-- The sum of column q of the rows the edges landing on p start from. -/
def nsum {C : Nat} (T : Fin N → Fin C → EReal) (p : Fin N) (q : Fin C) : EReal := ∑ e ∈ L p, T (s e) q

/-- The matrix product. -/
def mm {A K B : Nat} (X : Fin A → Fin K → EReal) (W : Fin K → Fin B → EReal) (p : Fin A) (q : Fin B) : EReal :=
  ∑ k : Fin K, X p k * W k q

/-- Aggregate, scale, project, add the bias, add the root projection. -/
def layerRef {K B : Nat} (T : Fin N → Fin K → EReal) (d : Fin N → EReal) (W : Fin K → Fin B → EReal) (b : Fin B → EReal)
    (W' : Fin K → Fin B → EReal) (p : Fin N) (q : Fin B) : EReal :=
  (mm (fun p k => nsum L s T p k * d p) W p q + b q) + mm T W' p q

/-- The same with the bias added last. -/
def layerAggFirst {K B : Nat} (T : Fin N → Fin K → EReal) (d : Fin N → EReal) (W : Fin K → Fin B → EReal) (b : Fin B → EReal)
    (W' : Fin K → Fin B → EReal) (p : Fin N) (q : Fin B) : EReal :=
  (mm (fun p k => nsum L s T p k * d p) W p q + mm T W' p q) + b q

/-- Project first, then aggregate and scale; root projection, then bias. -/
def layerProjFirst {K B : Nat} (T : Fin N → Fin K → EReal) (d : Fin N → EReal) (W : Fin K → Fin B → EReal) (b : Fin B → EReal)
    (W' : Fin K → Fin B → EReal) (p : Fin N) (q : Fin B) : EReal :=
  (nsum L s (mm T W) p q * d p + mm T W' p q) + b q

end Formulas

/-- The positive part, entry by entry. -/
def relu {A B : Nat} (T : Fin A → Fin B → EReal) (p : Fin A) (q : Fin B) : EReal := max (T p q) 0

/-! ## Arrays and their curried readings -/

/-- A two-axis array of extended reals. -/
abbrev Arr2 (A B : Nat) := (⟨2, ![A, B]⟩ : Shape).Idx → EReal

/-- An array read at its two coordinates. -/
def cur {A B : Nat} (x : Arr2 A B) (p : Fin A) (q : Fin B) : EReal := x (ix2 p q)

/-- The array of a function of two coordinates. -/
def arr {A B : Nat} (f : Fin A → Fin B → EReal) : Arr2 A B := fun i => f (i 0) (i 1)

theorem arr_ix2 {A B : Nat} (f : Fin A → Fin B → EReal) (p : Fin A) (q : Fin B) : arr f (ix2 p q) = f p q := rfl

theorem cur_arr {A B : Nat} (f : Fin A → Fin B → EReal) : cur (arr f) = f := rfl

theorem arr_cur {A B : Nat} (x : Arr2 A B) : arr (cur x) = x := by
  funext i; exact congrArg x (eq_ix2 i).symm

/-! ## What one dense step computes from whole arrays

  The three kinds of dense step, each as one function of whole arrays: M the neighbour sums, D the scale as a column,
  X the nodes' own rows, Wr and Wo the two weight matrices, Bz the bias as a row. -/

/-- Scale the neighbour sums, project them, add the root projection, the bias, take the positive part. -/
def denseOut {A K B : Nat} (M : Arr2 A K) (D : Arr2 A 1) (X : Arr2 A K) (Wr : Arr2 K B) (Bz : Arr2 1 B) (Wo : Arr2 K B) : Arr2 A B :=
  arr fun p q => max ((mm (fun p k => cur M p k * cur D p 0) (cur Wr) p q + mm (cur X) (cur Wo) p q) + cur Bz 0 q) 0

/-- The projection alone. -/
def projOut {A K B : Nat} (X : Arr2 A K) (W : Arr2 K B) : Arr2 A B := arr (mm (cur X) (cur W))

/-- Scale the already projected neighbour sums, add the root projection and the bias. -/
def finishOut {A K B : Nat} (S : Arr2 A B) (D : Arr2 A 1) (X : Arr2 A K) (Wo : Arr2 K B) (Bz : Arr2 1 B) : Arr2 A B :=
  arr fun p q => (cur S p q * cur D p 0 + mm (cur X) (cur Wo) p q) + cur Bz 0 q

/-- The same followed by the positive part. -/
def finishReluOut {A K B : Nat} (S : Arr2 A B) (D : Arr2 A 1) (X : Arr2 A K) (Wo : Arr2 K B) (Bz : Arr2 1 B) : Arr2 A B :=
  arr fun p q => max ((cur S p q * cur D p 0 + mm (cur X) (cur Wo) p q) + cur Bz 0 q) 0

end GraphConv

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RegionLemmas.lean ====
/-
  Shared facts for reading a row-tiled dense step block by block.

  Each dense step of the two-layer graph convolution is computed on blocks of 5000 node rows: a block of the output
  depends only on the same rows of the row-indexed operands and on the whole weight matrices and bias row. Two facts
  are shared by all five steps and are stated here once, over abstract sizes:

    * a matrix product into a zero accumulator, read at the entry (p, q), is the sum over k of l (p, k) * r (k, q);
    * a whole-shape rectangle at offsets (0, 0) is the rectangle at the zero offset function.
-/
import Idealize.ShloMosaic.Lib.Pipeline.Value
import Idealize.ShloMosaic.Lib.ValueIdx
import Idealize.ShloMosaic.Lib.ValueLayout
import Idealize.ShloMosaic.PureOps.Ideal.Laws
import proofs.«128211_j27066883899544_2_alg».proof.Proof.GraphConv
import proofs.«128211_j27066883899544_2_alg».proof.Proof.LibProductAt
import proofs.«128211_j27066883899544_2_alg».proof.Proof.LibLayout

noncomputable section

open scoped BigOperators

namespace Cert.KernelIdeal.RegionValue

open Idealize.ShloMosaic Idealize.ShloMosaic.ValueIdx Cert.ProductAt

/-- The offsets (0, 0) are the zero offset function. -/
theorem hz : (![0, 0] : Fin 2 → Nat) = fun _ => 0 := funext fun a => by fin_cases a <;> rfl

/-- The index built from two numbers below the extents is the index of the two coordinates. -/
theorem at2_ix2 {n0 n1 : Nat} (p : Fin n0) (q : Fin n1) (hp : p.val < n0) (hq : q.val < n1) :
    (at2 p.val hp q.val hq : (⟨2, ![n0, n1]⟩ : Shape).Idx) = ix2 p q := by
  funext a; match a with | ⟨0, _⟩ => rfl | ⟨1, _⟩ => rfl

/-- A product [A, K] × [K, B] into the zero accumulator, read at (p, q): the sum over k of l (p, k) · r (k, q). -/
theorem matmul_zero_at {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, product_sum_eq d hr hs hlc hrc hl0 hr1 l r (ix2 p q)]
  refine Finset.sum_congr rfl fun k _ => ?_
  exact congr (congrArg HMul.hMul (congrArg l (at2_ix2 p k _ _))) (congrArg r (at2_ix2 k q _ _))

/-! ## The dense steps' formulas at an entry -/

open GraphConv

theorem projOut_ix2 {A K B : Nat} (X : Arr2 A K) (W : Arr2 K B) (p : Fin A) (q : Fin B) :
    projOut X W (ix2 p q) = ∑ k : Fin K, X (ix2 p k) * W (ix2 k q) := rfl

theorem finishOut_ix2 {A K B : Nat} (S : Arr2 A B) (D : Arr2 A 1) (X : Arr2 A K) (Wo : Arr2 K B) (Bz : Arr2 1 B)
    (p : Fin A) (q : Fin B) :
    finishOut S D X Wo Bz (ix2 p q)
      = (S (ix2 p q) * D (ix2 p (0 : Fin 1)) + ∑ k : Fin K, X (ix2 p k) * Wo (ix2 k q)) + Bz (ix2 (0 : Fin 1) q) := rfl

theorem finishReluOut_ix2 {A K B : Nat} (S : Arr2 A B) (D : Arr2 A 1) (X : Arr2 A K) (Wo : Arr2 K B) (Bz : Arr2 1 B)
    (p : Fin A) (q : Fin B) :
    finishReluOut S D X Wo Bz (ix2 p q)
      = max ((S (ix2 p q) * D (ix2 p (0 : Fin 1)) + ∑ k : Fin K, X (ix2 p k) * Wo (ix2 k q)) + Bz (ix2 (0 : Fin 1) q)) 0 := rfl

theorem denseOut_ix2 {A K B : Nat} (M : Arr2 A K) (D : Arr2 A 1) (X : Arr2 A K) (Wr : Arr2 K B) (Bz : Arr2 1 B) (Wo : Arr2 K B)
    (p : Fin A) (q : Fin B) :
    denseOut M D X Wr Bz Wo (ix2 p q)
      = max (((∑ k : Fin K, (M (ix2 p k) * D (ix2 p (0 : Fin 1))) * Wr (ix2 k q)) + ∑ k : Fin K, X (ix2 p k) * Wo (ix2 k q))
          + Bz (ix2 (0 : Fin 1) q)) 0 := rfl

end Cert.KernelIdeal.RegionValue

end
-- ==== Proof.Region0.lean ====
/-
  The first dense step, from blocks to the whole array.

  The step reads the neighbour sums M : 50000 × 64, the scale as a column D : 50000 × 1, the nodes' own rows
  X : 50000 × 64, two weight matrices Wr, Wo : 64 × 256 and the bias as a row Bz : 1 × 256. It runs over ten blocks of
  5000 node rows; at each block it reads the same rows of M, D and X and the whole of the weights and the bias, and writes
  the same rows of the result. Entry (p, q) of a block's result is the positive part of
      Σ_k (M (row, k) · D (row, 0)) · Wr (k, q) + Σ_k X (row, k) · Wo (k, q) + Bz (0, q),
  where row is the block's first row plus p: conversion to the narrower float format is the identity on extended reals,
  each product accumulates into zero, a column broadcast along the columns holds its row's entry and a row broadcast
  along the rows its column's entry. The ten blocks tile the 50000 rows.
-/
import proofs.«128211_j27066883899544_2_alg».proof.Proof.Gen.KernelIdeal.Frame
import proofs.«128211_j27066883899544_2_alg».proof.Proof.RegionLemmas

noncomputable section

open scoped BigOperators

namespace Cert.KernelIdeal.RegionValue

open Cert.KernelIdeal Cert.KernelIdeal.Gen GraphConv
open Idealize.ShloMosaic Idealize.ShloMosaic.TcCoe Idealize.ShloMosaic.ValueIdx Idealize.SL.Sem
open Idealize.ShloMosaic.Pipeline (Dat)

/-! ## The products' dimension numbers -/

theorem dot0_l0 (j : S5000x256.Idx) (q : dot_S5000x64_S64x256_S5000x256_1_0_0_1_n_n.contr.Idx) :
    (dot_S5000x64_S64x256_S5000x256_1_0_0_1_n_n.lhsIdx j q 0).val = (j 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl

theorem dot0_r1 (j : S5000x256.Idx) (q : dot_S5000x64_S64x256_S5000x256_1_0_0_1_n_n.contr.Idx) :
    (dot_S5000x64_S64x256_S5000x256_1_0_0_1_n_n.rhsIdx j q 1).val = (j 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-! ## One block -/

/-- Entry (p, q) of what a block stores. -/
theorem pay0_at (v0 : Vec Ideal S5000x64 .f32) (v2 : Vec Ideal S5000x1 .f32) (v7 : Vec Ideal S5000x64 .f32)
    (v9 : Vec Ideal S64x256 .f32) (v11 : Vec Ideal S64x256 .f32) (v16 : Vec Ideal S1x256 .f32) (p : Fin 5000) (q : Fin 256) :
    k0_pay1 (F := Ideal) v0 v2 v7 v9 v11 v16 (ix2 p q)
      = max (((∑ k : Fin 64, (v0 (ix2 p k) * v2 (ix2 p (0 : Fin 1))) * v9 (ix2 k q)) + ∑ k : Fin 64, v7 (ix2 p k) * v11 (ix2 k q))
          + v16 (ix2 (0 : Fin 1) q)) 0 := by
  unfold k0_pay1
  refine Eq.trans (congrArg₂ max (congrArg₂ (· + ·) (congrArg₂ (· + ·)
      (matmul_zero_at dot_S5000x64_S64x256_S5000x256_1_0_0_1_n_n rfl rfl rfl rfl dot0_l0 dot0_r1 none _ _ p q)
      (matmul_zero_at dot_S5000x64_S64x256_S5000x256_1_0_0_1_n_n rfl rfl rfl rfl dot0_l0 dot0_r1 none _ _ p q))
      ((broadcastTo_1b_ab_apply (shapeCast S1x256 v16 shapeCasts_S1x256_S1x256) broadcasts_S1x256_S5000x256 p q).trans
        (congrFun (shapeCast_self v16 shapeCasts_S1x256_S1x256) _))) Ideal.ofBits_zero_f32) ?_
  refine congrArg₂ max (congrArg₂ (· + ·) (congrArg₂ (· + ·) (Finset.sum_congr rfl fun k _ => ?_) (Finset.sum_congr rfl fun k _ => ?_)) rfl) rfl
  · rw [truncf_apply, truncf_apply, mulf_apply, shapeCast_self, shapeCast_self, broadcastTo_a1_ab_apply]
  · rw [truncf_apply, truncf_apply]

/-! ## The ten blocks -/

/-- Where each window's block sits at grid point t: the row-indexed windows at block row t, the weights and the bias
    at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

set_option maxHeartbeats 2000000 in
/-- What grid point t writes back is block t of the dense step's formula of the arrays the step finds. -/
theorem flushed0_eq (c : Dev nD) (t : Fin cfg0.N) :
    (dat0 (F := Ideal) V c).flushed 6 t
      = ((cfg0.win 6).blk t).view.read (Elt Ideal)
          (denseOut (A := 50000) (K := 64) (B := 256) (V c (Pipeline.arrRef spec0 0)) (V c (Pipeline.arrRef spec0 1))
            (V c (Pipeline.arrRef spec0 2)) (V c (Pipeline.arrRef spec0 3)) (V c (Pipeline.arrRef spec0 4)) (V c (Pipeline.arrRef spec0 5))) := by
  show (cfg0.win 6).cut (grid0.coords t) ((dat0 (F := Ideal) V c).after 6 t) = _
  rw [after0_6]
  unfold out0_6
  rw [View.canon_unit_zero hz]
  simp only [View.ld_unit_zero (S := S5000x64) hz, View.ld_unit_zero (S := S5000x1) hz, View.ld_unit_zero (S := S64x256) hz,
    View.ld_unit_zero (S := S1x256) hz]
  obtain ⟨a0, a1, b0, b1, c0, c1, d0, d1, e0, e1, f0, f1, g0, g1⟩ := idx_facts0 t
  have ht : t.val < 10 := lt_of_lt_of_eq t.isLt N_0
  funext j
  obtain ⟨p, q, rfl⟩ : ∃ (p : Fin 5000) (q : Fin 256), j = ix2 p q := ⟨j 0, j 1, eq_ix2 j⟩
  have hp : p.val < 5000 := p.isLt
  have hP : t.val * 5000 + p.val < 50000 := by omega
  show k0_pay1 (F := Ideal) (iblk0 V c 0 t) (iblk0 V c 1 t) (iblk0 V c 2 t) (iblk0 V c 3 t) (iblk0 V c 5 t) (iblk0 V c 4 t) (ix2 p q)
      = denseOut (A := 50000) (K := 64) (B := 256) (V c (Pipeline.arrRef spec0 0)) (V c (Pipeline.arrRef spec0 1))
          (V c (Pipeline.arrRef spec0 2)) (V c (Pipeline.arrRef spec0 3)) (V c (Pipeline.arrRef spec0 4)) (V c (Pipeline.arrRef spec0 5))
          (((cfg0.win 6).blk t).view.emb (ix2 p q))
  refine (pay0_at (iblk0 V c 0 t) (iblk0 V c 1 t) (iblk0 V c 2 t) (iblk0 V c 3 t) (iblk0 V c 5 t) (iblk0 V c 4 t) p q).trans ?_
  have hemb : ((cfg0.win 6).blk t).view.emb (ix2 p q) = (ix2 (⟨t.val * 5000 + p.val, hP⟩ : Fin 50000) q : S50000x256.Idx) := by
    funext a; apply Fin.ext
    match a with
    | ⟨0, _⟩ => show win0_6.index t (0 : Fin 2) * 5000 + 1 * p.val = t.val * 5000 + p.val; omega
    | ⟨1, _⟩ => show win0_6.index t (1 : Fin 2) * 256 + 1 * q.val = q.val; omega
  refine Eq.trans ?_ (congrArg (denseOut (A := 50000) (K := 64) (B := 256) (V c (Pipeline.arrRef spec0 0)) (V c (Pipeline.arrRef spec0 1))
    (V c (Pipeline.arrRef spec0 2)) (V c (Pipeline.arrRef spec0 3)) (V c (Pipeline.arrRef spec0 4)) (V c (Pipeline.arrRef spec0 5))) hemb.symm)
  refine Eq.trans ?_ (denseOut_ix2 (A := 50000) (K := 64) (B := 256) (V c (Pipeline.arrRef spec0 0)) (V c (Pipeline.arrRef spec0 1))
    (V c (Pipeline.arrRef spec0 2)) (V c (Pipeline.arrRef spec0 3)) (V c (Pipeline.arrRef spec0 4)) (V c (Pipeline.arrRef spec0 5)) ⟨t.val * 5000 + p.val, hP⟩ q).symm
  have h0 : ∀ k : Fin 64, ((cfg0.win 0).blk t).view.emb (ix2 p k) = (ix2 (⟨t.val * 5000 + p.val, hP⟩ : Fin 50000) k : S50000x64.Idx) := fun k => by
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  have h1 : ((cfg0.win 1).blk t).view.emb (ix2 p (0 : Fin 1)) = (ix2 (⟨t.val * 5000 + p.val, hP⟩ : Fin 50000) (0 : Fin 1) : S50000x1.Idx) := by
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  have h2 : ∀ k : Fin 64, ((cfg0.win 2).blk t).view.emb (ix2 p k) = (ix2 (⟨t.val * 5000 + p.val, hP⟩ : Fin 50000) k : S50000x64.Idx) := fun k => by
    funext a; apply Fin.ext
    match a with
    | ⟨0, _⟩ => show win0_2.index t (0 : Fin 2) * 5000 + 1 * p.val = t.val * 5000 + p.val; omega
    | ⟨1, _⟩ => show win0_2.index t (1 : Fin 2) * 64 + 1 * k.val = k.val; omega
  have h3 : ∀ k : Fin 64, ((cfg0.win 3).blk t).view.emb (ix2 k q) = (ix2 k q : S64x256.Idx) := fun k => by
    funext a; apply Fin.ext
    match a with
    | ⟨0, _⟩ => show win0_3.index t (0 : Fin 2) * 64 + 1 * k.val = k.val; omega
    | ⟨1, _⟩ => show win0_3.index t (1 : Fin 2) * 256 + 1 * q.val = q.val; omega
  have h4 : ((cfg0.win 4).blk t).view.emb (ix2 (0 : Fin 1) q) = (ix2 (0 : Fin 1) q : S1x256.Idx) := by
    funext a; apply Fin.ext
    match a with
    | ⟨0, _⟩ => show win0_4.index t (0 : Fin 2) * 1 + 1 * 0 = 0; omega
    | ⟨1, _⟩ => show win0_4.index t (1 : Fin 2) * 256 + 1 * q.val = q.val; omega
  have h5 : ∀ k : Fin 64, ((cfg0.win 5).blk t).view.emb (ix2 k q) = (ix2 k q : S64x256.Idx) := fun k => by
    funext a; apply Fin.ext
    match a with
    | ⟨0, _⟩ => show win0_5.index t (0 : Fin 2) * 64 + 1 * k.val = k.val; omega
    | ⟨1, _⟩ => show win0_5.index t (1 : Fin 2) * 256 + 1 * q.val = q.val; omega
  refine congrArg₂ max (congrArg₂ (· + ·) (congrArg₂ (· + ·) (Finset.sum_congr rfl fun k _ => ?_) (Finset.sum_congr rfl fun k _ => ?_)) ?_) rfl
  · exact congrArg₂ HMul.hMul
      (congrArg₂ HMul.hMul (congrArg (V c (Pipeline.arrRef spec0 0) : Arr2 50000 64) (h0 k))
        (congrArg (V c (Pipeline.arrRef spec0 1) : Arr2 50000 1) h1))
      (congrArg (V c (Pipeline.arrRef spec0 3) : Arr2 64 256) (h3 k))
  · exact congrArg₂ HMul.hMul (congrArg (V c (Pipeline.arrRef spec0 2) : Arr2 50000 64) (h2 k))
      (congrArg (V c (Pipeline.arrRef spec0 5) : Arr2 64 256) (h5 k))
  · exact congrArg (V c (Pipeline.arrRef spec0 4) : Arr2 1 256) h4

/-- An index of the result array is in grid point t's block iff each coordinate is in the block's range. -/
theorem mem_blk0 (t : Fin cfg0.N) (i : S50000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v27).slice (win0_6.rect t)).set ↔ _
  rw [View.set_slice_whole, Rect.mem_set_unit]
  exact Iff.rfl

/-- Every row of the result lies in the block of the grid point row / 5000. -/
theorem cover0 (i : S50000x256.Idx) :
    ∃ t : Fin cfg0.N, (cfg0.win 6).flush t = true ∧ i ∈ ((cfg0.win 6).blk t).view.set := by
  have hi0 : (i 0).val < 50000 := idx2_lt0 i
  have hi1 : (i 1).val < 256 := idx2_lt1 i
  have hN : grid0.N = 10 := N_0
  let t : Fin cfg0.N := ⟨(i 0).val / 5000, by show (i 0).val / 5000 < grid0.N; omega⟩
  obtain ⟨a0, a1, b0, b1, c0, c1, d0, d1, e0, e1, f0, f1, g0, g1⟩ := idx_facts0 t
  have g0' : win0_6.index t (0 : Fin 2) = (i 0).val / 5000 := g0
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 256 ≤ (i 1).val ∧ (i 1).val < win0_6.index t (1 : Fin 2) * 256 + 256; omega

/-- After the ten blocks the result array is the dense step's formula of the arrays the step finds. -/
theorem final0 (c : Dev nD) :
    (dat0 (F := Ideal) V c).arrAt 6 cfg0.N
      = denseOut (A := 50000) (K := 64) (B := 256) (V c (Pipeline.arrRef spec0 0)) (V c (Pipeline.arrRef spec0 1))
          (V c (Pipeline.arrRef spec0 2)) (V c (Pipeline.arrRef spec0 3)) (V c (Pipeline.arrRef spec0 4)) (V c (Pipeline.arrRef spec0 5)) :=
  (dat0 (F := Ideal) V c).arrAt_eq_of_cover 6 _ (fun t _ => flushed0_eq V c t) cover0

end Cert.KernelIdeal.RegionValue

end
-- ==== Proof.Region1.lean ====
/-
  The first projection step, from blocks to the whole array.

  The step multiplies the hidden features h1 : 50000 × 256 by a weight matrix W : 256 × 128. It runs over ten blocks of
  5000 node rows; at each block it reads the same rows of h1 and the whole of W, and writes the same rows of the result.
  Entry (p, q) of a block's result is the sum over k of h1 (row, k) · W (k, q), where row is the block's first row
  plus p: conversion to the narrower float format is the identity on extended reals and the product accumulates into
  zero. The ten blocks tile the 50000 rows, so after the last block the result array is the matrix product, entry by
  entry.
-/
import proofs.«128211_j27066883899544_2_alg».proof.Proof.Gen.KernelIdeal.Frame
import proofs.«128211_j27066883899544_2_alg».proof.Proof.RegionLemmas

noncomputable section

open scoped BigOperators

namespace Cert.KernelIdeal.RegionValue

open Cert.KernelIdeal Cert.KernelIdeal.Gen GraphConv
open Idealize.ShloMosaic Idealize.ShloMosaic.TcCoe Idealize.ShloMosaic.ValueIdx Idealize.SL.Sem
open Idealize.ShloMosaic.Pipeline (Dat)

/-! ## The product's dimension numbers -/

theorem dot1_l0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl

theorem dot1_r1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-! ## One block -/

/-- Entry (p, q) of what a block stores: the sum over k of the block's row p of h1 times column q of W. -/
theorem pay1_at (x0 : Vec Ideal S5000x256 .f32) (x1 : Vec Ideal S256x128 .f32) (p : Fin 5000) (q : Fin 128) :
    k1_pay1 (F := Ideal) x0 x1 (ix2 p q) = ∑ k : Fin 256, x0 (ix2 p k) * x1 (ix2 k q) := by
  unfold k1_pay1
  refine (matmul_zero_at dot_S5000x256_S256x128_S5000x128_1_0_0_1_n_n rfl rfl rfl rfl dot1_l0 dot1_r1 none _ _ p q).trans ?_
  refine Finset.sum_congr rfl fun k _ => ?_
  rw [truncf_apply, truncf_apply, shapeCast_self]

/-! ## The ten blocks -/

/-- Where each window's block sits at grid point t: the row-indexed windows at block row t, the weights at (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t of the matrix product of the arrays the step finds. -/
theorem flushed1_eq (c : Dev nD) (t : Fin cfg1.N) :
    (dat1 (F := Ideal) V c).flushed 2 t
      = ((cfg1.win 2).blk t).view.read (Elt Ideal)
          (projOut (A := 50000) (K := 256) (B := 128) (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero hz]
  simp only [View.ld_unit_zero (S := S5000x256) hz, View.ld_unit_zero (S := S256x128) hz]
  obtain ⟨e0, e1, e2, e3, e4, e5⟩ := idx_facts1 t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hP : t.val * 5000 + p.val < 50000 := by omega
  show k1_pay1 (F := Ideal) (iblk1 V c 0 t) (iblk1 V c 1 t) (ix2 p q)
      = projOut (A := 50000) (K := 256) (B := 128) (V c (Pipeline.arrRef spec1 0)) (V c (Pipeline.arrRef spec1 1)) (((cfg1.win 2).blk t).view.emb (ix2 p q))
  refine (pay1_at (iblk1 V c 0 t) (iblk1 V c 1 t) p q).trans ?_
  have hemb : ((cfg1.win 2).blk t).view.emb (ix2 p q) = (ix2 (⟨t.val * 5000 + p.val, hP⟩ : Fin 50000) q : S50000x128.Idx) := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  refine Eq.trans ?_ (congrArg (projOut (A := 50000) (K := 256) (B := 128) (V c (Pipeline.arrRef spec1 0)) (V c (Pipeline.arrRef spec1 1))) hemb.symm)
  refine Eq.trans ?_ (projOut_ix2 (A := 50000) (K := 256) (B := 128) (V c (Pipeline.arrRef spec1 0)) (V c (Pipeline.arrRef spec1 1)) ⟨t.val * 5000 + p.val, hP⟩ q).symm
  refine Finset.sum_congr rfl fun k _ => ?_
  have h0 : ((cfg1.win 0).blk t).view.emb (ix2 p k) = (ix2 (⟨t.val * 5000 + p.val, hP⟩ : Fin 50000) k : S50000x256.Idx) := by
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  have h1 : ((cfg1.win 1).blk t).view.emb (ix2 k q) = (ix2 k q : S256x128.Idx) := by
    funext a; apply Fin.ext
    match a with
    | ⟨0, _⟩ => show win1_1.index t (0 : Fin 2) * 256 + 1 * k.val = k.val; omega
    | ⟨1, _⟩ => show win1_1.index t (1 : Fin 2) * 128 + 1 * q.val = q.val; omega
  exact congrArg₂ HMul.hMul (congrArg (V c (Pipeline.arrRef spec1 0) : Arr2 50000 256) h0)
    (congrArg (V c (Pipeline.arrRef spec1 1) : Arr2 256 128) h1)

/-- An index of the result array is in grid point t's block iff each coordinate is in the block's range. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v28).slice (win1_2.rect t)).set ↔ _
  rw [View.set_slice_whole, Rect.mem_set_unit]
  exact Iff.rfl

/-- Every row of the result lies in the block of the grid point row / 5000. -/
theorem cover1 (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have hN : grid1.N = 10 := N_1
  let t : Fin cfg1.N := ⟨(i 0).val / 5000, by show (i 0).val / 5000 < grid1.N; omega⟩
  obtain ⟨e0, e1, e2, e3, e4, e5⟩ := idx_facts1 t
  have e4' : win1_2.index t (0 : Fin 2) = (i 0).val / 5000 := e4
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the ten blocks the result array is the matrix product of the arrays the step finds. -/
theorem final1 (c : Dev nD) :
    (dat1 (F := Ideal) V c).arrAt 2 cfg1.N
      = projOut (A := 50000) (K := 256) (B := 128) (V c (Pipeline.arrRef spec1 0)) (V c (Pipeline.arrRef spec1 1)) :=
  (dat1 (F := Ideal) V c).arrAt_eq_of_cover 2 _ (fun t _ => flushed1_eq V c t) cover1

end Cert.KernelIdeal.RegionValue

end
-- ==== Proof.Region2.lean ====
/-
  The first layer's finishing step, from blocks to the whole array.

  The step takes the projected neighbour sums S : 50000 × 128, the per-node scale d as a column, the hidden features
  h1 : 50000 × 256, the root weights W' : 256 × 128 and the bias as a row, and produces
  max (S (p, q) · d p + Σ_k h1 (p, k) · W' (k, q) + b q, 0). It runs over ten blocks of 5000 node rows; at each block it
  reads the same rows of S, d and h1 and the whole of W' and b, and writes the same rows of the result. Entry (p, q) of a
  block's result depends only on row p of the block's operands: the scale column and the bias row are copied along the
  other axis, conversion to the narrower float format is the identity on extended reals, and the product accumulates
  into zero. The ten blocks tile the 50000 rows, so after the last block the result array is that formula, entry by entry.
-/
import proofs.«128211_j27066883899544_2_alg».proof.Proof.Gen.KernelIdeal.Frame
import proofs.«128211_j27066883899544_2_alg».proof.Proof.RegionLemmas

noncomputable section

open scoped BigOperators

namespace Cert.KernelIdeal.RegionValue

open Cert.KernelIdeal Cert.KernelIdeal.Gen GraphConv
open Idealize.ShloMosaic Idealize.ShloMosaic.TcCoe Idealize.ShloMosaic.ValueIdx Idealize.SL.Sem
open Idealize.ShloMosaic.Pipeline (Dat)

/-! ## The product's dimension numbers -/

theorem dot2_l0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl

theorem dot2_r1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-! ## One block -/

/-- Entry (p, q) of what a block stores: the projected neighbour sum scaled by the row's factor, plus the sum over k of
    the block's row p of the features times column q of the root weights, plus the bias at q;
    of that, the positive part. -/
theorem pay2_at (x0 : Vec Ideal S5000x128 .f32) (x1 : Vec Ideal S5000x1 .f32) (x2 : Vec Ideal S5000x256 .f32) (x3 : Vec Ideal S256x128 .f32)
    (x4 : Vec Ideal S1x128 .f32) (p : Fin 5000) (q : Fin 128) :
    k2_pay1 (F := Ideal) x0 x1 x2 x3 x4 (ix2 p q)
      = max ((x0 (ix2 p q) * x1 (ix2 p (0 : Fin 1)) + ∑ k : Fin 256, x2 (ix2 p k) * x3 (ix2 k q)) + x4 (ix2 (0 : Fin 1) q)) 0 := by
  unfold k2_pay1
  simp only [maximumf_apply, addf_apply, mulf_apply, broadcast_apply]
  refine congrArg₂ Max.max (congrArg₂ HAdd.hAdd (congrArg₂ HAdd.hAdd (congrArg₂ HMul.hMul ?_ ?_) ?_) ?_) ?_
  · rw [shapeCast_self]
  · exact (broadcastTo_a1_ab_apply _ _ p q).trans (by rw [shapeCast_self])
  · refine (matmul_zero_at dot_S5000x256_S256x128_S5000x128_1_0_0_1_n_n rfl rfl rfl rfl dot2_l0 dot2_r1 none _ _ p q).trans
      (Finset.sum_congr rfl fun k _ => ?_)
    rw [truncf_apply, truncf_apply, shapeCast_self]
  · exact (broadcastTo_1b_ab_apply _ _ p q).trans (by rw [shapeCast_self])
  · exact Ideal.ofBits_zero_f32

/-! ## The ten blocks -/

/-- Where each window's block sits at grid point t: the row-indexed windows at block row t, the weights and the bias
    row at (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Entry (p, q) of the projected neighbour sums' block at grid point t is entry (5000 t + p, q) of the array. -/
theorem iblk2_0_at (c : Dev nD) (t : Fin cfg2.N) (p : Fin 5000) (q : Fin 128) (hP : t.val * 5000 + p.val < 50000) :
    (iblk2 V c 0 t : Vec Ideal S5000x128 .f32) (ix2 p q) = (V c (Pipeline.arrRef spec2 0) : Arr2 50000 128) (ix2 ⟨t.val * 5000 + p.val, hP⟩ q) := by
  obtain ⟨e00, e01, -, -, -, -, -, -, -, -, -, -⟩ := idx_facts2 t
  show (V c (Pipeline.arrRef spec2 0) : Arr2 50000 128) (((cfg2.win 0).blk t).view.emb (ix2 p q)) = _
  refine congrArg (V c (Pipeline.arrRef spec2 0) : Arr2 50000 128) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * q.val = q.val; omega

/-- Entry p of the scale column's block at grid point t is entry 5000 t + p of the column. -/
theorem iblk2_1_at (c : Dev nD) (t : Fin cfg2.N) (p : Fin 5000) (hP : t.val * 5000 + p.val < 50000) :
    (iblk2 V c 1 t : Vec Ideal S5000x1 .f32) (ix2 p (0 : Fin 1)) = (V c (Pipeline.arrRef spec2 1) : Arr2 50000 1) (ix2 ⟨t.val * 5000 + p.val, hP⟩ (0 : Fin 1)) := by
  obtain ⟨-, -, e10, e11, -, -, -, -, -, -, -, -⟩ := idx_facts2 t
  show (V c (Pipeline.arrRef spec2 1) : Arr2 50000 1) (((cfg2.win 1).blk t).view.emb (ix2 p (0 : Fin 1))) = _
  refine congrArg (V c (Pipeline.arrRef spec2 1) : Arr2 50000 1) (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * 0 = 0; omega

/-- Entry (p, k) of the features' block at grid point t is entry (5000 t + p, k) of the features. -/
theorem iblk2_2_at (c : Dev nD) (t : Fin cfg2.N) (p : Fin 5000) (k : Fin 256) (hP : t.val * 5000 + p.val < 50000) :
    (iblk2 V c 2 t : Vec Ideal S5000x256 .f32) (ix2 p k) = (V c (Pipeline.arrRef spec2 2) : Arr2 50000 256) (ix2 ⟨t.val * 5000 + p.val, hP⟩ k) := by
  obtain ⟨-, -, -, -, e20, e21, -, -, -, -, -, -⟩ := idx_facts2 t
  show (V c (Pipeline.arrRef spec2 2) : Arr2 50000 256) (((cfg2.win 2).blk t).view.emb (ix2 p k)) = _
  refine congrArg (V c (Pipeline.arrRef spec2 2) : Arr2 50000 256) (funext fun a => Fin.ext ?_)
  match a with
  | ⟨0, _⟩ => show win2_2.index t (0 : Fin 2) * 5000 + 1 * p.val = t.val * 5000 + p.val; omega
  | ⟨1, _⟩ => show win2_2.index t (1 : Fin 2) * 256 + 1 * k.val = k.val; omega

/-- The root weights' block at every grid point is the whole weight matrix. -/
theorem iblk2_3_at (c : Dev nD) (t : Fin cfg2.N) (k : Fin 256) (q : Fin 128) :
    (iblk2 V c 3 t : Vec Ideal S256x128 .f32) (ix2 k q) = (V c (Pipeline.arrRef spec2 3) : Arr2 256 128) (ix2 k q) := by
  obtain ⟨-, -, -, -, -, -, e30, e31, -, -, -, -⟩ := idx_facts2 t
  show (V c (Pipeline.arrRef spec2 3) : Arr2 256 128) (((cfg2.win 3).blk t).view.emb (ix2 k q)) = _
  refine congrArg (V c (Pipeline.arrRef spec2 3) : Arr2 256 128) (funext fun a => Fin.ext ?_)
  match a with
  | ⟨0, _⟩ => show win2_3.index t (0 : Fin 2) * 256 + 1 * k.val = k.val; omega
  | ⟨1, _⟩ => show win2_3.index t (1 : Fin 2) * 128 + 1 * q.val = q.val; omega

/-- The bias row's block at every grid point is the whole row. -/
theorem iblk2_4_at (c : Dev nD) (t : Fin cfg2.N) (q : Fin 128) :
    (iblk2 V c 4 t : Vec Ideal S1x128 .f32) (ix2 (0 : Fin 1) q) = (V c (Pipeline.arrRef spec2 4) : Arr2 1 128) (ix2 (0 : Fin 1) q) := by
  obtain ⟨-, -, -, -, -, -, -, -, e40, e41, -, -⟩ := idx_facts2 t
  show (V c (Pipeline.arrRef spec2 4) : Arr2 1 128) (((cfg2.win 4).blk t).view.emb (ix2 (0 : Fin 1) q)) = _
  refine congrArg (V c (Pipeline.arrRef spec2 4) : Arr2 1 128) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- Entry (p, q) of the result's block at grid point t sits at (5000 t + p, q) of the result. -/
theorem emb2_out (t : Fin cfg2.N) (p : Fin 5000) (q : Fin 128) (hP : t.val * 5000 + p.val < 50000) :
    ((cfg2.win 5).blk t).view.emb (ix2 p q) = (ix2 (⟨t.val * 5000 + p.val, hP⟩ : Fin 50000) q : S50000x128.Idx) := by
  obtain ⟨-, -, -, -, -, -, -, -, -, -, e50, e51⟩ := idx_facts2 t
  funext a; apply Fin.ext
  match a with
  | ⟨0, _⟩ => show win2_5.index t (0 : Fin 2) * 5000 + 1 * p.val = t.val * 5000 + p.val; omega
  | ⟨1, _⟩ => show win2_5.index t (1 : Fin 2) * 128 + 1 * q.val = q.val; omega

/-- What grid point t writes back is block t of the step's formula applied to the arrays the step finds. -/
theorem flushed2_eq (c : Dev nD) (t : Fin cfg2.N) :
    (dat2 (F := Ideal) V c).flushed 5 t
      = ((cfg2.win 5).blk t).view.read (Elt Ideal)
          (finishReluOut (A := 50000) (K := 256) (B := 128) (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S5000x1) hz, View.ld_unit_zero (S := S5000x256) hz,
    View.ld_unit_zero (S := S256x128) hz, View.ld_unit_zero (S := S1x128) hz]
  have ht : t.val < 10 := lt_of_lt_of_eq t.isLt N_2
  funext j
  obtain ⟨p, q, rfl⟩ : ∃ (p : Fin 5000) (q : Fin 128), j = ix2 p q := ⟨j 0, j 1, eq_ix2 j⟩
  have hp : p.val < 5000 := p.isLt
  have hP : t.val * 5000 + p.val < 50000 := by omega
  show k2_pay1 (F := Ideal) (iblk2 V c 0 t) (iblk2 V c 1 t) (iblk2 V c 2 t) (iblk2 V c 3 t) (iblk2 V c 4 t) (ix2 p q)
      = finishReluOut (A := 50000) (K := 256) (B := 128) (V c (Pipeline.arrRef spec2 0)) (V c (Pipeline.arrRef spec2 1)) (V c (Pipeline.arrRef spec2 2)) (V c (Pipeline.arrRef spec2 3)) (V c (Pipeline.arrRef spec2 4)) (((cfg2.win 5).blk t).view.emb (ix2 p q))
  refine (pay2_at (iblk2 V c 0 t) (iblk2 V c 1 t) (iblk2 V c 2 t) (iblk2 V c 3 t) (iblk2 V c 4 t) p q).trans ?_
  refine Eq.trans ?_ (congrArg (finishReluOut (A := 50000) (K := 256) (B := 128) (V c (Pipeline.arrRef spec2 0)) (V c (Pipeline.arrRef spec2 1)) (V c (Pipeline.arrRef spec2 2)) (V c (Pipeline.arrRef spec2 3)) (V c (Pipeline.arrRef spec2 4))) (emb2_out t p q hP).symm)
  refine Eq.trans ?_ (finishReluOut_ix2 (A := 50000) (K := 256) (B := 128) (V c (Pipeline.arrRef spec2 0)) (V c (Pipeline.arrRef spec2 1)) (V c (Pipeline.arrRef spec2 2)) (V c (Pipeline.arrRef spec2 3)) (V c (Pipeline.arrRef spec2 4)) ⟨t.val * 5000 + p.val, hP⟩ q).symm
  exact congrArg₂ Max.max (congrArg₂ HAdd.hAdd (congrArg₂ HAdd.hAdd (congrArg₂ HMul.hMul (iblk2_0_at V c t p q hP) (iblk2_1_at V c t p hP))
      (Finset.sum_congr rfl fun k _ => congrArg₂ HMul.hMul (iblk2_2_at V c t p k hP) (iblk2_3_at V c t k q))) (iblk2_4_at V c t q)) rfl

/-- An index of the result array is in grid point t's block iff each coordinate is in the block's range. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v40).slice (win2_5.rect t)).set ↔ _
  rw [View.set_slice_whole, Rect.mem_set_unit]
  exact Iff.rfl

/-- Every row of the result lies in the block of the grid point row / 5000. -/
theorem cover2 (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  have hN : grid2.N = 10 := N_2
  let t : Fin cfg2.N := ⟨(i 0).val / 5000, by show (i 0).val / 5000 < grid2.N; omega⟩
  obtain ⟨-, -, -, -, -, -, -, -, -, -, e50, e51⟩ := idx_facts2 t
  have e50' : win2_5.index t (0 : Fin 2) = (i 0).val / 5000 := e50
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the ten blocks the result array is the step's formula applied to the arrays the step finds. -/
theorem final2 (c : Dev nD) :
    (dat2 (F := Ideal) V c).arrAt 5 cfg2.N
      = finishReluOut (A := 50000) (K := 256) (B := 128) (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed2_eq V c t) cover2

end Cert.KernelIdeal.RegionValue

end
-- ==== Proof.Region3.lean ====
/-
  The second projection step, from blocks to the whole array.

  The step multiplies the hidden features h2 : 50000 × 128 by a weight matrix W : 128 × 32. It runs over ten blocks of
  5000 node rows; at each block it reads the same rows of h2 and the whole of W, and writes the same rows of the result.
  Entry (p, q) of a block's result is the sum over k of h2 (row, k) · W (k, q), where row is the block's first row
  plus p: conversion to the narrower float format is the identity on extended reals and the product accumulates into
  zero. The ten blocks tile the 50000 rows, so after the last block the result array is the matrix product, entry by
  entry.
-/
import proofs.«128211_j27066883899544_2_alg».proof.Proof.Gen.KernelIdeal.Frame
import proofs.«128211_j27066883899544_2_alg».proof.Proof.RegionLemmas

noncomputable section

open scoped BigOperators

namespace Cert.KernelIdeal.RegionValue

open Cert.KernelIdeal Cert.KernelIdeal.Gen GraphConv
open Idealize.ShloMosaic Idealize.ShloMosaic.TcCoe Idealize.ShloMosaic.ValueIdx Idealize.SL.Sem
open Idealize.ShloMosaic.Pipeline (Dat)

/-! ## The product's dimension numbers -/

theorem dot3_l0 (j : S5000x32.Idx) (q : dot_S5000x128_S128x32_S5000x32_1_0_0_1_n_n.contr.Idx) :
    (dot_S5000x128_S128x32_S5000x32_1_0_0_1_n_n.lhsIdx j q 0).val = (j 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl

theorem dot3_r1 (j : S5000x32.Idx) (q : dot_S5000x128_S128x32_S5000x32_1_0_0_1_n_n.contr.Idx) :
    (dot_S5000x128_S128x32_S5000x32_1_0_0_1_n_n.rhsIdx j q 1).val = (j 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-! ## One block -/

/-- Entry (p, q) of what a block stores: the sum over k of the block's row p of the features times column q of W. -/
theorem pay3_at (x0 : Vec Ideal S5000x128 .f32) (x1 : Vec Ideal S128x32 .f32) (p : Fin 5000) (q : Fin 32) :
    k3_pay1 (F := Ideal) x0 x1 (ix2 p q) = ∑ k : Fin 128, x0 (ix2 p k) * x1 (ix2 k q) := by
  unfold k3_pay1
  refine (matmul_zero_at dot_S5000x128_S128x32_S5000x32_1_0_0_1_n_n rfl rfl rfl rfl dot3_l0 dot3_r1 none _ _ p q).trans ?_
  refine Finset.sum_congr rfl fun k _ => ?_
  rw [truncf_apply, truncf_apply, shapeCast_self, shapeCast_self]

/-! ## The ten blocks -/

/-- Where each window's block sits at grid point t: the row-indexed windows at block row t, the weights at (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- Entry (p, k) of the features' block at grid point t is entry (5000 t + p, k) of the features. -/
theorem iblk3_0_at (c : Dev nD) (t : Fin cfg3.N) (p : Fin 5000) (k : Fin 128) (hP : t.val * 5000 + p.val < 50000) :
    (iblk3 V c 0 t : Vec Ideal S5000x128 .f32) (ix2 p k) = (V c (Pipeline.arrRef spec3 0) : Arr2 50000 128) (ix2 ⟨t.val * 5000 + p.val, hP⟩ k) := by
  obtain ⟨e0, e1, -⟩ := idx_facts3 t
  show (V c (Pipeline.arrRef spec3 0) : Arr2 50000 128) (((cfg3.win 0).blk t).view.emb (ix2 p k)) = _
  refine congrArg (V c (Pipeline.arrRef spec3 0) : Arr2 50000 128) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- The weights' block at every grid point is the whole weight matrix. -/
theorem iblk3_1_at (c : Dev nD) (t : Fin cfg3.N) (k : Fin 128) (q : Fin 32) :
    (iblk3 V c 1 t : Vec Ideal S128x32 .f32) (ix2 k q) = (V c (Pipeline.arrRef spec3 1) : Arr2 128 32) (ix2 k q) := by
  obtain ⟨-, -, e2, e3, -⟩ := idx_facts3 t
  show (V c (Pipeline.arrRef spec3 1) : Arr2 128 32) (((cfg3.win 1).blk t).view.emb (ix2 k q)) = _
  refine congrArg (V c (Pipeline.arrRef spec3 1) : Arr2 128 32) (funext fun a => Fin.ext ?_)
  match a with
  | ⟨0, _⟩ => show win3_1.index t (0 : Fin 2) * 128 + 1 * k.val = k.val; omega
  | ⟨1, _⟩ => show win3_1.index t (1 : Fin 2) * 32 + 1 * q.val = q.val; omega

/-- Entry (p, q) of the result's block at grid point t sits at (5000 t + p, q) of the result. -/
theorem emb3_out (t : Fin cfg3.N) (p : Fin 5000) (q : Fin 32) (hP : t.val * 5000 + p.val < 50000) :
    ((cfg3.win 2).blk t).view.emb (ix2 p q) = (ix2 (⟨t.val * 5000 + p.val, hP⟩ : Fin 50000) q : S50000x32.Idx) := by
  obtain ⟨-, -, -, -, e4, e5⟩ := idx_facts3 t
  funext a; apply Fin.ext
  match a with
  | ⟨0, _⟩ => show win3_2.index t (0 : Fin 2) * 5000 + 1 * p.val = t.val * 5000 + p.val; omega
  | ⟨1, _⟩ => show win3_2.index t (1 : Fin 2) * 32 + 1 * q.val = q.val; omega

/-- What grid point t writes back is block t of the matrix product of the arrays the step finds. -/
theorem flushed3_eq (c : Dev nD) (t : Fin cfg3.N) :
    (dat3 (F := Ideal) V c).flushed 2 t
      = ((cfg3.win 2).blk t).view.read (Elt Ideal)
          (projOut (A := 50000) (K := 128) (B := 32) (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S128x32) hz]
  have ht : t.val < 10 := lt_of_lt_of_eq t.isLt N_3
  funext j
  obtain ⟨p, q, rfl⟩ : ∃ (p : Fin 5000) (q : Fin 32), j = ix2 p q := ⟨j 0, j 1, eq_ix2 j⟩
  have hp : p.val < 5000 := p.isLt
  have hP : t.val * 5000 + p.val < 50000 := by omega
  show k3_pay1 (F := Ideal) (iblk3 V c 0 t) (iblk3 V c 1 t) (ix2 p q)
      = projOut (A := 50000) (K := 128) (B := 32) (V c (Pipeline.arrRef spec3 0)) (V c (Pipeline.arrRef spec3 1)) (((cfg3.win 2).blk t).view.emb (ix2 p q))
  refine (pay3_at (iblk3 V c 0 t) (iblk3 V c 1 t) p q).trans ?_
  refine Eq.trans ?_ (congrArg (projOut (A := 50000) (K := 128) (B := 32) (V c (Pipeline.arrRef spec3 0)) (V c (Pipeline.arrRef spec3 1))) (emb3_out t p q hP).symm)
  refine Eq.trans ?_ (projOut_ix2 (A := 50000) (K := 128) (B := 32) (V c (Pipeline.arrRef spec3 0)) (V c (Pipeline.arrRef spec3 1)) ⟨t.val * 5000 + p.val, hP⟩ q).symm
  exact Finset.sum_congr rfl fun k _ => congrArg₂ HMul.hMul (iblk3_0_at V c t p k hP) (iblk3_1_at V c t k q)

/-- An index of the result array is in grid point t's block iff each coordinate is in the block's range. -/
theorem mem_blk3 (t : Fin cfg3.N) (i : S50000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v44).slice (win3_2.rect t)).set ↔ _
  rw [View.set_slice_whole, Rect.mem_set_unit]
  exact Iff.rfl

/-- Every row of the result lies in the block of the grid point row / 5000. -/
theorem cover3 (i : S50000x32.Idx) :
    ∃ t : Fin cfg3.N, (cfg3.win 2).flush t = true ∧ i ∈ ((cfg3.win 2).blk t).view.set := by
  have hi0 : (i 0).val < 50000 := idx2_lt0 i
  have hi1 : (i 1).val < 32 := idx2_lt1 i
  have hN : grid3.N = 10 := N_3
  let t : Fin cfg3.N := ⟨(i 0).val / 5000, by show (i 0).val / 5000 < grid3.N; omega⟩
  obtain ⟨e0, e1, e2, e3, e4, e5⟩ := idx_facts3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- After the ten blocks the result array is the matrix product of the arrays the step finds. -/
theorem final3 (c : Dev nD) :
    (dat3 (F := Ideal) V c).arrAt 2 cfg3.N
      = projOut (A := 50000) (K := 128) (B := 32) (V c (Pipeline.arrRef spec3 0)) (V c (Pipeline.arrRef spec3 1)) :=
  (dat3 (F := Ideal) V c).arrAt_eq_of_cover 2 _ (fun t _ => flushed3_eq V c t) cover3

end Cert.KernelIdeal.RegionValue

end
-- ==== Proof.Region4.lean ====
/-
  The second layer's finishing step, from blocks to the whole array.

  The step takes the projected neighbour sums S : 50000 × 32, the per-node scale d as a column, the hidden features
  h2 : 50000 × 128, the root weights W' : 128 × 32 and the bias as a row, and produces
  S (p, q) · d p + Σ_k h2 (p, k) · W' (k, q) + b q. It runs over ten blocks of 5000 node rows; at each block it reads
  the same rows of S, d and h2 and the whole of W' and b, and writes the same rows of the result. Entry (p, q) of a
  block's result depends only on row p of the block's operands: the scale column and the bias row are copied along the
  other axis, conversion to the narrower float format is the identity on extended reals, and the product accumulates
  into zero. The ten blocks tile the 50000 rows, so after the last block the result array is that formula, entry by entry.
-/
import proofs.«128211_j27066883899544_2_alg».proof.Proof.Gen.KernelIdeal.Frame
import proofs.«128211_j27066883899544_2_alg».proof.Proof.RegionLemmas

noncomputable section

open scoped BigOperators

namespace Cert.KernelIdeal.RegionValue

open Cert.KernelIdeal Cert.KernelIdeal.Gen GraphConv
open Idealize.ShloMosaic Idealize.ShloMosaic.TcCoe Idealize.ShloMosaic.ValueIdx Idealize.SL.Sem
open Idealize.ShloMosaic.Pipeline (Dat)

/-! ## The product's dimension numbers -/

theorem dot4_l0 (j : S5000x32.Idx) (q : dot_S5000x128_S128x32_S5000x32_1_0_0_1_n_n.contr.Idx) :
    (dot_S5000x128_S128x32_S5000x32_1_0_0_1_n_n.lhsIdx j q 0).val = (j 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl

theorem dot4_r1 (j : S5000x32.Idx) (q : dot_S5000x128_S128x32_S5000x32_1_0_0_1_n_n.contr.Idx) :
    (dot_S5000x128_S128x32_S5000x32_1_0_0_1_n_n.rhsIdx j q 1).val = (j 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-! ## One block -/

/-- Entry (p, q) of what a block stores: the projected neighbour sum scaled by the row's factor, plus the sum over k of
    the block's row p of the features times column q of the root weights, plus the bias at q. -/
theorem pay4_at (x0 : Vec Ideal S5000x32 .f32) (x1 : Vec Ideal S5000x1 .f32) (x2 : Vec Ideal S5000x128 .f32) (x3 : Vec Ideal S128x32 .f32)
    (x4 : Vec Ideal S1x32 .f32) (p : Fin 5000) (q : Fin 32) :
    k4_pay1 (F := Ideal) x0 x1 x2 x3 x4 (ix2 p q)
      = (x0 (ix2 p q) * x1 (ix2 p (0 : Fin 1)) + ∑ k : Fin 128, x2 (ix2 p k) * x3 (ix2 k q)) + x4 (ix2 (0 : Fin 1) q) := by
  unfold k4_pay1
  simp only [addf_apply, mulf_apply]
  refine congrArg₂ HAdd.hAdd (congrArg₂ HAdd.hAdd (congrArg₂ HMul.hMul ?_ ?_) ?_) ?_
  · rw [shapeCast_self]
  · exact (broadcastTo_a1_ab_apply _ _ p q).trans (by rw [shapeCast_self])
  · refine (matmul_zero_at dot_S5000x128_S128x32_S5000x32_1_0_0_1_n_n rfl rfl rfl rfl dot4_l0 dot4_r1 none _ _ p q).trans
      (Finset.sum_congr rfl fun k _ => ?_)
    rw [truncf_apply, truncf_apply, shapeCast_self, shapeCast_self]
  · exact (broadcastTo_1b_ab_apply _ _ p q).trans (by rw [shapeCast_self])

/-- The same for what the block's one store leaves in the result's buffer: the store covers the whole buffer and the
    loads read whole buffers. -/
theorem out4_at (x0 : Vec Ideal S5000x32 .f32) (x1 : Vec Ideal S5000x1 .f32) (x2 : Vec Ideal S5000x128 .f32) (x3 : Vec Ideal S128x32 .f32)
    (x4 : Vec Ideal S1x32 .f32) (p : Fin 5000) (q : Fin 32) :
    out4_5 (F := Ideal) x0 x1 x2 x3 x4 (ix2 p q)
      = (x0 (ix2 p q) * x1 (ix2 p (0 : Fin 1)) + ∑ k : Fin 128, x2 (ix2 p k) * x3 (ix2 k q)) + x4 (ix2 (0 : Fin 1) q) := by
  unfold out4_5
  rw [View.canon_unit_zero hz]
  simp only [View.ld_unit_zero (S := S5000x32) hz, View.ld_unit_zero (S := S5000x1) hz, View.ld_unit_zero (S := S5000x128) hz,
    View.ld_unit_zero (S := S128x32) hz, View.ld_unit_zero (S := S1x32) hz]
  exact pay4_at x0 x1 x2 x3 x4 p q

/-! ## The ten blocks -/

/-- Where each window's block sits at grid point t: the row-indexed windows at block row t, the weights and the bias
    row at (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

/-- Entry (p, q) of the projected neighbour sums' block at grid point t is entry (5000 t + p, q) of the array. -/
theorem iblk4_0_at (c : Dev nD) (t : Fin cfg4.N) (p : Fin 5000) (q : Fin 32) (hP : t.val * 5000 + p.val < 50000) :
    (iblk4 V c 0 t : Vec Ideal S5000x32 .f32) (ix2 p q) = (V c (Pipeline.arrRef spec4 0) : Arr2 50000 32) (ix2 ⟨t.val * 5000 + p.val, hP⟩ q) := by
  obtain ⟨e00, e01, -, -, -, -, -, -, -, -, -, -⟩ := idx_facts4 t
  show (V c (Pipeline.arrRef spec4 0) : Arr2 50000 32) (((cfg4.win 0).blk t).view.emb (ix2 p q)) = _
  refine congrArg (V c (Pipeline.arrRef spec4 0) : Arr2 50000 32) (funext fun a => Fin.ext ?_)
  match a with
  | ⟨0, _⟩ => show win4_0.index t (0 : Fin 2) * 5000 + 1 * p.val = t.val * 5000 + p.val; omega
  | ⟨1, _⟩ => show win4_0.index t (1 : Fin 2) * 32 + 1 * q.val = q.val; omega

/-- Entry p of the scale column's block at grid point t is entry 5000 t + p of the column. -/
theorem iblk4_1_at (c : Dev nD) (t : Fin cfg4.N) (p : Fin 5000) (hP : t.val * 5000 + p.val < 50000) :
    (iblk4 V c 1 t : Vec Ideal S5000x1 .f32) (ix2 p (0 : Fin 1)) = (V c (Pipeline.arrRef spec4 1) : Arr2 50000 1) (ix2 ⟨t.val * 5000 + p.val, hP⟩ (0 : Fin 1)) := by
  obtain ⟨-, -, e10, e11, -, -, -, -, -, -, -, -⟩ := idx_facts4 t
  show (V c (Pipeline.arrRef spec4 1) : Arr2 50000 1) (((cfg4.win 1).blk t).view.emb (ix2 p (0 : Fin 1))) = _
  refine congrArg (V c (Pipeline.arrRef spec4 1) : Arr2 50000 1) (funext fun a => Fin.ext ?_)
  match a with
  | ⟨0, _⟩ => show win4_1.index t (0 : Fin 2) * 5000 + 1 * p.val = t.val * 5000 + p.val; omega
  | ⟨1, _⟩ => show win4_1.index t (1 : Fin 2) * 1 + 1 * 0 = 0; omega

/-- Entry (p, k) of the features' block at grid point t is entry (5000 t + p, k) of the features. -/
theorem iblk4_2_at (c : Dev nD) (t : Fin cfg4.N) (p : Fin 5000) (k : Fin 128) (hP : t.val * 5000 + p.val < 50000) :
    (iblk4 V c 2 t : Vec Ideal S5000x128 .f32) (ix2 p k) = (V c (Pipeline.arrRef spec4 2) : Arr2 50000 128) (ix2 ⟨t.val * 5000 + p.val, hP⟩ k) := by
  obtain ⟨-, -, -, -, e20, e21, -, -, -, -, -, -⟩ := idx_facts4 t
  show (V c (Pipeline.arrRef spec4 2) : Arr2 50000 128) (((cfg4.win 2).blk t).view.emb (ix2 p k)) = _
  refine congrArg (V c (Pipeline.arrRef spec4 2) : Arr2 50000 128) (funext fun a => Fin.ext ?_)
  match a with
  | ⟨0, _⟩ => show win4_2.index t (0 : Fin 2) * 5000 + 1 * p.val = t.val * 5000 + p.val; omega
  | ⟨1, _⟩ => show win4_2.index t (1 : Fin 2) * 128 + 1 * k.val = k.val; omega

/-- The root weights' block at every grid point is the whole weight matrix. -/
theorem iblk4_3_at (c : Dev nD) (t : Fin cfg4.N) (k : Fin 128) (q : Fin 32) :
    (iblk4 V c 3 t : Vec Ideal S128x32 .f32) (ix2 k q) = (V c (Pipeline.arrRef spec4 3) : Arr2 128 32) (ix2 k q) := by
  obtain ⟨-, -, -, -, -, -, e30, e31, -, -, -, -⟩ := idx_facts4 t
  show (V c (Pipeline.arrRef spec4 3) : Arr2 128 32) (((cfg4.win 3).blk t).view.emb (ix2 k q)) = _
  refine congrArg (V c (Pipeline.arrRef spec4 3) : Arr2 128 32) (funext fun a => Fin.ext ?_)
  match a with
  | ⟨0, _⟩ => show win4_3.index t (0 : Fin 2) * 128 + 1 * k.val = k.val; omega
  | ⟨1, _⟩ => show win4_3.index t (1 : Fin 2) * 32 + 1 * q.val = q.val; omega

/-- The bias row's block at every grid point is the whole row. -/
theorem iblk4_4_at (c : Dev nD) (t : Fin cfg4.N) (q : Fin 32) :
    (iblk4 V c 4 t : Vec Ideal S1x32 .f32) (ix2 (0 : Fin 1) q) = (V c (Pipeline.arrRef spec4 4) : Arr2 1 32) (ix2 (0 : Fin 1) q) := by
  obtain ⟨-, -, -, -, -, -, -, -, e40, e41, -, -⟩ := idx_facts4 t
  show (V c (Pipeline.arrRef spec4 4) : Arr2 1 32) (((cfg4.win 4).blk t).view.emb (ix2 (0 : Fin 1) q)) = _
  refine congrArg (V c (Pipeline.arrRef spec4 4) : Arr2 1 32) (funext fun a => Fin.ext ?_)
  match a with
  | ⟨0, _⟩ => show win4_4.index t (0 : Fin 2) * 1 + 1 * 0 = 0; omega
  | ⟨1, _⟩ => show win4_4.index t (1 : Fin 2) * 32 + 1 * q.val = q.val; omega

/-- Entry (p, q) of the result's block at grid point t sits at (5000 t + p, q) of the result. -/
theorem emb4_out (t : Fin cfg4.N) (p : Fin 5000) (q : Fin 32) (hP : t.val * 5000 + p.val < 50000) :
    ((cfg4.win 5).blk t).view.emb (ix2 p q) = (ix2 (⟨t.val * 5000 + p.val, hP⟩ : Fin 50000) q : S50000x32.Idx) := by
  obtain ⟨-, -, -, -, -, -, -, -, -, -, e50, e51⟩ := idx_facts4 t
  funext a; apply Fin.ext
  match a with
  | ⟨0, _⟩ => show win4_5.index t (0 : Fin 2) * 5000 + 1 * p.val = t.val * 5000 + p.val; omega
  | ⟨1, _⟩ => show win4_5.index t (1 : Fin 2) * 32 + 1 * q.val = q.val; omega

/-- What grid point t writes back is block t of the step's formula applied to the arrays the step finds. -/
theorem flushed4_eq (c : Dev nD) (t : Fin cfg4.N) :
    (dat4 (F := Ideal) V c).flushed 5 t
      = ((cfg4.win 5).blk t).view.read (Elt Ideal)
          (finishOut (A := 50000) (K := 128) (B := 32) (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 (F := Ideal) V c).after 5 t) = _
  rw [after4_5]
  have ht : t.val < 10 := lt_of_lt_of_eq t.isLt N_4
  funext j
  obtain ⟨p, q, rfl⟩ : ∃ (p : Fin 5000) (q : Fin 32), j = ix2 p q := ⟨j 0, j 1, eq_ix2 j⟩
  have hp : p.val < 5000 := p.isLt
  have hP : t.val * 5000 + p.val < 50000 := by omega
  show out4_5 (F := Ideal) (iblk4 V c 0 t) (iblk4 V c 1 t) (iblk4 V c 2 t) (iblk4 V c 3 t) (iblk4 V c 4 t) (ix2 p q)
      = finishOut (A := 50000) (K := 128) (B := 32) (V c (Pipeline.arrRef spec4 0)) (V c (Pipeline.arrRef spec4 1)) (V c (Pipeline.arrRef spec4 2)) (V c (Pipeline.arrRef spec4 3)) (V c (Pipeline.arrRef spec4 4)) (((cfg4.win 5).blk t).view.emb (ix2 p q))
  refine (out4_at (iblk4 V c 0 t) (iblk4 V c 1 t) (iblk4 V c 2 t) (iblk4 V c 3 t) (iblk4 V c 4 t) p q).trans ?_
  refine Eq.trans ?_ (congrArg (finishOut (A := 50000) (K := 128) (B := 32) (V c (Pipeline.arrRef spec4 0)) (V c (Pipeline.arrRef spec4 1)) (V c (Pipeline.arrRef spec4 2)) (V c (Pipeline.arrRef spec4 3)) (V c (Pipeline.arrRef spec4 4))) (emb4_out t p q hP).symm)
  refine Eq.trans ?_ (finishOut_ix2 (A := 50000) (K := 128) (B := 32) (V c (Pipeline.arrRef spec4 0)) (V c (Pipeline.arrRef spec4 1)) (V c (Pipeline.arrRef spec4 2)) (V c (Pipeline.arrRef spec4 3)) (V c (Pipeline.arrRef spec4 4)) ⟨t.val * 5000 + p.val, hP⟩ q).symm
  exact congrArg₂ HAdd.hAdd (congrArg₂ HAdd.hAdd (congrArg₂ HMul.hMul (iblk4_0_at V c t p q hP) (iblk4_1_at V c t p hP))
      (Finset.sum_congr rfl fun k _ => congrArg₂ HMul.hMul (iblk4_2_at V c t p k hP) (iblk4_3_at V c t k q))) (iblk4_4_at V c t q)

/-- An index of the result array is in grid point t's block iff each coordinate is in the block's range. -/
theorem mem_blk4 (t : Fin cfg4.N) (i : S50000x32.Idx) :
    i ∈ ((cfg4.win 5).blk t).view.set ↔ ∀ a : Fin 2, win4_5.index t a * S5000x32.size a ≤ (i a).val ∧ (i a).val < win4_5.index t a * S5000x32.size a + S5000x32.size a := by
  show i ∈ ((View.whole main_v56).slice (win4_5.rect t)).set ↔ _
  rw [View.set_slice_whole, Rect.mem_set_unit]
  exact Iff.rfl

/-- Every row of the result lies in the block of the grid point row / 5000. -/
theorem cover4 (i : S50000x32.Idx) :
    ∃ t : Fin cfg4.N, (cfg4.win 5).flush t = true ∧ i ∈ ((cfg4.win 5).blk t).view.set := by
  have hi0 : (i 0).val < 50000 := idx2_lt0 i
  have hi1 : (i 1).val < 32 := idx2_lt1 i
  have hN : grid4.N = 10 := N_4
  let t : Fin cfg4.N := ⟨(i 0).val / 5000, by show (i 0).val / 5000 < grid4.N; omega⟩
  obtain ⟨-, -, -, -, -, -, -, -, -, -, e50, e51⟩ := idx_facts4 t
  have e50' : win4_5.index t (0 : Fin 2) = (i 0).val / 5000 := e50
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 32 ≤ (i 1).val ∧ (i 1).val < win4_5.index t (1 : Fin 2) * 32 + 32; omega

/-- After the ten blocks the result array is the step's formula applied to the arrays the step finds. -/
theorem final4 (c : Dev nD) :
    (dat4 (F := Ideal) V c).arrAt 5 cfg4.N
      = finishOut (A := 50000) (K := 128) (B := 32) (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 5 _ (fun t _ => flushed4_eq V c t) cover4

end Cert.KernelIdeal.RegionValue

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.GraphConvArr.lean ====
/-
  The dense steps as layer formulas.

  A dense step reads whole arrays; when those arrays are the neighbour sums of a feature table T, the scale as a column,
  the table T itself, and the bias as a row, the step's output is a layer formula of T. A vector recast as a column holds
  its entry p in row p; recast as a row, its entry q in column q.
-/
import proofs.«128211_j27066883899544_2_alg».proof.Proof.GraphConv
import proofs.«128211_j27066883899544_2_alg».proof.Proof.LibColumn
import Idealize.ShloMosaic.Lib.ValueLayout

noncomputable section

open scoped BigOperators

namespace GraphConv

open Idealize.ShloMosaic Idealize.ShloMosaic.ValueIdx

/-- A vector recast as a column, read at row p. -/
theorem cur_column {a : Nat} (v : (⟨1, ![a]⟩ : Shape).Idx → EReal) (h : (⟨1, ![a]⟩ : Shape).ShapeCasts ⟨2, ![a, 1]⟩) (p : Fin a) :
    cur (shapeCast ⟨2, ![a, 1]⟩ v h) p 0 = v (ix1 p) := shapeCast_a_a1_apply v h p 0

/-- A vector recast as a row, read at column q. -/
theorem cur_row {b : Nat} (v : (⟨1, ![b]⟩ : Shape).Idx → EReal) (h : (⟨1, ![b]⟩ : Shape).ShapeCasts ⟨2, ![1, b]⟩) (q : Fin b) :
    cur (shapeCast ⟨2, ![1, b]⟩ v h) 0 q = v (ix1 q) := shapeCast_a_1a_apply v h 0 q

section Steps
variable {N E : Nat} (L : Fin N → Finset (Fin E)) (s : Fin E → Fin N)

/-- The aggregate-first step on the neighbour sums of T. -/
theorem denseOut_layer {K B : Nat} {M : Arr2 N K} {D : Arr2 N 1} {X : Arr2 N K} {Wr : Arr2 K B} {Bz : Arr2 1 B} {Wo : Arr2 K B}
    {T : Fin N → Fin K → EReal} {d : Fin N → EReal} {b : Fin B → EReal} {wr wo : Arr2 K B}
    (hM : M = arr (nsum L s T)) (hD : ∀ p, cur D p 0 = d p) (hX : X = arr T) (hWr : Wr = wr) (hB : ∀ q, cur Bz 0 q = b q)
    (hWo : Wo = wo) :
    denseOut M D X Wr Bz Wo = arr (relu (layerAggFirst L s T d (cur wr) b (cur wo))) := by
  subst hM hX hWr hWo
  funext i
  obtain ⟨p, q, rfl⟩ : ∃ (p : Fin N) (q : Fin B), i = ix2 p q := ⟨i 0, i 1, eq_ix2 i⟩
  simp only [denseOut, arr_ix2, relu, layerAggFirst, cur_arr, hD, hB]

/-- The projection of the array of a table. -/
theorem projOut_arr {A K B : Nat} {X : Arr2 A K} {W : Arr2 K B} {T : Fin A → Fin K → EReal} {w : Arr2 K B}
    (hX : X = arr T) (hW : W = w) : projOut X W = arr (mm T (cur w)) := by
  subst hX hW; rfl

/-- The project-first finish on the neighbour sums of the projected T, with the positive part. -/
theorem finishReluOut_layer {K B : Nat} {S : Arr2 N B} {D : Arr2 N 1} {X : Arr2 N K} {Wo : Arr2 K B} {Bz : Arr2 1 B}
    {T : Fin N → Fin K → EReal} {d : Fin N → EReal} {W : Fin K → Fin B → EReal} {b : Fin B → EReal} {wo : Arr2 K B}
    (hS : S = arr (nsum L s (mm T W))) (hD : ∀ p, cur D p 0 = d p) (hX : X = arr T) (hWo : Wo = wo) (hB : ∀ q, cur Bz 0 q = b q) :
    finishReluOut S D X Wo Bz = arr (relu (layerProjFirst L s T d W b (cur wo))) := by
  subst hS hX hWo
  funext i
  obtain ⟨p, q, rfl⟩ : ∃ (p : Fin N) (q : Fin B), i = ix2 p q := ⟨i 0, i 1, eq_ix2 i⟩
  simp only [finishReluOut, arr_ix2, relu, layerProjFirst, cur_arr, hD, hB]

/-- The same without the positive part. -/
theorem finishOut_layer {K B : Nat} {S : Arr2 N B} {D : Arr2 N 1} {X : Arr2 N K} {Wo : Arr2 K B} {Bz : Arr2 1 B}
    {T : Fin N → Fin K → EReal} {d : Fin N → EReal} {W : Fin K → Fin B → EReal} {b : Fin B → EReal} {wo : Arr2 K B}
    (hS : S = arr (nsum L s (mm T W))) (hD : ∀ p, cur D p 0 = d p) (hX : X = arr T) (hWo : Wo = wo) (hB : ∀ q, cur Bz 0 q = b q) :
    finishOut S D X Wo Bz = arr (layerProjFirst L s T d W b (cur wo)) := by
  subst hS hX hWo
  funext i
  obtain ⟨p, q, rfl⟩ : ∃ (p : Fin N) (q : Fin B), i = ix2 p q := ⟨i 0, i 1, eq_ix2 i⟩
  simp only [finishOut, arr_ix2, layerProjFirst, cur_arr, hD, hB]

end Steps

end GraphConv

end
-- ==== Proof.LibGatherScatter.lean ====
/-
  Rows of a rank-2 array selected by a column of integer words, read at an index.

  `x[idx]` of an array `x : [N, C]` at an index column `idx : [E, 1]` is a gather whose result row `e` is
  the row of `x` that the word `idx[e, 0]` names, the word read as a signed integer and clamped into `[0, N − 1]`.
  The sum of the rows of `upd : [E, C]` into the rows of `x : [N, C]` that the same kind of column names is a
  scatter whose combining function is addition: row `p` of the result is row `p` of `x` plus the sum of the rows `e` of
  `upd` whose word, read signed and NOT clamped, is `p`; a row whose word falls outside `[0, N)` is dropped.
  The library states both through lists of axes and list lookups; here their dimension numbers are fixed, the
  lookups are carried out once, and each operation is stated as a plain equation between elements.
-/
import Idealize.ShloMosaic.PureOps.Ideal
import Idealize.ShloMosaic.Lib.ValueIdx
import Idealize.ShloMosaic.Lib.Pipeline.Value

noncomputable section

open scoped BigOperators

namespace Idealize.ShloMosaic.ValueIdx

open Idealize.ShloMosaic

/-! ## The row a word names -/

/-- The row a start-index word selects: read signed, negative to 0, clamped to the last row. -/
def clampRow (N : Nat) (hN : 0 < N) {w : Nat} (v : BitVec w) : Fin N := ⟨min v.toInt.toNat (N - 1), by omega⟩

/-- The row an update lands on: the word read signed, when it is a row; none when it falls outside. -/
def landRow (N : Nat) {w : Nat} (v : BitVec w) : Option (Fin N) :=
  if h : 0 ≤ v.toInt ∧ v.toInt < (N : Int) then some ⟨v.toInt.toNat, by omega⟩ else none

/-- An index that lands is not moved by the clamp. -/
theorem landRow_clampRow {N w : Nat} (hN : 0 < N) (v : BitVec w) (p : Fin N) (h : landRow N v = some p) :
    clampRow N hN v = p := by
  unfold landRow at h
  split at h
  · rename_i hv
    obtain rfl := Option.some.inj h
    refine Fin.ext ?_
    show min v.toInt.toNat (N - 1) = v.toInt.toNat
    omega
  · exact absurd h (by simp)

/-! ## Rows gathered by an index column -/

section GatherRows
variable {α : Type}

/-- The dimension numbers of `x[idx]` for an operand `[N, C]`, an index column `[E, 1]` and the result `[E, C]`: axis 0
    of the operand is indexed and collapsed, axis 1 is taken whole as the result's axis 1. Their conditions `wf` are
    decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result index `(e, q)` reads its one start-index component at `[e, 0]` of the index column. -/
theorem rowGather_siIdx {N E C : Nat}
    (wf : GatherDims.WF ⟨2, ![N, C]⟩ ⟨2, ![E, 1]⟩ ⟨2, ![E, C]⟩ [1] [0] [] [0] [] 1 ![1, C])
    (e : Fin E) (q : Fin C) (c : Fin (rowGatherDims N E C wf).startIndexMap.length) :
    (rowGatherDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the slice starts at the word of `[e, 0]`, read signed and clamped into `[0, N − 1]`. -/
theorem rowGather_start0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 0 = min (idx (ix2 e (0 : Fin 1))).toInt.toNat (N - 1) := by
  unfold GatherDims.start
  rw [dif_pos (show (0 : Fin 2) ∈ (rowGatherDims N E C wf).startIndexMap from List.mem_singleton.mpr rfl)]
  rw [rowGather_siIdx]
  rfl

/-- On the column axis, which the start index does not name, the slice starts at 0. -/
theorem rowGather_start1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 1 = 0 := by
  unfold GatherDims.start
  rw [dif_neg (show (1 : Fin 2) ∉ (rowGatherDims N E C wf).startIndexMap from
    (by decide : (1 : Fin 2) ∉ [(0 : Fin 2)]))]

/-- The row axis is collapsed: no offset on it. -/
theorem rowGather_offCoord0 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 0 = 0 :=
  GatherDims.offCoord_eq_zero _ _ _ (fun h => ((GatherDims.mem_sKept _ _).mp h).1 (List.mem_singleton.mpr rfl))

/-- The column axis is the one kept axis: its offset is the result's column. -/
theorem rowGather_offCoord1 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 1 = q.val := by
  unfold GatherDims.offCoord
  rw [dif_pos (show (1 : Fin 2) ∈ (rowGatherDims N E C wf).sKept from
    (GatherDims.mem_sKept _ _).mpr ⟨(by decide : (1 : Fin 2) ∉ [(0 : Fin 2)]), List.not_mem_nil⟩)]
  rfl

/-- THE ROW GATHER READ AT `(e, q)`: column `q` of the operand's row that the word `idx[e, 0]` names, read signed
    and clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 (clampRow N hN (idx (ix2 e (0 : Fin 1)))) q) := by
  unfold Host.gather
  congr 1
  funext a
  refine Fin.ext ?_
  show (rowGatherDims N E C wf).start (ix2 e q) idx a + (rowGatherDims N E C wf).batchCoord (ix2 e q) a
    + (rowGatherDims N E C wf).offCoord (ix2 e q) a = _
  rw [GatherDims.batchCoord_eq_zero _ _ _ List.not_mem_nil]
  match a with
  | ⟨0, _⟩ =>
    show (rowGatherDims N E C wf).start (ix2 e q) idx 0 + 0 + (rowGatherDims N E C wf).offCoord (ix2 e q) 0 = _
    rw [rowGather_start0, rowGather_offCoord0]
    rfl
  | ⟨1, _⟩ =>
    show (rowGatherDims N E C wf).start (ix2 e q) idx 1 + 0 + (rowGatherDims N E C wf).offCoord (ix2 e q) 1 = _
    rw [rowGather_start1, rowGather_offCoord1]
    simp

end GatherRows

/-! ## Elements of a vector gathered by an index column -/

section GatherVec
variable {α : Type}

/-- The dimension numbers of `x[idx]` for a vector `[N]`, an index column `[E, 1]` and the result `[E]`: the vector's
    one axis is indexed and collapsed. Their conditions `wf` are decided on a program's literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result index `e` reads its one start-index component at `[e, 0]` of the index column. -/
theorem vecGather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e (0 : Fin 1) := by
  funext b; refine Fin.ext ?_
  match b with
  | ⟨0, _⟩ => rfl
  | ⟨1, _⟩ =>
    have := c.isLt
    show c.val = 0
    simp only [List.length_singleton] at this
    omega

/-- THE VECTOR GATHER READ AT `e`: the vector's element that the word `idx[e, 0]` names, read signed and clamped into
    `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [vecGather_siIdx]
  rfl

end GatherVec

/-! ## Rows added into the rows an index column names -/

section ScatterRows

/-- The dimension numbers of the row sum `x.at[idx].add(upd)` for an operand `[N, C]`, an index column `[E, 1]` and
    updates `[E, C]`: the word of `[e, 0]` names the operand's row, axis 1 of the updates is the window and goes to the
    operand's axis 1. Their conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update index `(e, q)` reads its one start-index component at `[e, 0]` of the index column. -/
theorem rowScatter_siIdx {N E C : Nat}
    (wf : ScatterDims.WF ⟨2, ![N, C]⟩ ⟨2, ![E, 1]⟩ ⟨2, ![E, C]⟩ [1] [0] [0] 1)
    (e : Fin E) (q : Fin C) (c : Fin (rowScatterDims N E C wf).scatterDimsToOperandDims.length) :
    (rowScatterDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the window starts at the word of `[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  rw [rowScatter_siIdx]

/-- On the column axis, which the scatter index does not name, the window starts at 0. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 1 = 0 := by
  unfold ScatterDims.start
  rw [dif_neg (show (1 : Fin 2) ∉ (rowScatterDims N E C wf).scatterDimsToOperandDims from
    (by decide : (1 : Fin 2) ∉ [(0 : Fin 2)]))]

/-- The operand's kept axes are the ones that are not the row axis. -/
theorem rowScatter_mem_sKept {N E C : Nat}
    (wf : ScatterDims.WF ⟨2, ![N, C]⟩ ⟨2, ![E, 1]⟩ ⟨2, ![E, C]⟩ [1] [0] [0] 1) (a : Fin 2) :
    a ∈ (rowScatterDims N E C wf).sKept ↔ a ∉ [(0 : Fin 2)] := by
  simp [ScatterDims.sKept, Shape.kept, List.mem_filter, List.mem_finRange]

/-- The row axis is an inserted window axis: the window coordinate on it is 0. -/
theorem rowScatter_window0 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  rw [dif_neg (show (0 : Fin 2) ∉ (rowScatterDims N E C wf).sKept from fun h =>
    (rowScatter_mem_sKept wf 0).mp h (List.mem_singleton.mpr rfl))]

/-- The column axis is the one kept axis: the window coordinate on it is the update's column. -/
theorem rowScatter_window1 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 1 = q.val := by
  unfold ScatterDims.window
  rw [dif_pos (show (1 : Fin 2) ∈ (rowScatterDims N E C wf).sKept from
    (rowScatter_mem_sKept wf 1).mpr (by decide : (1 : Fin 2) ∉ [(0 : Fin 2)]))]
  rfl

/-- WHERE UPDATE `(e, q)` LANDS: on column `q` of the row the word `idx[e, 0]` names, when that word read signed is a
    row of the operand; nowhere when it is not. -/
theorem scatter_rows_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).resultIdx? (ix2 e q) idx
      = (landRow N (idx (ix2 e (0 : Fin 1)))).map fun p => ix2 p q := by
  have hs0 := rowScatter_start0 wf idx e q
  have hs1 := rowScatter_start1 wf idx e q
  have hw0 := rowScatter_window0 wf e q
  have hw1 := rowScatter_window1 wf e q
  unfold ScatterDims.resultIdx? landRow
  by_cases h : 0 ≤ (idx (ix2 e (0 : Fin 1))).toInt ∧ (idx (ix2 e (0 : Fin 1))).toInt < (N : Int)
  · have hall : ∀ a : Fin 2, 0 ≤ (rowScatterDims N E C wf).start (ix2 e q) idx a + (rowScatterDims N E C wf).window (ix2 e q) a ∧
        (rowScatterDims N E C wf).start (ix2 e q) idx a + (rowScatterDims N E C wf).window (ix2 e q) a
          < ((⟨2, ![N, C]⟩ : Shape).size a : Int) := by
      intro a
      match a with
      | ⟨0, _⟩ =>
        show 0 ≤ (rowScatterDims N E C wf).start (ix2 e q) idx 0 + (rowScatterDims N E C wf).window (ix2 e q) 0 ∧
          (rowScatterDims N E C wf).start (ix2 e q) idx 0 + (rowScatterDims N E C wf).window (ix2 e q) 0 < (N : Int)
        rw [hs0, hw0]
        omega
      | ⟨1, _⟩ =>
        show 0 ≤ (rowScatterDims N E C wf).start (ix2 e q) idx 1 + (rowScatterDims N E C wf).window (ix2 e q) 1 ∧
          (rowScatterDims N E C wf).start (ix2 e q) idx 1 + (rowScatterDims N E C wf).window (ix2 e q) 1 < (C : Int)
        rw [hs1, hw1]
        have := q.isLt
        omega
    rw [dif_pos hall, dif_pos h]
    simp only [Option.map_some]
    congr 1
    funext a
    refine Fin.ext ?_
    match a with
    | ⟨0, _⟩ =>
      show ((rowScatterDims N E C wf).start (ix2 e q) idx 0 + (rowScatterDims N E C wf).window (ix2 e q) 0).toNat = _
      rw [hs0, hw0]
      simp
    | ⟨1, _⟩ =>
      show ((rowScatterDims N E C wf).start (ix2 e q) idx 1 + (rowScatterDims N E C wf).window (ix2 e q) 1).toNat = _
      rw [hs1, hw1]
      simp
  · rw [dif_neg h, dif_neg]
    · rfl
    · intro hall
      have h0 := hall 0
      rw [hs0, hw0] at h0
      exact h (by
        obtain ⟨h1, h2⟩ := h0
        refine ⟨by omega, ?_⟩
        have : (((⟨2, ![N, C]⟩ : Shape).size 0 : Nat) : Int) = (N : Int) := rfl
        omega)

end ScatterRows

/-! ## The row sum at an index -/

section ScatterAddRows

/-- THE ROW SUM READ AT `(p, q)`: the operand's element plus the sum, over the rows `e` of the updates whose word
    `idx[e, 0]` names row `p`, of the update's element in column `q`. The library's sum runs over update indices
    `(e, q')` that land on `(p, q)`; such an index has `q' = q`, so it is its row `e`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowScatterDims N E C wf) x idx upd (ix2 p q)
      = x (ix2 p q) + ∑ e ∈ Finset.univ.filter (fun e : Fin E => landRow N (idx (ix2 e (0 : Fin 1))) = some p),
          upd (ix2 e q) := by
  unfold Ideal.hostScatterAdd
  congr 1
  symm
  refine Finset.sum_bij (fun e _ => ix2 e q) ?_ ?_ ?_ ?_
  · intro e he
    rw [Finset.mem_filter] at he ⊢
    refine ⟨Finset.mem_univ _, ?_⟩
    rw [scatter_rows_resultIdx, he.2]
    rfl
  · intro e _ e' _ hee
    exact congrFun hee 0
  · intro j hj
    rw [Finset.mem_filter] at hj
    obtain ⟨e, q', rfl⟩ : ∃ (e : Fin E) (q' : Fin C), j = ix2 e q' := ⟨j 0, j 1, eq_ix2 j⟩
    have h := hj.2
    rw [scatter_rows_resultIdx] at h
    cases hl : landRow N (idx (ix2 e (0 : Fin 1))) with
    | none => rw [hl] at h; exact absurd h (by simp)
    | some p' =>
      rw [hl] at h
      have h2 : ix2 p' q' = ix2 p q := Option.some.inj h
      have hp : p' = p := congrFun h2 0
      have hq : q' = q := congrFun h2 1
      subst hp; subst hq
      exact ⟨e, Finset.mem_filter.mpr ⟨Finset.mem_univ _, hl⟩, rfl⟩
  · intro e _
    rfl

end ScatterAddRows

/-! ## A sum of reals into reals is real -/

/-- A finite sum of extended reals that are all reals is a real. -/
theorem sum_coe_real {ι : Type*} (S : Finset ι) (f : ι → EReal) (hf : ∀ j, ∃ r : ℝ, f j = (r : EReal)) :
    ∃ r : ℝ, ∑ j ∈ S, f j = (r : EReal) := by
  classical
  induction S using Finset.induction_on with
  | empty => exact ⟨0, by simp⟩
  | insert a S ha ih =>
    obtain ⟨r1, h1⟩ := hf a
    obtain ⟨r2, h2⟩ := ih
    exact ⟨r1 + r2, by rw [Finset.sum_insert ha, h1, h2, EReal.coe_add]⟩

/-- A scatter with addition, of real updates into a real operand, has real elements — whatever the dimension
    numbers and the indices: each element is a real plus a finite sum of reals. -/
theorem scatterAdd_finite {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  unfold Ideal.hostScatterAdd
  obtain ⟨r1, h1⟩ := hx i
  obtain ⟨r2, h2⟩ := sum_coe_real (Finset.univ.filter (fun j => d.resultIdx? j idx = some i)) upd hu
  exact ⟨r1 + r2, by rw [h1, h2, EReal.coe_add]⟩

end Idealize.ShloMosaic.ValueIdx

end
-- ==== Proof.GraphConvAgg.lean ====
/-
  The neighbour sum as the host computes it: rows gathered at the edges' source words, then added into the rows the
  edges' target words name.

  For a feature table T : [N, C], a column of source words and a column of target words (one per edge), the gather
  takes for edge e the row of T its source word names (read signed, clamped into [0, N − 1]); the scatter with addition,
  into an array of zeros, adds row e of the gathered table into the row the target word names, and drops it when that
  word names no row. So the result at (p, q) is the sum over the edges landing on p of T at (source row of e, q): the
  neighbour sum `nsum` over the landing sets `inEdges` and the source rows `srcRow`.
-/
import proofs.«128211_j27066883899544_2_alg».proof.Proof.GraphConv
import proofs.«128211_j27066883899544_2_alg».proof.Proof.LibGatherScatter

noncomputable section

open scoped BigOperators

namespace GraphConv

open Idealize.ShloMosaic Idealize.ShloMosaic.ValueIdx

/-- The edges whose target word names row p. -/
def inEdges (N : Nat) {E : Nat} (dst : IVec ⟨2, ![E, 1]⟩ 32) (p : Fin N) : Finset (Fin E) :=
  Finset.univ.filter fun e => landRow N (dst (ix2 e (0 : Fin 1))) = some p

/-- The row edge e starts from: its source word read signed and clamped. -/
def srcRow (N : Nat) (hN : 0 < N) {E : Nat} (src : IVec ⟨2, ![E, 1]⟩ 32) (e : Fin E) : Fin N :=
  clampRow N hN (src (ix2 e (0 : Fin 1)))

/-- Gathered rows added into an array of zeros, read at (p, q): the neighbour sum. -/
theorem scatter_gather_apply {N E C : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z : Arr2 N C) (hz : ∀ i, z i = 0) (T : Arr2 N C) (src dst : IVec ⟨2, ![E, 1]⟩ 32) (p : Fin N) (q : Fin C) :
    Ideal.hostScatterAdd (rowScatterDims N E C wfs) z dst (Host.gather (rowGatherDims N E C wfg) T src) (ix2 p q)
      = nsum (inEdges N dst) (srcRow N hN src) (cur T) p q := by
  rw [scatterAdd_rows_apply, hz, zero_add]
  unfold nsum inEdges
  refine Finset.sum_congr rfl fun e _ => ?_
  rw [gather_rows_apply hN]
  rfl

/-- At the ideal instance the host's scatter with addition is the exact sum: each operand entry plus the sum of the update
    entries that land on it. -/
theorem hostScatterAdd_eq {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The host's gather of rows followed by its scatter with addition into zeros, as a whole array: the neighbour sums.
    The dimension numbers are any records with the fields of a row gather and a row scatter. -/
theorem host_scatter_gather_eq {N E C : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (ds : ScatterDims ⟨2, ![N, C]⟩ ⟨2, ![E, 1]⟩ ⟨2, ![E, C]⟩) (hds : ds = rowScatterDims N E C wfs)
    (dg : GatherDims ⟨2, ![N, C]⟩ ⟨2, ![E, 1]⟩ ⟨2, ![E, C]⟩) (hdg : dg = rowGatherDims N E C wfg)
    (z : Arr2 N C) (hz : ∀ i, z i = 0) (T : Arr2 N C) (src dst : IVec ⟨2, ![E, 1]⟩ 32) :
    Host.scatterAdd (F := Ideal) (φ := .f32) ds z dst (Host.gather dg T src)
      = arr (nsum (inEdges N dst) (srcRow N hN src) (cur T)) := by
  subst hds hdg
  rw [hostScatterAdd_eq]
  funext i
  obtain ⟨p, q, rfl⟩ : ∃ (p : Fin N) (q : Fin C), i = ix2 p q := ⟨i 0, i 1, eq_ix2 i⟩
  exact scatter_gather_apply hN wfg wfs z hz T src dst p q

end GraphConv

end
-- ==== Proof.GraphConvLaws.lean ====
/-
  The laws that join the three forms of a mean-aggregation layer.

  `layerAggFirst` and `layerRef` add the same three terms in two orders. `layerProjFirst` equals them when the
  features, the scale and the projection matrix have real entries: then
      Σ_k (Σ_{e ∈ L p} T (s e) k) · d p · W k q  =  (Σ_{e ∈ L p} Σ_k T (s e) k · W k q) · d p
  is distributivity and an exchange of two finite sums, computed in ℝ and carried to the extended reals by the coercion,
  which commutes with finite sums and products. A layer of real data has real entries, and so has its positive part.
-/
import proofs.«128211_j27066883899544_2_alg».proof.Proof.GraphConv

noncomputable section

open scoped BigOperators

namespace GraphConv

open LibReal

/-- Every entry of a table is a real number. -/
def Real2 {A B : Nat} (T : Fin A → Fin B → EReal) : Prop := ∀ p q, ∃ r : ℝ, T p q = (r : EReal)

/-- Every entry of a vector is a real number. -/
def Real1 {A : Nat} (d : Fin A → EReal) : Prop := ∀ p, ∃ r : ℝ, d p = (r : EReal)

/-- The coercion of the reals commutes with the maximum. -/
theorem coe_max_coe (a b : ℝ) : max (a : EReal) (b : EReal) = ((max a b : ℝ) : EReal) :=
  (EReal.coe_strictMono.monotone.map_max).symm

section Laws
variable {N E : Nat} (L : Fin N → Finset (Fin E)) (s : Fin E → Fin N)

/-- The bias may be added before or after the root projection. -/
theorem layerAggFirst_eq_layerRef {K B : Nat} (T : Fin N → Fin K → EReal) (d : Fin N → EReal) (W : Fin K → Fin B → EReal)
    (b : Fin B → EReal) (W' : Fin K → Fin B → EReal) :
    layerAggFirst L s T d W b W' = layerRef L s T d W b W' := by
  funext p q
  unfold layerAggFirst layerRef
  exact add_right_comm _ _ _

/-- Projecting the scaled neighbour sums is scaling the neighbour sums of the projected rows, on real data. -/
theorem mm_nsum_scaled {K B : Nat} {T : Fin N → Fin K → EReal} {d : Fin N → EReal} {W : Fin K → Fin B → EReal}
    (hT : Real2 T) (hd : Real1 d) (hW : Real2 W) (p : Fin N) (q : Fin B) :
    mm (fun p k => nsum L s T p k * d p) W p q = nsum L s (mm T W) p q * d p := by
  choose t ht using hT
  choose dd hdd using hd
  choose w hw using hW
  unfold mm nsum
  simp only [ht, hdd, hw]
  simp only [← EReal.coe_mul, ← coe_sum]
  congr 1
  simp only [Finset.sum_mul]
  rw [Finset.sum_comm]
  refine Finset.sum_congr rfl fun e _ => Finset.sum_congr rfl fun k _ => ?_
  ring

/-- Project-first equals aggregate-first on real features, scale and projection matrix (any bias, any root matrix). -/
theorem layerProjFirst_eq_layerRef {K B : Nat} {T : Fin N → Fin K → EReal} {d : Fin N → EReal} {W : Fin K → Fin B → EReal}
    (hT : Real2 T) (hd : Real1 d) (hW : Real2 W) (b : Fin B → EReal) (W' : Fin K → Fin B → EReal) :
    layerProjFirst L s T d W b W' = layerRef L s T d W b W' := by
  funext p q
  unfold layerProjFirst layerRef
  rw [mm_nsum_scaled L s hT hd hW]
  exact add_right_comm _ _ _

/-- A layer reads the projection matrices and the bias only in the column it computes. -/
theorem layerProjFirst_congr_col {K B B' : Nat} (T : Fin N → Fin K → EReal) (d : Fin N → EReal)
    (W : Fin K → Fin B → EReal) (b : Fin B → EReal) (W' : Fin K → Fin B → EReal)
    (V : Fin K → Fin B' → EReal) (c : Fin B' → EReal) (V' : Fin K → Fin B' → EReal) (q : Fin B) (q' : Fin B')
    (hW : ∀ k, W k q = V k q') (hb : b q = c q') (hW' : ∀ k, W' k q = V' k q') (p : Fin N) :
    layerProjFirst L s T d W b W' p q = layerProjFirst L s T d V c V' p q' := by
  unfold layerProjFirst nsum mm
  simp only [hW, hb, hW']

/-! ## Real entries are kept -/

theorem real_mm {A K B : Nat} {X : Fin A → Fin K → EReal} {W : Fin K → Fin B → EReal} (hX : Real2 X) (hW : Real2 W) :
    Real2 (mm X W) := fun p q =>
  exists_real_sum _ _ fun k _ => by
    obtain ⟨a, ha⟩ := hX p k
    obtain ⟨b, hb⟩ := hW k q
    exact ⟨a * b, by rw [ha, hb, EReal.coe_mul]⟩

theorem real_nsum {C : Nat} {T : Fin N → Fin C → EReal} (hT : Real2 T) : Real2 (nsum L s T) := fun p q =>
  exists_real_sum _ _ fun e _ => hT (s e) q

theorem real_layerRef {K B : Nat} {T : Fin N → Fin K → EReal} {d : Fin N → EReal} {W : Fin K → Fin B → EReal}
    {b : Fin B → EReal} {W' : Fin K → Fin B → EReal}
    (hT : Real2 T) (hd : Real1 d) (hW : Real2 W) (hb : Real1 b) (hW' : Real2 W') : Real2 (layerRef L s T d W b W') := fun p q => by
  have h1 : Real2 (fun p k => nsum L s T p k * d p) := fun p k => by
    obtain ⟨a, ha⟩ := real_nsum L s hT p k
    obtain ⟨c, hc⟩ := hd p
    exact ⟨a * c, by show nsum L s T p k * d p = _; rw [ha, hc, EReal.coe_mul]⟩
  obtain ⟨u, hu⟩ := real_mm h1 hW p q
  obtain ⟨v, hv⟩ := hb q
  obtain ⟨w, hw⟩ := real_mm hT hW' p q
  exact ⟨u + v + w, by unfold layerRef; rw [hu, hv, hw, EReal.coe_add, EReal.coe_add]⟩

end Laws

theorem real_relu {A B : Nat} {T : Fin A → Fin B → EReal} (hT : Real2 T) : Real2 (relu T) := fun p q => by
  obtain ⟨a, ha⟩ := hT p q
  exact ⟨max a 0, by unfold relu; rw [ha, ← EReal.coe_zero, coe_max_coe]⟩

end GraphConv

end
-- ==== Proof.KDefs.lean ====
/-
  The kernel program's features as layer formulas: the graph read off the edge list (which edges land on a node, where an
  edge starts, a node's inverse in-degree), the first layer in the aggregate-first form with the bias added last, the
  second layer in the project-first form.
-/
import proofs.«128211_j27066883899544_2_alg».proof.Proof.RefReadPatched
import proofs.«128211_j27066883899544_2_alg».proof.Proof.GraphConvAgg

noncomputable section

namespace Cert.KernelIdeal.KValue

open GraphConv Idealize.ShloMosaic Idealize.ShloMosaic.ValueIdx

/-! ## The graph read off the edge list -/

/-- The edges landing on a node. -/
def Ld (e13 : IVec ⟨2, ![2, 800000]⟩ 32) : Fin 50000 → Finset (Fin 800000) :=
  inEdges 50000 (E := 800000) (Cert.ReferenceIdeal.ReadP.val_main_v23 (F := Ideal) e13)

/-- The node an edge starts from. -/
def sr (e13 : IVec ⟨2, ![2, 800000]⟩ 32) : Fin 800000 → Fin 50000 :=
  srcRow 50000 (by decide) (E := 800000) (Cert.ReferenceIdeal.ReadP.val_main_v20 (F := Ideal) e13)

/-- The inverse in-degree of a node. -/
def dv (e13 : IVec ⟨2, ![2, 800000]⟩ 32) : Fin 50000 → EReal :=
  fun p => Cert.ReferenceIdeal.ReadP.val_main_v14 (F := Ideal) e13 (ix1 p)

/-- The first layer's features, as the kernel program computes them. -/
def K1 (a0 : Arr2 50000 64) (a1 : Arr2 64 256) (a2 : (⟨1, ![256]⟩ : Shape).Idx → EReal) (a3 : Arr2 64 256)
    (e13 : IVec ⟨2, ![2, 800000]⟩ 32) : Fin 50000 → Fin 256 → EReal :=
  relu (layerAggFirst (Ld e13) (sr e13) (cur a0) (dv e13) (cur a1) (fun q => a2 (ix1 q)) (cur a3))

/-- The second layer's features, as the kernel program computes them. -/
def K2 (a0 : Arr2 50000 64) (a1 : Arr2 64 256) (a2 : (⟨1, ![256]⟩ : Shape).Idx → EReal) (a3 : Arr2 64 256)
    (a4 : Arr2 256 128) (a5 : (⟨1, ![128]⟩ : Shape).Idx → EReal) (a6 : Arr2 256 128)
    (e13 : IVec ⟨2, ![2, 800000]⟩ 32) : Fin 50000 → Fin 128 → EReal :=
  relu (layerProjFirst (Ld e13) (sr e13) (K1 a0 a1 a2 a3 e13) (dv e13) (cur a4) (fun q => a5 (ix1 q)) (cur a6))

end Cert.KernelIdeal.KValue

end
-- ==== Proof.KValue.lean ====
/-
  The idealized kernel program's two results as layer formulas of the argument arrays.

  Region 0 computes the first layer from the host's neighbour sums (aggregate first). Region 1 projects its output by the
  second layer's matrix; the host takes the neighbour sums of the projected rows; region 2 finishes the second layer
  (project first). The two heads share one pass: their projection matrices, root matrices and biases are laid side by
  side, region 3 projects, the host aggregates, region 4 finishes, and the two results are the left and right halves of
  its output's columns. A column of the side-by-side layer reads only that column of the matrices and the bias, so each
  half is the project-first layer of its own head.
-/
import proofs.«128211_j27066883899544_2_alg».proof.Proof.KHostMid
import proofs.«128211_j27066883899544_2_alg».proof.Proof.KernelRun
import proofs.«128211_j27066883899544_2_alg».proof.Proof.Region0
import proofs.«128211_j27066883899544_2_alg».proof.Proof.Region1
import proofs.«128211_j27066883899544_2_alg».proof.Proof.Region2
import proofs.«128211_j27066883899544_2_alg».proof.Proof.Region3
import proofs.«128211_j27066883899544_2_alg».proof.Proof.Region4
import proofs.«128211_j27066883899544_2_alg».proof.Proof.GraphConvArr
import proofs.«128211_j27066883899544_2_alg».proof.Proof.GraphConvAgg
import proofs.«128211_j27066883899544_2_alg».proof.Proof.GraphConvLaws
import proofs.«128211_j27066883899544_2_alg».proof.Proof.KDefs

set_option maxRecDepth 16384
set_option quotPrecheck false

noncomputable section

open scoped BigOperators

namespace Cert.KernelIdeal.KValue

open Cert.KernelIdeal Cert.KernelIdeal.Gen Cert.KernelIdeal.HostValue Cert.KernelIdeal.RegionValue GraphConv
open Idealize.ShloMosaic Idealize.ShloMosaic.TcCoe Idealize.SL.Sem Idealize.ShloMosaic.ValueIdx

/-- Gathered rows added into zeros, as a whole array: the neighbour sums over the edge list's graph. -/
theorem agg_eq {C : Nat}
    (wfg : GatherDims.WF ⟨2, ![50000, C]⟩ ⟨2, ![800000, 1]⟩ ⟨2, ![800000, C]⟩ [1] [0] [] [0] [] 1 ![1, C])
    (wfs : ScatterDims.WF ⟨2, ![50000, C]⟩ ⟨2, ![800000, 1]⟩ ⟨2, ![800000, C]⟩ [1] [0] [0] 1)
    (ds : ScatterDims ⟨2, ![50000, C]⟩ ⟨2, ![800000, 1]⟩ ⟨2, ![800000, C]⟩) (hds : ds = rowScatterDims 50000 800000 C wfs)
    (dg : GatherDims ⟨2, ![50000, C]⟩ ⟨2, ![800000, 1]⟩ ⟨2, ![800000, C]⟩) (hdg : dg = rowGatherDims 50000 800000 C wfg)
    (z : Arr2 50000 C) (hz : ∀ i, z i = 0) (T : Arr2 50000 C) (e13 : IVec ⟨2, ![2, 800000]⟩ 32) :
    Host.scatterAdd (F := Ideal) (φ := .f32) ds z (Cert.ReferenceIdeal.ReadP.val_main_v23 (F := Ideal) e13)
        (Host.gather dg T (Cert.ReferenceIdeal.ReadP.val_main_v20 (F := Ideal) e13))
      = arr (nsum (Ld e13) (sr e13) (cur T)) :=
  host_scatter_gather_eq (by decide) wfg wfs ds hds dg hdg z hz T _ _

/-- An array of the zero word holds zero everywhere. -/
theorem zeros_apply {t : Shape} (h : S_.BroadcastsInDim t ![]) (i : t.Idx) :
    broadcastInDim t ![] h (constant (F := Ideal) S_ .f32 0x00000000#32) i = 0 :=
  (broadcastInDim_apply _ h _ i (fun a => a.elim0) (fun a => a.elim0)).trans Ideal.ofBits_zero_f32

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)

/-! ## Layer 1 -/

/-- The first layer's neighbour sums, as the host computes them before region 0. -/
theorem nsum1 : Cert.ReferenceIdeal.ReadP.val_main_v24 (F := Ideal) x0 x13 = arr (nsum (Ld x13) (sr x13) (cur x0)) := by
  unfold Cert.ReferenceIdeal.ReadP.val_main_v24 Cert.ReferenceIdeal.ReadP.val_main_v21
  exact agg_eq Cert.ReferenceIdeal.Gen.gather_S50000x64_S800000x1_S800000x64_1_0_n_n_0_1_164_wf
    Cert.ReferenceIdeal.Gen.scatter_S50000x64_S800000x1_S800000x64_1_0_0_1_wf _ rfl _ rfl _
    (fun i => (Cert.ReferenceIdeal.ReadP.val_main_v22_apply i).trans
      ((Cert.ReferenceIdeal.ReadP.val_main_cst_6_apply _).trans Ideal.ofBits_zero_f32)) x0 x13

/-- Region 0's output: the first layer's features. -/
theorem H1k_eq : H1k m ρ c = arr (K1 x0 x1 x2 x3 x13) := by
  have e0 : V3 m ρ c (Pipeline.arrRef spec0 0) = arr (nsum (Ld x13) (sr x13) (cur x0)) := (W3_v25 m ρ c).trans (nsum1 m c)
  have e1 : V3 m ρ c (Pipeline.arrRef spec0 1)
      = shapeCast S50000x1 (Cert.ReferenceIdeal.ReadP.val_main_v14 (F := Ideal) x13) shapeCasts_S50000_S50000x1 := W3_v15 m ρ c
  have e2 : V3 m ρ c (Pipeline.arrRef spec0 2) = arr (cur x0) := (W3_arg0 m ρ c).trans (arr_cur _).symm
  have e3 : V3 m ρ c (Pipeline.arrRef spec0 3) = x1 := W3_arg1 m ρ c
  have e4 : V3 m ρ c (Pipeline.arrRef spec0 4) = shapeCast S1x256 x2 shapeCasts_S256_S1x256 := W3_v26 m ρ c
  have e5 : V3 m ρ c (Pipeline.arrRef spec0 5) = x3 := W3_arg3 m ρ c
  exact (W4_arr m ρ c 6).trans ((final0 (V3 m ρ) c).trans
    (denseOut_layer (Ld x13) (sr x13) e0
      (fun p => (congrArg (fun D => cur D p 0) e1).trans (cur_column _ _ p)) e2 e3
      (fun q => (congrArg (fun B => cur B 0 q) e4).trans (cur_row _ _ q)) e5))

/-! ## Layer 2 -/

/-- Region 1's output: the first layer's features projected by the second layer's matrix. -/
theorem P2k_eq : P2k m ρ c = arr (mm (K1 x0 x1 x2 x3 x13) (cur x4)) := by
  have e0 : V4 m ρ c (Pipeline.arrRef spec1 0) = arr (K1 x0 x1 x2 x3 x13) := H1k_eq m ρ c
  have e1 : V4 m ρ c (Pipeline.arrRef spec1 1) = x4 := W4_arg4 m ρ c
  exact (W5_arr m ρ c 2).trans ((final1 (V4 m ρ) c).trans (projOut_arr e0 e1))

/-- The host's neighbour sums of the projected rows. -/
theorem nsum2 : W6 m ρ c (Proc.devRef .tc main_v38) = arr (nsum (Ld x13) (sr x13) (mm (K1 x0 x1 x2 x3 x13) (cur x4))) := by
  refine (W6_v38 m ρ c).trans ?_
  rw [P2k_eq]
  exact agg_eq gather_S50000x128_S800000x1_S800000x128_1_0_n_n_0_1_1128_wf scatter_S50000x128_S800000x1_S800000x128_1_0_0_1_wf _ rfl _ rfl _
    (zeros_apply bcast_S_S50000x128) _ x13

/-- Region 2's output: the second layer's features. -/
theorem H2k_eq : H2k m ρ c = arr (K2 x0 x1 x2 x3 x4 x5 x6 x13) := by
  have e0 : V6 m ρ c (Pipeline.arrRef spec2 0) = arr (nsum (Ld x13) (sr x13) (mm (K1 x0 x1 x2 x3 x13) (cur x4))) := nsum2 m ρ c
  have e1 : V6 m ρ c (Pipeline.arrRef spec2 1)
      = shapeCast S50000x1 (Cert.ReferenceIdeal.ReadP.val_main_v14 (F := Ideal) x13) shapeCasts_S50000_S50000x1 := W6_v15 m ρ c
  have e2 : V6 m ρ c (Pipeline.arrRef spec2 2) = arr (K1 x0 x1 x2 x3 x13) := (W6_v27 m ρ c).trans (H1k_eq m ρ c)
  have e3 : V6 m ρ c (Pipeline.arrRef spec2 3) = x6 := W6_arg6 m ρ c
  have e4 : V6 m ρ c (Pipeline.arrRef spec2 4) = shapeCast S1x128 x5 shapeCasts_S128_S1x128 := W6_v39 m ρ c
  exact (W7_arr m ρ c 5).trans ((final2 (V6 m ρ) c).trans
    (finishReluOut_layer (Ld x13) (sr x13) e0
      (fun p => (congrArg (fun D => cur D p 0) e1).trans (cur_column _ _ p)) e2 e3
      (fun q => (congrArg (fun B => cur B 0 q) e4).trans (cur_row _ _ q))))

/-! ## The two heads, side by side -/

/-- The side-by-side projection matrices, root matrices and biases. -/
abbrev Wcat := concatenate S128x32 1 [⟨S128x16, x7⟩, ⟨S128x16, x10⟩] concatenates_S128x16_S128x16_S128x32_d1
abbrev Wcat' := concatenate S128x32 1 [⟨S128x16, x9⟩, ⟨S128x16, x12⟩] concatenates_S128x16_S128x16_S128x32_d1
abbrev bcat := concatenate S32 0 [⟨S16, x8⟩, ⟨S16, x11⟩] concatenates_S16_S16_S32_d0

/-- Region 3's output: the second layer's features projected by the side-by-side matrix. -/
theorem P3k_eq : P3k m ρ c = arr (mm (K2 x0 x1 x2 x3 x4 x5 x6 x13) (cur (Wcat m c))) := by
  have e0 : V8 m ρ c (Pipeline.arrRef spec3 0) = arr (K2 x0 x1 x2 x3 x4 x5 x6 x13) := (W8_v40 m ρ c).trans (H2k_eq m ρ c)
  have e1 : V8 m ρ c (Pipeline.arrRef spec3 1) = Wcat m c := W8_v41 m ρ c
  exact (W9_arr m ρ c 2).trans ((final3 (V8 m ρ) c).trans (projOut_arr e0 e1))

/-- The host's neighbour sums of the rows projected for both heads. -/
theorem nsum3 : W10 m ρ c (Proc.devRef .tc main_v54)
    = arr (nsum (Ld x13) (sr x13) (mm (K2 x0 x1 x2 x3 x4 x5 x6 x13) (cur (Wcat m c)))) := by
  refine (W10_v54 m ρ c).trans ?_
  rw [P3k_eq]
  exact agg_eq gather_S50000x32_S800000x1_S800000x32_1_0_n_n_0_1_132_wf scatter_S50000x32_S800000x1_S800000x32_1_0_0_1_wf _ rfl _ rfl _
    (zeros_apply bcast_S_S50000x32) _ x13

/-- Region 4's output: both heads' layers, side by side. -/
theorem O3k_eq : O3k m ρ c
    = arr (layerProjFirst (Ld x13) (sr x13) (K2 x0 x1 x2 x3 x4 x5 x6 x13) (dv x13) (cur (Wcat m c)) (fun q => bcat m c (ix1 q))
        (cur (Wcat' m c))) := by
  have e0 : V10 m ρ c (Pipeline.arrRef spec4 0)
      = arr (nsum (Ld x13) (sr x13) (mm (K2 x0 x1 x2 x3 x4 x5 x6 x13) (cur (Wcat m c)))) := nsum3 m ρ c
  have e1 : V10 m ρ c (Pipeline.arrRef spec4 1)
      = shapeCast S50000x1 (Cert.ReferenceIdeal.ReadP.val_main_v14 (F := Ideal) x13) shapeCasts_S50000_S50000x1 := W10_v15 m ρ c
  have e2 : V10 m ρ c (Pipeline.arrRef spec4 2) = arr (K2 x0 x1 x2 x3 x4 x5 x6 x13) := (W10_v40 m ρ c).trans (H2k_eq m ρ c)
  have e3 : V10 m ρ c (Pipeline.arrRef spec4 3) = Wcat' m c := W10_v42 m ρ c
  have e4 : V10 m ρ c (Pipeline.arrRef spec4 4) = shapeCast S1x32 (bcat m c) shapeCasts_S32_S1x32 := W10_v55 m ρ c
  exact (W11_arr m ρ c 5).trans ((final4 (V10 m ρ) c).trans
    (finishOut_layer (Ld x13) (sr x13) e0
      (fun p => (congrArg (fun D => cur D p 0) e1).trans (cur_column _ _ p)) e2 e3
      (fun q => (congrArg (fun B => cur B 0 q) e4).trans (cur_row _ _ q))))

/-! ## The halves -/

/-- The left half of two matrices side by side is the first. -/
theorem cat_left (a b : S128x16.Idx → EReal) (k : Fin 128) (q : Fin 16) (h : 0 + q.val < 32) :
    concatenate S128x32 1 [⟨S128x16, a⟩, ⟨S128x16, b⟩] concatenates_S128x16_S128x16_S128x32_d1 (ix2 k ⟨0 + q.val, h⟩) = a (ix2 k q) :=
  concatenate_pair_apply_left (t := S128x32) (s₁ := S128x16) (s₂ := S128x16) 1 a b concatenates_S128x16_S128x16_S128x32_d1
    (ix2 k ⟨0 + q.val, h⟩) rfl (ix2 k q) (fun d => by
      match d with
      | ⟨0, _⟩ => rfl
      | ⟨1, _⟩ => show q.val = 0 + q.val; omega)

/-- The right half is the second. -/
theorem cat_right (a b : S128x16.Idx → EReal) (k : Fin 128) (q : Fin 16) (h : 16 + q.val < 32) :
    concatenate S128x32 1 [⟨S128x16, a⟩, ⟨S128x16, b⟩] concatenates_S128x16_S128x16_S128x32_d1 (ix2 k ⟨16 + q.val, h⟩) = b (ix2 k q) :=
  concatenate_pair_apply_right (t := S128x32) (s₁ := S128x16) (s₂ := S128x16) 1 a b concatenates_S128x16_S128x16_S128x32_d1
    (ix2 k ⟨16 + q.val, h⟩) rfl rfl (ix2 k q) (fun d hd => by
      match d with
      | ⟨0, _⟩ => rfl
      | ⟨1, _⟩ => exact absurd rfl hd) (by show q.val + 16 = 16 + q.val; omega)

/-- The first half of two vectors end to end is the first. -/
theorem vcat_left (a b : S16.Idx → EReal) (q : Fin 16) (h : 0 + q.val < 32) :
    concatenate S32 0 [⟨S16, a⟩, ⟨S16, b⟩] concatenates_S16_S16_S32_d0 (ix1 ⟨0 + q.val, h⟩) = a (ix1 q) :=
  concatenate_pair_apply_left (t := S32) (s₁ := S16) (s₂ := S16) 0 a b concatenates_S16_S16_S32_d0
    (ix1 ⟨0 + q.val, h⟩) rfl (ix1 q) (fun d => by
      match d with
      | ⟨0, _⟩ => show q.val = 0 + q.val; omega)

/-- The second half is the second. -/
theorem vcat_right (a b : S16.Idx → EReal) (q : Fin 16) (h : 16 + q.val < 32) :
    concatenate S32 0 [⟨S16, a⟩, ⟨S16, b⟩] concatenates_S16_S16_S32_d0 (ix1 ⟨16 + q.val, h⟩) = b (ix1 q) :=
  concatenate_pair_apply_right (t := S32) (s₁ := S16) (s₂ := S16) 0 a b concatenates_S16_S16_S32_d0
    (ix1 ⟨16 + q.val, h⟩) rfl rfl (ix1 q) (fun d hd => by
      match d with
      | ⟨0, _⟩ => exact absurd rfl hd) (by show q.val + 16 = 16 + q.val; omega)

/-- THE FIRST RESULT: the first head's project-first layer of the second layer's features. -/
theorem result_mu : W12 m ρ c (Proc.devRef .tc main_v57)
    = arr (layerProjFirst (Ld x13) (sr x13) (K2 x0 x1 x2 x3 x4 x5 x6 x13) (dv x13) (cur x7) (fun q => x8 (ix1 q)) (cur x9)) := by
  refine (W12_v57 m ρ c).trans ?_
  rw [O3k_eq]
  funext i
  obtain ⟨p, q, rfl⟩ : ∃ (p : Fin 50000) (q : Fin 16), i = ix2 p q := ⟨i 0, i 1, eq_ix2 i⟩
  rw [slice2_axis1_eq 0 _ slices_S50000x32_S50000x16_0_0 p q, arr_ix2, arr_ix2]
  exact layerProjFirst_congr_col (Ld x13) (sr x13) _ _ _ _ _ _ _ _ _ q
    (fun k => cat_left x7 x10 k q _) (vcat_left x8 x11 q _) (fun k => cat_left x9 x12 k q _) p

/-- THE SECOND RESULT: the second head's. -/
theorem result_ls : W12 m ρ c (Proc.devRef .tc main_v58)
    = arr (layerProjFirst (Ld x13) (sr x13) (K2 x0 x1 x2 x3 x4 x5 x6 x13) (dv x13) (cur x10) (fun q => x11 (ix1 q)) (cur x12)) := by
  refine (W12_v58 m ρ c).trans ?_
  rw [O3k_eq]
  funext i
  obtain ⟨p, q, rfl⟩ : ∃ (p : Fin 50000) (q : Fin 16), i = ix2 p q := ⟨i 0, i 1, eq_ix2 i⟩
  rw [slice2_axis1_eq 16 _ slices_S50000x32_S50000x16_0_16 p q, arr_ix2, arr_ix2]
  exact layerProjFirst_congr_col (Ld x13) (sr x13) _ _ _ _ _ _ _ _ _ q
    (fun k => cat_right x7 x10 k q _) (vcat_right x8 x11 q _) (fun k => cat_right x9 x12 k q _) p

/-! ## The run -/

/-- The first result on a core: the first head's project-first layer of the second layer's features. -/
def muOf : Arr2 50000 16 :=
  arr (layerProjFirst (Ld x13) (sr x13) (K2 x0 x1 x2 x3 x4 x5 x6 x13) (dv x13) (cur x7) (fun q => x8 (ix1 q)) (cur x9))

/-- The second result on a core: the second head's. -/
def lsOf : Arr2 50000 16 :=
  arr (layerProjFirst (Ld x13) (sr x13) (K2 x0 x1 x2 x3 x4 x5 x6 x13) (dv x13) (cur x10) (fun q => x11 (ix1 q)) (cur x12))

/-- Every weakly fair execution of the idealized kernel program terminates, nothing faulting, with its two results at the
    two heads' layer formulas of the argument arrays and the arguments as launched. -/
theorem run_values :
    θ_run defs (onTc (τ := τ) (main (F := Ideal))) ⟨m, fun _ => 0, ρ⟩ (fun r => ∀ d : Dev nD,
      r.2.mem ((d.tc : Thread nD τ).loc main_v57) = muOf m d
      ∧ r.2.mem ((d.tc : Thread nD τ).loc main_v58) = lsOf m d
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12)
      ∧ r.2.mem ((d.tc : Thread nD τ).loc main_arg13) = m ((d.tc : Thread nD τ).loc main_arg13)) :=
  (θ_run defs _ _).mono (fun r h d => ⟨(h d).1.trans (result_mu m ρ d), (h d).2.1.trans (result_ls m ρ d), (h d).2.2⟩)
    (Cert.KernelIdeal.RunValue.run_results m ρ)

end Cert.KernelIdeal.KValue

end
-- ==== Proof.RefValueA.lean ====
/-
  The reference's neighbour sums, read at an index.

  Each layer of the reference gathers the rows of its feature table at the edges' start nodes and adds them into
  the rows of a zero table at the edges' end nodes. Read at (p, q) that is the sum, over the edges landing on p,
  of column q of the row the edge starts from: the neighbour sum `nsum L s T p q`, with L the edges landing on
  a node and s the node an edge starts from, both read off the edge list once. The edge list's two index columns are
  recomputed before every layer by the same operations, so every layer has the same L and s.
-/
import proofs.«128211_j27066883899544_2_alg».proof.Proof.RefReadPatched
import proofs.«128211_j27066883899544_2_alg».proof.Proof.GraphConv
import proofs.«128211_j27066883899544_2_alg».proof.Proof.LibGatherScatter

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx GraphConv

/-! ## The graph, read off the edge list -/

/-- The edges landing on node p: those whose end-node word, read signed, is p. -/
def L (x13 : (⟨S2x800000, .i32⟩ : BufTy).Contents (Elt Ideal)) (p : Fin 50000) : Finset (Fin 800000) :=
  Finset.univ.filter fun e => landRow 50000 (ReadP.val_main_v23 (F := Ideal) x13 (ix2 e (0 : Fin 1))) = some p

/-- The node edge e starts from: its start-node word with a negative value wrapped, read signed and clamped. -/
def s (x13 : (⟨S2x800000, .i32⟩ : BufTy).Contents (Elt Ideal)) (e : Fin 800000) : Fin 50000 :=
  clampRow 50000 (by decide) (ReadP.val_main_v20 (F := Ideal) x13 (ix2 e (0 : Fin 1)))

/-- The scale of node p: the inverse of its in-degree, 0 for a node no edge lands on. -/
def d (x13 : (⟨S2x800000, .i32⟩ : BufTy).Contents (Elt Ideal)) (p : Fin 50000) : EReal :=
  ReadP.val_main_v14 (F := Ideal) x13 (ix1 p)

/-! ## Rows gathered and added into a zero table -/

/-- Rows of y gathered at one index column and added into a zero table at another are the neighbour sums of y, for
    the graph the two columns spell: an edge lands on the node its second word names (read signed, when it is a node)
    and starts from the node its first word names (read signed and clamped). -/
theorem gather_scatter_nsum {N E C : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z y : Arr2 N C) (hz : ∀ i, z i = 0) (ig is : IVec ⟨2, ![E, 1]⟩ 32)
    (Lf : Fin N → Finset (Fin E)) (sf : Fin E → Fin N)
    (hL : ∀ p, Lf p = Finset.univ.filter fun e => landRow N (is (ix2 e (0 : Fin 1))) = some p)
    (hs : ∀ e, sf e = clampRow N hN (ig (ix2 e (0 : Fin 1))))
    (p : Fin N) (q : Fin C) :
    Ideal.hostScatterAdd (rowScatterDims N E C wfs) z is (Host.gather (rowGatherDims N E C wfg) y ig) (ix2 p q)
      = nsum Lf sf (cur y) p q := by
  rw [scatterAdd_rows_apply, hz, zero_add]
  show _ = ∑ e ∈ Lf p, y (ix2 (sf e) q)
  rw [hL]
  refine Finset.sum_congr rfl fun e _ => ?_
  rw [gather_rows_apply hN wfg y ig e q, hs]

/-- At the exact instance the host's accumulating scatter is the exact sum. -/
theorem scatterAdd_ideal {s0 si u : Shape} {w : Nat} (ds : ScatterDims s0 si u) (x : s0.Idx → EReal) (idx : IVec si w)
    (upd : u.Idx → EReal) :
    Host.scatterAdd (F := Idealize.ShloMosaic.Ideal) (φ := .f32) ds x idx upd = Ideal.hostScatterAdd ds x idx upd := rfl

/-! ## The four neighbour sums -/

/-- The zero word broadcast to a table is the zero table. -/
theorem zero22 (i : S50000x64.Idx) : ReadP.val_main_v22 (F := Ideal) i = (0 : EReal) := by
  rw [ReadP.val_main_v22_apply, ReadP.val_main_cst_6_apply, Ideal.ofBits_def, Ideal.ofBits_zero_f32]

/-- LAYER 1's neighbour sums, of the input features. -/
theorem agg1 (x0 : (⟨S50000x64, .f32⟩ : BufTy).Contents (Elt Ideal)) (x13 : (⟨S2x800000, .i32⟩ : BufTy).Contents (Elt Ideal))
    (p : Fin 50000) (q : Fin 64) :
    ReadP.val_main_v24 (F := Ideal) x0 x13 (ix2 p q)
      = nsum (L x13) (s x13) (cur (A := 50000) (B := 64) x0) p q := by
  unfold ReadP.val_main_v24 ReadP.val_main_v21
  rw [scatterAdd_ideal]
  have hs : scatter_S50000x64_S800000x1_S800000x64_1_0_0_1
      = rowScatterDims 50000 800000 64 Facts₀.scatter_S50000x64_S800000x1_S800000x64_1_0_0_1_wf := rfl
  have hg : gather_S50000x64_S800000x1_S800000x64_1_0_n_n_0_1_164
      = rowGatherDims 50000 800000 64 Facts₀.gather_S50000x64_S800000x1_S800000x64_1_0_n_n_0_1_164_wf := rfl
  rw [hs, hg]
  exact gather_scatter_nsum (by decide) _ _ _ x0 zero22 _ _ (L x13) (s x13) (fun _ => rfl) (fun _ => rfl) p q

/-- The zero word broadcast to a table is the zero table. -/
theorem zero42 (i : S50000x256.Idx) : ReadP.val_main_v42 (F := Ideal) i = (0 : EReal) := by
  rw [ReadP.val_main_v42_apply, ReadP.val_main_cst_9_apply, Ideal.ofBits_def, Ideal.ofBits_zero_f32]

/-- The end-node column is recomputed by the same operations. -/
theorem col43 (x13 : (⟨S2x800000, .i32⟩ : BufTy).Contents (Elt Ideal)) : ReadP.val_main_v43 (F := Ideal) x13 = ReadP.val_main_v23 (F := Ideal) x13 := rfl
/-- The start-node column is recomputed by the same operations. -/
theorem col40 (x13 : (⟨S2x800000, .i32⟩ : BufTy).Contents (Elt Ideal)) : ReadP.val_main_v40 (F := Ideal) x13 = ReadP.val_main_v20 (F := Ideal) x13 := rfl

/-- LAYER 2's neighbour sums, of layer 1's result (kept as one term). -/
theorem agg2 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x13 : (⟨S2x800000, .i32⟩ : BufTy).Contents (Elt Ideal))
    (p : Fin 50000) (q : Fin 256) :
    ReadP.val_main_v44 (F := Ideal) x0 x1 x2 x3 x13 (ix2 p q)
      = nsum (L x13) (s x13) (cur (A := 50000) (B := 256) (ReadP.val_main_v34 (F := Ideal) x0 x1 x2 x3 x13)) p q := by
  unfold ReadP.val_main_v44 ReadP.val_main_v41
  generalize ReadP.val_main_v34 (F := Ideal) x0 x1 x2 x3 x13 = y
  rw [col43, col40, scatterAdd_ideal]
  have hs : scatter_S50000x256_S800000x1_S800000x256_1_0_0_1
      = rowScatterDims 50000 800000 256 Facts₀.scatter_S50000x256_S800000x1_S800000x256_1_0_0_1_wf := rfl
  have hg : gather_S50000x256_S800000x1_S800000x256_1_0_n_n_0_1_1256
      = rowGatherDims 50000 800000 256 Facts₀.gather_S50000x256_S800000x1_S800000x256_1_0_n_n_0_1_1256_wf := rfl
  rw [hs, hg]
  exact gather_scatter_nsum (by decide) _ _ _ y zero42 _ _ (L x13) (s x13) (fun _ => rfl) (fun _ => rfl) p q

/-- The zero word broadcast to a table is the zero table. -/
theorem zero62 (i : S50000x128.Idx) : ReadP.val_main_v62 (F := Ideal) i = (0 : EReal) := by
  rw [ReadP.val_main_v62_apply, ReadP.val_main_cst_12_apply, Ideal.ofBits_def, Ideal.ofBits_zero_f32]

/-- The end-node column is recomputed by the same operations. -/
theorem col63 (x13 : (⟨S2x800000, .i32⟩ : BufTy).Contents (Elt Ideal)) : ReadP.val_main_v63 (F := Ideal) x13 = ReadP.val_main_v23 (F := Ideal) x13 := rfl
/-- The start-node column is recomputed by the same operations. -/
theorem col60 (x13 : (⟨S2x800000, .i32⟩ : BufTy).Contents (Elt Ideal)) : ReadP.val_main_v60 (F := Ideal) x13 = ReadP.val_main_v20 (F := Ideal) x13 := rfl

/-- The mean head's neighbour sums, of layer 2's result (kept as one term). -/
theorem agg3 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x13 : (⟨S2x800000, .i32⟩ : BufTy).Contents (Elt Ideal))
    (p : Fin 50000) (q : Fin 128) :
    ReadP.val_main_v64 (F := Ideal) x0 x1 x2 x3 x4 x5 x6 x13 (ix2 p q)
      = nsum (L x13) (s x13) (cur (A := 50000) (B := 128) (ReadP.val_main_v54 (F := Ideal) x0 x1 x2 x3 x4 x5 x6 x13)) p q := by
  unfold ReadP.val_main_v64 ReadP.val_main_v61
  generalize ReadP.val_main_v54 (F := Ideal) x0 x1 x2 x3 x4 x5 x6 x13 = y
  rw [col63, col60, scatterAdd_ideal]
  have hs : scatter_S50000x128_S800000x1_S800000x128_1_0_0_1
      = rowScatterDims 50000 800000 128 Facts₀.scatter_S50000x128_S800000x1_S800000x128_1_0_0_1_wf := rfl
  have hg : gather_S50000x128_S800000x1_S800000x128_1_0_n_n_0_1_1128
      = rowGatherDims 50000 800000 128 Facts₀.gather_S50000x128_S800000x1_S800000x128_1_0_n_n_0_1_1128_wf := rfl
  rw [hs, hg]
  exact gather_scatter_nsum (by decide) _ _ _ y zero62 _ _ (L x13) (s x13) (fun _ => rfl) (fun _ => rfl) p q

/-- The zero word broadcast to a table is the zero table. -/
theorem zero81 (i : S50000x128.Idx) : ReadP.val_main_v81 (F := Ideal) i = (0 : EReal) := by
  rw [ReadP.val_main_v81_apply, ReadP.val_main_cst_15_apply, Ideal.ofBits_def, Ideal.ofBits_zero_f32]

/-- The end-node column is recomputed by the same operations. -/
theorem col82 (x13 : (⟨S2x800000, .i32⟩ : BufTy).Contents (Elt Ideal)) : ReadP.val_main_v82 (F := Ideal) x13 = ReadP.val_main_v23 (F := Ideal) x13 := rfl
/-- The start-node column is recomputed by the same operations. -/
theorem col79 (x13 : (⟨S2x800000, .i32⟩ : BufTy).Contents (Elt Ideal)) : ReadP.val_main_v79 (F := Ideal) x13 = ReadP.val_main_v20 (F := Ideal) x13 := rfl

/-- The log-deviation head's neighbour sums, of layer 2's result (kept as one term). -/
theorem agg4 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x13 : (⟨S2x800000, .i32⟩ : BufTy).Contents (Elt Ideal))
    (p : Fin 50000) (q : Fin 128) :
    ReadP.val_main_v83 (F := Ideal) x0 x1 x2 x3 x4 x5 x6 x13 (ix2 p q)
      = nsum (L x13) (s x13) (cur (A := 50000) (B := 128) (ReadP.val_main_v54 (F := Ideal) x0 x1 x2 x3 x4 x5 x6 x13)) p q := by
  unfold ReadP.val_main_v83 ReadP.val_main_v80
  generalize ReadP.val_main_v54 (F := Ideal) x0 x1 x2 x3 x4 x5 x6 x13 = y
  rw [col82, col79, scatterAdd_ideal]
  have hs : scatter_S50000x128_S800000x1_S800000x128_1_0_0_1
      = rowScatterDims 50000 800000 128 Facts₀.scatter_S50000x128_S800000x1_S800000x128_1_0_0_1_wf := rfl
  have hg : gather_S50000x128_S800000x1_S800000x128_1_0_n_n_0_1_1128
      = rowGatherDims 50000 800000 128 Facts₀.gather_S50000x128_S800000x1_S800000x128_1_0_n_n_0_1_1128_wf := rfl
  rw [hs, hg]
  exact gather_scatter_nsum (by decide) _ _ _ y zero81 _ _ (L x13) (s x13) (fun _ => rfl) (fun _ => rfl) p q

/-! ## The layer written out -/

/-- The scale at a node, folded. -/
theorem d_apply (x13 : (⟨S2x800000, .i32⟩ : BufTy).Contents (Elt Ideal)) (p : Fin 50000) :
    ReadP.val_main_v14 (F := Ideal) x13 (ix1 p) = d x13 p := rfl

/-- What the operations of a layer compute at (p, q), entry by entry, is the layer. -/
theorem layerRef_form {N E K B : Nat} (Lf : Fin N → Finset (Fin E)) (sf : Fin E → Fin N) (T : Arr2 N K) (dv : Fin N → EReal)
    (W W' : Arr2 K B) (bv : Fin B → EReal) (p : Fin N) (q : Fin B) :
    (∑ k : Fin K, nsum Lf sf (cur T) p k * dv p * W (ix2 k q) + bv q) + ∑ k : Fin K, T (ix2 p k) * W' (ix2 k q)
      = layerRef Lf sf (cur T) dv (cur W) bv (cur W') p q := rfl

/-- The same followed by the positive part. -/
theorem relu_layerRef_form {N E K B : Nat} (Lf : Fin N → Finset (Fin E)) (sf : Fin E → Fin N) (T : Arr2 N K) (dv : Fin N → EReal)
    (W W' : Arr2 K B) (bv : Fin B → EReal) (p : Fin N) (q : Fin B) :
    max ((∑ k : Fin K, nsum Lf sf (cur T) p k * dv p * W (ix2 k q) + bv q) + ∑ k : Fin K, T (ix2 p k) * W' (ix2 k q)) 0
      = relu (layerRef Lf sf (cur T) dv (cur W) bv (cur W')) p q := rfl

end Cert.ReferenceIdeal.RefValue

end
-- ==== Proof.RefValueB1.lean ====
/-
  Layer 1 of the reference at an index: the positive part of the mean-aggregation layer of the input features.
  Every step is a rewrite by a stated equation: the stages are never compared by unfolding them.
-/
import proofs.«128211_j27066883899544_2_alg».proof.Proof.RefValueA

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx GraphConv

/-! ## Where the stages read their operands, at an index given by its coordinates -/

theorem li28 (p : Fin 50000) (q : Fin 256) (k : Fin 64) : ReadP.lidx_main_v28 (ix2 p q) k = ix2 p k :=
  funext fun a => by match a with | ⟨0, _⟩ => rfl | ⟨1, _⟩ => rfl
theorem ri28 (p : Fin 50000) (q : Fin 256) (k : Fin 64) : ReadP.ridx_main_v28 (ix2 p q) k = ix2 k q :=
  funext fun a => by match a with | ⟨0, _⟩ => rfl | ⟨1, _⟩ => rfl
theorem li32 (p : Fin 50000) (q : Fin 256) (k : Fin 64) : ReadP.lidx_main_v32 (ix2 p q) k = ix2 p k :=
  funext fun a => by match a with | ⟨0, _⟩ => rfl | ⟨1, _⟩ => rfl
theorem ri32 (p : Fin 50000) (q : Fin 256) (k : Fin 64) : ReadP.ridx_main_v32 (ix2 p q) k = ix2 k q :=
  funext fun a => by match a with | ⟨0, _⟩ => rfl | ⟨1, _⟩ => rfl
theorem i26 (p : Fin 50000) (k : Fin 64) : ReadP.idx_main_v26 (ix2 p k) = ix2 p (0 : Fin 1) :=
  funext fun a => by match a with | ⟨0, _⟩ => rfl | ⟨1, _⟩ => rfl
theorem i25 (p : Fin 50000) : ReadP.idx_main_v25 (ix2 p (0 : Fin 1)) = ix1 p :=
  funext fun a => by match a with | ⟨0, _⟩ => rfl
theorem i30 (p : Fin 50000) (q : Fin 256) : ReadP.idx_main_v30 (ix2 p q) = ix2 (0 : Fin 1) q :=
  funext fun a => by match a with | ⟨0, _⟩ => rfl | ⟨1, _⟩ => rfl
theorem i29 (q : Fin 256) : ReadP.idx_main_v29 (ix2 (0 : Fin 1) q) = ix1 q :=
  funext fun a => by match a with | ⟨0, _⟩ => rfl

/-! ## The layer at an index -/

/-- The scaled neighbour sum at (p, k). -/
theorem scaled27 (x0 : (⟨S50000x64, .f32⟩ : BufTy).Contents (Elt Ideal)) (x13 : (⟨S2x800000, .i32⟩ : BufTy).Contents (Elt Ideal)) (p : Fin 50000) (k : Fin 64) :
    ReadP.val_main_v27 (F := Ideal) x0 x13 (ix2 p k)
      = nsum (L x13) (s x13) (cur (A := 50000) (B := 64) x0) p k * d x13 p := by
  rw [ReadP.val_main_v27_apply, agg1, ReadP.val_main_v26_apply, i26, ReadP.val_main_v25_apply, i25,
    Ideal.mulf_def, d_apply]

/-- LAYER 1 at (p, q). -/
theorem lay1 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x13 : (⟨S2x800000, .i32⟩ : BufTy).Contents (Elt Ideal))
    (p : Fin 50000) (q : Fin 256) :
    ReadP.val_main_v34 (F := Ideal) x0 x1 x2 x3 x13 (ix2 p q)
      = relu (layerRef (L x13) (s x13) (cur (A := 50000) (B := 64) x0) (d x13) (cur (A := 64) (B := 256) x1) (fun q => x2 (ix1 q)) (cur (A := 64) (B := 256) x3)) p q := by
  rw [ReadP.val_main_v34_apply, ReadP.val_main_v33_apply, ReadP.val_main_v31_apply, ReadP.val_main_v28_apply, ReadP.val_main_v32_apply, ReadP.val_main_v30_apply, ReadP.val_main_v29_apply, ReadP.val_main_call1_v0_apply, ReadP.val_main_call1_cst_apply]
  simp only [li28, ri28, li32, ri32, i30, i29, scaled27]
  rw [Ideal.maximumf_def, Ideal.addf_def, Ideal.addf_def, Ideal.ofBits_def, Ideal.ofBits_zero_f32]
  exact relu_layerRef_form (L x13) (s x13) x0 (d x13) x1 x3 (fun q => x2 (ix1 q)) p q

end Cert.ReferenceIdeal.RefValue

end
-- ==== Proof.RefValueB2.lean ====
/-
  Layer 2 of the reference at an index: the positive part of the mean-aggregation layer of layer 1's result, which is kept as one term.
  Every step is a rewrite by a stated equation: the stages are never compared by unfolding them.
-/
import proofs.«128211_j27066883899544_2_alg».proof.Proof.RefValueA

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx GraphConv

/-! ## Where the stages read their operands, at an index given by its coordinates -/

theorem li48 (p : Fin 50000) (q : Fin 128) (k : Fin 256) : ReadP.lidx_main_v48 (ix2 p q) k = ix2 p k :=
  funext fun a => by match a with | ⟨0, _⟩ => rfl | ⟨1, _⟩ => rfl
theorem ri48 (p : Fin 50000) (q : Fin 128) (k : Fin 256) : ReadP.ridx_main_v48 (ix2 p q) k = ix2 k q :=
  funext fun a => by match a with | ⟨0, _⟩ => rfl | ⟨1, _⟩ => rfl
theorem li52 (p : Fin 50000) (q : Fin 128) (k : Fin 256) : ReadP.lidx_main_v52 (ix2 p q) k = ix2 p k :=
  funext fun a => by match a with | ⟨0, _⟩ => rfl | ⟨1, _⟩ => rfl
theorem ri52 (p : Fin 50000) (q : Fin 128) (k : Fin 256) : ReadP.ridx_main_v52 (ix2 p q) k = ix2 k q :=
  funext fun a => by match a with | ⟨0, _⟩ => rfl | ⟨1, _⟩ => rfl
theorem i46 (p : Fin 50000) (k : Fin 256) : ReadP.idx_main_v46 (ix2 p k) = ix2 p (0 : Fin 1) :=
  funext fun a => by match a with | ⟨0, _⟩ => rfl | ⟨1, _⟩ => rfl
theorem i45 (p : Fin 50000) : ReadP.idx_main_v45 (ix2 p (0 : Fin 1)) = ix1 p :=
  funext fun a => by match a with | ⟨0, _⟩ => rfl
theorem i50 (p : Fin 50000) (q : Fin 128) : ReadP.idx_main_v50 (ix2 p q) = ix2 (0 : Fin 1) q :=
  funext fun a => by match a with | ⟨0, _⟩ => rfl | ⟨1, _⟩ => rfl
theorem i49 (q : Fin 128) : ReadP.idx_main_v49 (ix2 (0 : Fin 1) q) = ix1 q :=
  funext fun a => by match a with | ⟨0, _⟩ => rfl

/-! ## The layer at an index -/

/-- The scaled neighbour sum at (p, k). -/
theorem scaled47 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x13 : (⟨S2x800000, .i32⟩ : BufTy).Contents (Elt Ideal)) (p : Fin 50000) (k : Fin 256) :
    ReadP.val_main_v47 (F := Ideal) x0 x1 x2 x3 x13 (ix2 p k)
      = nsum (L x13) (s x13) (cur (A := 50000) (B := 256) (ReadP.val_main_v34 (F := Ideal) x0 x1 x2 x3 x13)) p k * d x13 p := by
  rw [ReadP.val_main_v47_apply, agg2, ReadP.val_main_v46_apply, i46, ReadP.val_main_v45_apply, i45,
    Ideal.mulf_def, d_apply]

/-- LAYER 2 at (p, q), over layer 1's result. -/
theorem lay2 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x13 : (⟨S2x800000, .i32⟩ : BufTy).Contents (Elt Ideal))
    (p : Fin 50000) (q : Fin 128) :
    ReadP.val_main_v54 (F := Ideal) x0 x1 x2 x3 x4 x5 x6 x13 (ix2 p q)
      = relu (layerRef (L x13) (s x13) (cur (A := 50000) (B := 256) (ReadP.val_main_v34 (F := Ideal) x0 x1 x2 x3 x13)) (d x13) (cur (A := 256) (B := 128) x4) (fun q => x5 (ix1 q)) (cur (A := 256) (B := 128) x6)) p q := by
  rw [ReadP.val_main_v54_apply, ReadP.val_main_v53_apply, ReadP.val_main_v51_apply, ReadP.val_main_v48_apply, ReadP.val_main_v52_apply, ReadP.val_main_v50_apply, ReadP.val_main_v49_apply, ReadP.val_main_call2_v0_apply, ReadP.val_main_call2_cst_apply]
  simp only [li48, ri48, li52, ri52, i50, i49, scaled47]
  rw [Ideal.maximumf_def, Ideal.addf_def, Ideal.addf_def, Ideal.ofBits_def, Ideal.ofBits_zero_f32]
  exact relu_layerRef_form (L x13) (s x13) (ReadP.val_main_v34 (F := Ideal) x0 x1 x2 x3 x13) (d x13) x4 x6 (fun q => x5 (ix1 q)) p q

end Cert.ReferenceIdeal.RefValue

end
-- ==== Proof.RefValueB3.lean ====
/-
  The mean head of the reference at an index: the mean-aggregation layer of layer 2's result, which is kept as one term.
  Every step is a rewrite by a stated equation: the stages are never compared by unfolding them.
-/
import proofs.«128211_j27066883899544_2_alg».proof.Proof.RefValueA

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx GraphConv

/-! ## Where the stages read their operands, at an index given by its coordinates -/

theorem li68 (p : Fin 50000) (q : Fin 16) (k : Fin 128) : ReadP.lidx_main_v68 (ix2 p q) k = ix2 p k :=
  funext fun a => by match a with | ⟨0, _⟩ => rfl | ⟨1, _⟩ => rfl
theorem ri68 (p : Fin 50000) (q : Fin 16) (k : Fin 128) : ReadP.ridx_main_v68 (ix2 p q) k = ix2 k q :=
  funext fun a => by match a with | ⟨0, _⟩ => rfl | ⟨1, _⟩ => rfl
theorem li72 (p : Fin 50000) (q : Fin 16) (k : Fin 128) : ReadP.lidx_main_v72 (ix2 p q) k = ix2 p k :=
  funext fun a => by match a with | ⟨0, _⟩ => rfl | ⟨1, _⟩ => rfl
theorem ri72 (p : Fin 50000) (q : Fin 16) (k : Fin 128) : ReadP.ridx_main_v72 (ix2 p q) k = ix2 k q :=
  funext fun a => by match a with | ⟨0, _⟩ => rfl | ⟨1, _⟩ => rfl
theorem i66 (p : Fin 50000) (k : Fin 128) : ReadP.idx_main_v66 (ix2 p k) = ix2 p (0 : Fin 1) :=
  funext fun a => by match a with | ⟨0, _⟩ => rfl | ⟨1, _⟩ => rfl
theorem i65 (p : Fin 50000) : ReadP.idx_main_v65 (ix2 p (0 : Fin 1)) = ix1 p :=
  funext fun a => by match a with | ⟨0, _⟩ => rfl
theorem i70 (p : Fin 50000) (q : Fin 16) : ReadP.idx_main_v70 (ix2 p q) = ix2 (0 : Fin 1) q :=
  funext fun a => by match a with | ⟨0, _⟩ => rfl | ⟨1, _⟩ => rfl
theorem i69 (q : Fin 16) : ReadP.idx_main_v69 (ix2 (0 : Fin 1) q) = ix1 q :=
  funext fun a => by match a with | ⟨0, _⟩ => rfl

/-! ## The layer at an index -/

/-- The scaled neighbour sum at (p, k). -/
theorem scaled67 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x13 : (⟨S2x800000, .i32⟩ : BufTy).Contents (Elt Ideal)) (p : Fin 50000) (k : Fin 128) :
    ReadP.val_main_v67 (F := Ideal) x0 x1 x2 x3 x4 x5 x6 x13 (ix2 p k)
      = nsum (L x13) (s x13) (cur (A := 50000) (B := 128) (ReadP.val_main_v54 (F := Ideal) x0 x1 x2 x3 x4 x5 x6 x13)) p k * d x13 p := by
  rw [ReadP.val_main_v67_apply, agg3, ReadP.val_main_v66_apply, i66, ReadP.val_main_v65_apply, i65,
    Ideal.mulf_def, d_apply]

/-- THE MEAN HEAD at (p, q), over layer 2's result. -/
theorem lay3 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128x16, .f32⟩ : BufTy).Contents (Elt Ideal)) (x8 : (⟨S16, .f32⟩ : BufTy).Contents (Elt Ideal)) (x9 : (⟨S128x16, .f32⟩ : BufTy).Contents (Elt Ideal)) (x13 : (⟨S2x800000, .i32⟩ : BufTy).Contents (Elt Ideal))
    (p : Fin 50000) (q : Fin 16) :
    ReadP.val_main_v73 (F := Ideal) x0 x1 x2 x3 x4 x5 x6 x7 x8 x9 x13 (ix2 p q)
      = layerRef (L x13) (s x13) (cur (A := 50000) (B := 128) (ReadP.val_main_v54 (F := Ideal) x0 x1 x2 x3 x4 x5 x6 x13)) (d x13) (cur (A := 128) (B := 16) x7) (fun q => x8 (ix1 q)) (cur (A := 128) (B := 16) x9) p q := by
  rw [ReadP.val_main_v73_apply, ReadP.val_main_v71_apply, ReadP.val_main_v68_apply, ReadP.val_main_v72_apply, ReadP.val_main_v70_apply, ReadP.val_main_v69_apply]
  simp only [li68, ri68, li72, ri72, i70, i69, scaled67]
  rw [Ideal.addf_def, Ideal.addf_def]
  exact layerRef_form (L x13) (s x13) (ReadP.val_main_v54 (F := Ideal) x0 x1 x2 x3 x4 x5 x6 x13) (d x13) x7 x9 (fun q => x8 (ix1 q)) p q

end Cert.ReferenceIdeal.RefValue

end
-- ==== Proof.RefValueB4.lean ====
/-
  The log-deviation head of the reference at an index: the mean-aggregation layer of layer 2's result, which is kept as one term.
  Every step is a rewrite by a stated equation: the stages are never compared by unfolding them.
-/
import proofs.«128211_j27066883899544_2_alg».proof.Proof.RefValueA

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx GraphConv

/-! ## Where the stages read their operands, at an index given by its coordinates -/

theorem li87 (p : Fin 50000) (q : Fin 16) (k : Fin 128) : ReadP.lidx_main_v87 (ix2 p q) k = ix2 p k :=
  funext fun a => by match a with | ⟨0, _⟩ => rfl | ⟨1, _⟩ => rfl
theorem ri87 (p : Fin 50000) (q : Fin 16) (k : Fin 128) : ReadP.ridx_main_v87 (ix2 p q) k = ix2 k q :=
  funext fun a => by match a with | ⟨0, _⟩ => rfl | ⟨1, _⟩ => rfl
theorem li91 (p : Fin 50000) (q : Fin 16) (k : Fin 128) : ReadP.lidx_main_v91 (ix2 p q) k = ix2 p k :=
  funext fun a => by match a with | ⟨0, _⟩ => rfl | ⟨1, _⟩ => rfl
theorem ri91 (p : Fin 50000) (q : Fin 16) (k : Fin 128) : ReadP.ridx_main_v91 (ix2 p q) k = ix2 k q :=
  funext fun a => by match a with | ⟨0, _⟩ => rfl | ⟨1, _⟩ => rfl
theorem i85 (p : Fin 50000) (k : Fin 128) : ReadP.idx_main_v85 (ix2 p k) = ix2 p (0 : Fin 1) :=
  funext fun a => by match a with | ⟨0, _⟩ => rfl | ⟨1, _⟩ => rfl
theorem i84 (p : Fin 50000) : ReadP.idx_main_v84 (ix2 p (0 : Fin 1)) = ix1 p :=
  funext fun a => by match a with | ⟨0, _⟩ => rfl
theorem i89 (p : Fin 50000) (q : Fin 16) : ReadP.idx_main_v89 (ix2 p q) = ix2 (0 : Fin 1) q :=
  funext fun a => by match a with | ⟨0, _⟩ => rfl | ⟨1, _⟩ => rfl
theorem i88 (q : Fin 16) : ReadP.idx_main_v88 (ix2 (0 : Fin 1) q) = ix1 q :=
  funext fun a => by match a with | ⟨0, _⟩ => rfl

/-! ## The layer at an index -/

/-- The scaled neighbour sum at (p, k). -/
theorem scaled86 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x13 : (⟨S2x800000, .i32⟩ : BufTy).Contents (Elt Ideal)) (p : Fin 50000) (k : Fin 128) :
    ReadP.val_main_v86 (F := Ideal) x0 x1 x2 x3 x4 x5 x6 x13 (ix2 p k)
      = nsum (L x13) (s x13) (cur (A := 50000) (B := 128) (ReadP.val_main_v54 (F := Ideal) x0 x1 x2 x3 x4 x5 x6 x13)) p k * d x13 p := by
  rw [ReadP.val_main_v86_apply, agg4, ReadP.val_main_v85_apply, i85, ReadP.val_main_v84_apply, i84,
    Ideal.mulf_def, d_apply]

/-- THE LOG-DEVIATION HEAD at (p, q), over layer 2's result. -/
theorem lay4 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x10 : (⟨S128x16, .f32⟩ : BufTy).Contents (Elt Ideal)) (x11 : (⟨S16, .f32⟩ : BufTy).Contents (Elt Ideal)) (x12 : (⟨S128x16, .f32⟩ : BufTy).Contents (Elt Ideal)) (x13 : (⟨S2x800000, .i32⟩ : BufTy).Contents (Elt Ideal))
    (p : Fin 50000) (q : Fin 16) :
    ReadP.val_main_v92 (F := Ideal) x0 x1 x2 x3 x4 x5 x6 x10 x11 x12 x13 (ix2 p q)
      = layerRef (L x13) (s x13) (cur (A := 50000) (B := 128) (ReadP.val_main_v54 (F := Ideal) x0 x1 x2 x3 x4 x5 x6 x13)) (d x13) (cur (A := 128) (B := 16) x10) (fun q => x11 (ix1 q)) (cur (A := 128) (B := 16) x12) p q := by
  rw [ReadP.val_main_v92_apply, ReadP.val_main_v90_apply, ReadP.val_main_v87_apply, ReadP.val_main_v91_apply, ReadP.val_main_v89_apply, ReadP.val_main_v88_apply]
  simp only [li87, ri87, li91, ri91, i89, i88, scaled86]
  rw [Ideal.addf_def, Ideal.addf_def]
  exact layerRef_form (L x13) (s x13) (ReadP.val_main_v54 (F := Ideal) x0 x1 x2 x3 x4 x5 x6 x13) (d x13) x10 x12 (fun q => x11 (ix1 q)) p q

end Cert.ReferenceIdeal.RefValue

end
-- ==== Proof.RefValue.lean ====
/-
  The reference as three mean-aggregation layers.

  The reference's two results, the mean head and the log-deviation head, are both the mean-aggregation layer
  `layerRef` of the same table H2, the positive part of layer 2 of H1, the positive part of layer 1 of the input
  features; every layer uses the same graph (L the edges landing on a node, s the node an edge starts from) and the
  same scale d. Each layer is read at an index over the previous layer's result kept as one term; here the
  previous layers' results are named and the layers chained, by rewriting only.
-/
import proofs.«128211_j27066883899544_2_alg».proof.Proof.RefValueB1
import proofs.«128211_j27066883899544_2_alg».proof.Proof.RefValueB2
import proofs.«128211_j27066883899544_2_alg».proof.Proof.RefValueB3
import proofs.«128211_j27066883899544_2_alg».proof.Proof.RefValueB4

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx GraphConv

/-- Layer 1's result: the positive part of the layer of the input features. -/
def H1 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x13 : (⟨S2x800000, .i32⟩ : BufTy).Contents (Elt Ideal)) : Fin 50000 → Fin 256 → EReal :=
  relu (layerRef (L x13) (s x13) (cur (A := 50000) (B := 64) x0) (d x13) (cur (A := 64) (B := 256) x1) (fun q => x2 (ix1 q)) (cur (A := 64) (B := 256) x3))

/-- Layer 2's result: the positive part of the layer of layer 1's result. -/
def H2 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x13 : (⟨S2x800000, .i32⟩ : BufTy).Contents (Elt Ideal)) : Fin 50000 → Fin 128 → EReal :=
  relu (layerRef (L x13) (s x13) (H1 x0 x1 x2 x3 x13) (d x13) (cur (A := 256) (B := 128) x4) (fun q => x5 (ix1 q)) (cur (A := 256) (B := 128) x6))

theorem H1_def (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x13 : (⟨S2x800000, .i32⟩ : BufTy).Contents (Elt Ideal)) :
    H1 x0 x1 x2 x3 x13 = relu (layerRef (L x13) (s x13) (cur (A := 50000) (B := 64) x0) (d x13) (cur (A := 64) (B := 256) x1) (fun q => x2 (ix1 q)) (cur (A := 64) (B := 256) x3)) := rfl

theorem H2_def (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x13 : (⟨S2x800000, .i32⟩ : BufTy).Contents (Elt Ideal)) :
    H2 x0 x1 x2 x3 x4 x5 x6 x13 = relu (layerRef (L x13) (s x13) (H1 x0 x1 x2 x3 x13) (d x13) (cur (A := 256) (B := 128) x4) (fun q => x5 (ix1 q)) (cur (A := 256) (B := 128) x6)) := rfl

/-- An array's curried reading at two coordinates. -/
theorem cur_apply {A B : Nat} (x : Arr2 A B) (p : Fin A) (q : Fin B) : cur x p q = x (ix2 p q) := rfl

/-- The reference's layer-1 stage is H1. -/
theorem cur34 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x13 : (⟨S2x800000, .i32⟩ : BufTy).Contents (Elt Ideal)) :
    cur (A := 50000) (B := 256) (ReadP.val_main_v34 (F := Ideal) x0 x1 x2 x3 x13) = H1 x0 x1 x2 x3 x13 := by
  funext p q
  rw [H1_def, cur_apply, lay1]

/-- The reference's layer-2 stage is H2. -/
theorem cur54 (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x13 : (⟨S2x800000, .i32⟩ : BufTy).Contents (Elt Ideal)) :
    cur (A := 50000) (B := 128) (ReadP.val_main_v54 (F := Ideal) x0 x1 x2 x3 x4 x5 x6 x13) = H2 x0 x1 x2 x3 x4 x5 x6 x13 := by
  funext p q
  rw [H2_def, cur_apply, lay2, cur34]

/-- THE MEAN HEAD of the reference: the layer of H2 with the mean head's weights. -/
theorem ref_mu (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128x16, .f32⟩ : BufTy).Contents (Elt Ideal)) (x8 : (⟨S16, .f32⟩ : BufTy).Contents (Elt Ideal)) (x9 : (⟨S128x16, .f32⟩ : BufTy).Contents (Elt Ideal)) (x13 : (⟨S2x800000, .i32⟩ : BufTy).Contents (Elt Ideal)) :
    ReadP.val_main_v73 (F := Ideal) x0 x1 x2 x3 x4 x5 x6 x7 x8 x9 x13
      = arr (layerRef (L x13) (s x13) (H2 x0 x1 x2 x3 x4 x5 x6 x13) (d x13) (cur (A := 128) (B := 16) x7) (fun q => x8 (ix1 q)) (cur (A := 128) (B := 16) x9)) := by
  funext i
  obtain ⟨p, q, rfl⟩ : ∃ (p : Fin 50000) (q : Fin 16), i = ix2 p q := ⟨i 0, i 1, eq_ix2 i⟩
  rw [lay3, cur54, arr_ix2]

/-- THE LOG-DEVIATION HEAD of the reference: the layer of H2 with the log-deviation head's weights. -/
theorem ref_ls (x0 : (⟨S50000x64, .f32⟩ : BufTy).Contents (Elt Ideal)) (x1 : (⟨S64x256, .f32⟩ : BufTy).Contents (Elt Ideal)) (x2 : (⟨S256, .f32⟩ : BufTy).Contents (Elt Ideal)) (x3 : (⟨S64x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x10 : (⟨S128x16, .f32⟩ : BufTy).Contents (Elt Ideal)) (x11 : (⟨S16, .f32⟩ : BufTy).Contents (Elt Ideal)) (x12 : (⟨S128x16, .f32⟩ : BufTy).Contents (Elt Ideal)) (x13 : (⟨S2x800000, .i32⟩ : BufTy).Contents (Elt Ideal)) :
    ReadP.val_main_v92 (F := Ideal) x0 x1 x2 x3 x4 x5 x6 x10 x11 x12 x13
      = arr (layerRef (L x13) (s x13) (H2 x0 x1 x2 x3 x4 x5 x6 x13) (d x13) (cur (A := 128) (B := 16) x10) (fun q => x11 (ix1 q)) (cur (A := 128) (B := 16) x12)) := by
  funext i
  obtain ⟨p, q, rfl⟩ : ∃ (p : Fin 50000) (q : Fin 16), i = ix2 p q := ⟨i 0, i 1, eq_ix2 i⟩
  rw [lay4, cur54, arr_ix2]

end Cert.ReferenceIdeal.RefValue

end
-- ==== Proof.PreReal.lean ====
/-
  The precondition gives real entries.

  The precondition says of every float argument array x that |x| < +∞ holds at every entry: it is printed as the
  conjunction, over the arrays, of the all-entries reduction of that comparison, and it states that the conjunction
  is the bit 1. An extended real whose absolute value is below +∞ is neither −∞ nor +∞, so it is a real number.
-/
import proofs.«128211_j27066883899544_2_alg».proof.Defs
import proofs.«128211_j27066883899544_2_alg».proof.Proof.Gen.Pre_finite_inputs
import Idealize.ShloMosaic.Lib.ReduceAll
import Idealize.ShloMosaic.Lib.ValueIdx
import Idealize.ShloMosaic.PureOps.Ideal.Laws

noncomputable section

namespace Cert.PreReal

open Idealize.ShloMosaic Idealize.SL.Sem Cert.Pre_finite_inputs Cert.Pre_finite_inputs.Gen

/-- The shape with no axes has one index. -/
instance : Subsingleton Cert.Pre_finite_inputs.S_.Idx := ⟨fun _ _ => funext fun d => d.elim0⟩

/-- The word 0x7F800000 is +∞. -/
theorem inf_word : Ideal.ofBits .f32 0x7F800000#32 = (⊤ : EReal) := by simp [Ideal.ofBits, Ideal.ieee]

/-- An entry whose absolute value compares below the word of +∞ is a real number. -/
theorem real_of_abs_lt_inf {s : Shape} (hb : Cert.Pre_finite_inputs.S_.BroadcastsInDim s (![] : Fin 0 → Fin s.rank))
    (x : s.Idx → EReal) (j : s.Idx)
    (h : cmpf (F := Ideal) (φ := .f32) .olt (Host.absf (F := Ideal) (φ := .f32) x)
        (broadcastInDim s ![] hb (constant (F := Ideal) Cert.Pre_finite_inputs.S_ .f32 0x7F800000#32)) j = 1#1) :
    ∃ r : ℝ, x j = (r : EReal) := by
  have h1 : Ideal.cmp .olt (max (x j) (-(x j))) (Ideal.ofBits .f32 0x7F800000#32) = 1#1 := h
  rw [inf_word] at h1
  generalize x j = a at h1 ⊢
  induction a using EReal.rec with
  | bot => exact absurd h1 (by simp [Ideal.cmp])
  | coe r => exact ⟨r, rfl⟩
  | top => exact absurd h1 (by simp [Ideal.cmp])

/-- An array whose all-entries reduction of that comparison is the bit 1 has real entries. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : s.Idx → EReal) (init : Cert.Pre_finite_inputs.S_.Idx → BitVec 1)
    (h : Host.reduce IntOp.andi (cmpf (F := Ideal) (φ := .f32) .olt (Host.absf (F := Ideal) (φ := .f32) x)
        (broadcastInDim s ![] hb (constant (F := Ideal) Cert.Pre_finite_inputs.S_ .f32 0x7F800000#32))) init hr hu ValueIdx.ix0 = 1#1) :
    ∀ i, ∃ r : ℝ, x i = (r : EReal) :=
  fun i => real_of_abs_lt_inf hb x i (Host.reduce_andi_all _ init hr hu ValueIdx.ix0 h i)

/-- THE ARGUMENT ARRAYS HAVE REAL ENTRIES (the nine the algebra needs). -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg10) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all _ _ _ _ _ h0, real_of_all _ _ _ _ _ h1, real_of_all _ _ _ _ _ h2, real_of_all _ _ _ _ _ h3, real_of_all _ _ _ _ _ h4, real_of_all _ _ _ _ _ h5, real_of_all _ _ _ _ _ h6, real_of_all _ _ _ _ _ h7, real_of_all _ _ _ _ _ h10⟩

end Cert.PreReal

end
-- ==== Proof.RefDinvReal.lean ====
/-
  The inverse in-degree is a real number at every node.

  The in-degree of a node is a finite sum of ones added into zero, a real number r ≥ 0; where it is positive the scale is
  1 / max(r, 1), the quotient of two reals with a divisor that is at least 1, and elsewhere it is 0.
-/
import proofs.«128211_j27066883899544_2_alg».proof.Proof.RefReadPatched
import proofs.«128211_j27066883899544_2_alg».proof.Proof.LibGatherScatter
import proofs.«128211_j27066883899544_2_alg».proof.Proof.GraphConvLaws
import proofs.«128211_j27066883899544_2_alg».proof.Proof.GraphConvAgg
import Idealize.ShloMosaic.Lib.IdealHost

noncomputable section

namespace Cert.ReferenceIdeal.DinvReal

open Cert.ReferenceIdeal Idealize.ShloMosaic Idealize.ShloMosaic.ValueIdx

/-- The in-degree: ones added into zeros. -/
theorem real_deg (e13 : (⟨S2x800000, .i32⟩ : BufTy).Contents (Elt Ideal)) (i : S50000.Idx) :
    ∃ r : ℝ, ReadP.val_main_v7 (F := Ideal) e13 i = (r : EReal) := by
  have hx : ∀ j, ∃ r : ℝ, ReadP.val_main_v5 (F := Ideal) j = (r : EReal) := fun j =>
    ⟨0, by rw [ReadP.val_main_v5_apply, ReadP.val_main_cst_0_apply]; exact Ideal.ofBits_zero_f32.trans EReal.coe_zero.symm⟩
  have hu : ∀ j, ∃ r : ℝ, ReadP.val_main_v4 (F := Ideal) j = (r : EReal) := fun j =>
    ⟨1, by rw [ReadP.val_main_v4_apply, ReadP.val_main_cst_apply]; exact Ideal.ofBits_one_f32.trans EReal.coe_one.symm⟩
  unfold ReadP.val_main_v7
  rw [GraphConv.hostScatterAdd_eq]
  exact scatterAdd_finite _ _ _ _ hx hu i

/-- The inverse in-degree. -/
theorem real_dinv (e13 : (⟨S2x800000, .i32⟩ : BufTy).Contents (Elt Ideal)) (i : S50000.Idx) :
    ∃ r : ℝ, ReadP.val_main_v14 (F := Ideal) e13 i = (r : EReal) := by
  rw [ReadP.val_main_v14_apply]
  unfold Scalar.select
  split
  · rw [ReadP.val_main_v13_apply, ReadP.val_main_v11_apply, ReadP.val_main_v12_apply, ReadP.val_main_cst_3_apply,
      ReadP.val_main_v10_apply, ReadP.val_main_cst_2_apply]
    obtain ⟨r, hr⟩ := real_deg e13 i
    rw [hr]
    show ∃ r' : ℝ, Ideal.div (Ideal.ofBits .f32 0x3F800000#32) (max (r : EReal) (Ideal.ofBits .f32 0x3F800000#32)) = (r' : EReal)
    rw [Ideal.ofBits_one_f32, ← EReal.coe_one, GraphConv.coe_max_coe,
      Ideal.div_coe (ne_of_gt (lt_of_lt_of_le one_pos (le_max_right r 1)))]
    exact ⟨1 * (1 / max r 1), by rw [EReal.coe_mul]⟩
  · rw [ReadP.val_main_call0_v1_apply, ReadP.val_main_call0_v0_apply, ReadP.val_main_cst_4_apply]
    exact ⟨0, Ideal.ofBits_zero_f32.trans EReal.coe_zero.symm⟩

end Cert.ReferenceIdeal.DinvReal

end
-- ==== Proof.Bridge.lean ====
/-
  The two programs compute the same two tables.

  The reference's features are layers in the aggregate-then-project form; the kernel program's first layer is the same
  form with the bias added last, its second layer and its heads are in the project-then-aggregate form. On argument arrays
  with real entries the inverse in-degree is real, every layer's features are real, and the forms agree layer by layer.
-/
import proofs.«128211_j27066883899544_2_alg».proof.Proof.RefValue
import proofs.«128211_j27066883899544_2_alg».proof.Proof.KDefs
import proofs.«128211_j27066883899544_2_alg».proof.Proof.RefDinvReal
import proofs.«128211_j27066883899544_2_alg».proof.Proof.GraphConvLaws

noncomputable section

namespace Cert.Bridge

open GraphConv Idealize.ShloMosaic Idealize.ShloMosaic.ValueIdx
open Cert.ReferenceIdeal Cert.KernelIdeal.KValue

/-- Every entry of an array is a real number. -/
abbrev AllR {S : Shape} (x : S.Idx → EReal) : Prop := ∀ i, ∃ r : ℝ, x i = (r : EReal)

theorem real_cur {A B : Nat} {x : Arr2 A B} (h : AllR x) : Real2 (cur x) := fun p q => h (ix2 p q)

theorem real_vec {A : Nat} {x : (⟨1, ![A]⟩ : Shape).Idx → EReal} (h : AllR x) : Real1 (fun q => x (ix1 q)) := fun q => h (ix1 q)

section
variable (x0 : (⟨S50000x64, .f32⟩ : BufTy).Contents (Elt Ideal)) (x1 : (⟨S64x256, .f32⟩ : BufTy).Contents (Elt Ideal))
  (x2 : (⟨S256, .f32⟩ : BufTy).Contents (Elt Ideal)) (x3 : (⟨S64x256, .f32⟩ : BufTy).Contents (Elt Ideal))
  (x4 : (⟨S256x128, .f32⟩ : BufTy).Contents (Elt Ideal)) (x5 : (⟨S128, .f32⟩ : BufTy).Contents (Elt Ideal))
  (x6 : (⟨S256x128, .f32⟩ : BufTy).Contents (Elt Ideal))
  (x13 : (⟨S2x800000, .i32⟩ : BufTy).Contents (Elt Ideal))

/-- The inverse in-degree is real at every node. -/
theorem real_dv : Real1 (dv x13) := fun p => DinvReal.real_dinv x13 (ix1 p)

/-- The graph is read off the edge list in the same way on both sides. -/
theorem L_eq : RefValue.L x13 = Ld x13 := rfl
theorem s_eq : RefValue.s x13 = sr x13 := rfl
theorem d_eq : RefValue.d x13 = dv x13 := rfl

/-- Layer 1: the bias added last or in the middle. -/
theorem H1_eq : RefValue.H1 x0 x1 x2 x3 x13 = K1 x0 x1 x2 x3 x13 := by
  unfold RefValue.H1 K1
  rw [layerAggFirst_eq_layerRef, L_eq, s_eq, d_eq]

variable (h0 : AllR x0) (h1 : AllR x1) (h2 : AllR x2) (h3 : AllR x3) (h4 : AllR x4) (h5 : AllR x5) (h6 : AllR x6)

include h0 h1 h2 h3 in
/-- Layer 1's features are real. -/
theorem real_K1 : Real2 (K1 x0 x1 x2 x3 x13) := by
  unfold K1
  rw [layerAggFirst_eq_layerRef]
  exact real_relu (real_layerRef _ _ (real_cur h0) (real_dv x13) (real_cur h1) (real_vec h2) (real_cur h3))

include h0 h1 h2 h3 h4 in
/-- Layer 2, project first, is layer 2, aggregate first. -/
theorem K2_eq : K2 x0 x1 x2 x3 x4 x5 x6 x13
    = relu (layerRef (Ld x13) (sr x13) (K1 x0 x1 x2 x3 x13) (dv x13) (cur x4) (fun q => x5 (ix1 q)) (cur x6)) := by
  unfold K2
  rw [layerProjFirst_eq_layerRef _ _ (real_K1 x0 x1 x2 x3 x13 h0 h1 h2 h3) (real_dv x13) (real_cur h4)]

include h0 h1 h2 h3 h4 in
theorem H2_eq : RefValue.H2 x0 x1 x2 x3 x4 x5 x6 x13 = K2 x0 x1 x2 x3 x4 x5 x6 x13 := by
  rw [K2_eq x0 x1 x2 x3 x4 x5 x6 x13 h0 h1 h2 h3 h4]
  unfold RefValue.H2
  rw [H1_eq, L_eq, s_eq, d_eq]

include h0 h1 h2 h3 h4 h5 h6 in
/-- Layer 2's features are real. -/
theorem real_K2 : Real2 (K2 x0 x1 x2 x3 x4 x5 x6 x13) := by
  rw [K2_eq x0 x1 x2 x3 x4 x5 x6 x13 h0 h1 h2 h3 h4]
  exact real_relu (real_layerRef _ _ (real_K1 x0 x1 x2 x3 x13 h0 h1 h2 h3) (real_dv x13) (real_cur h4) (real_vec h5) (real_cur h6))

include h0 h1 h2 h3 h4 h5 h6 in
/-- A head of the reference is that head's project-first layer of the kernel program's features. -/
theorem head_eq (w : (⟨S128x16, .f32⟩ : BufTy).Contents (Elt Ideal)) (b : (⟨S16, .f32⟩ : BufTy).Contents (Elt Ideal))
    (w' : (⟨S128x16, .f32⟩ : BufTy).Contents (Elt Ideal)) (hw : AllR w) :
    arr (layerRef (RefValue.L x13) (RefValue.s x13) (RefValue.H2 x0 x1 x2 x3 x4 x5 x6 x13) (RefValue.d x13)
        (cur (A := 128) (B := 16) w) (fun q => b (ix1 q)) (cur (A := 128) (B := 16) w'))
      = arr (layerProjFirst (Ld x13) (sr x13) (K2 x0 x1 x2 x3 x4 x5 x6 x13) (dv x13) (cur w) (fun q => b (ix1 q)) (cur w')) := by
  rw [H2_eq x0 x1 x2 x3 x4 x5 x6 x13 h0 h1 h2 h3 h4, L_eq, s_eq, d_eq,
    layerProjFirst_eq_layerRef _ _ (real_K2 x0 x1 x2 x3 x4 x5 x6 x13 h0 h1 h2 h3 h4 h5 h6) (real_dv x13) (real_cur hw)]

end

end Cert.Bridge

end
-- ==== Proof.lean ====
/-
  The certificate of a three-layer mean-aggregation graph encoder: a tiled kernel program against a plain reference.

  Both programs read an edge list (source and target node per edge), node features and four layers' weights. A layer
  sums, for every node, the feature rows of the edges landing on it, scales the sum by the inverse in-degree, projects it,
  adds a bias and the node's own projected row; the first two layers end with the positive part, and the last two (the
  two heads) both read the second layer's features. The reference aggregates and then projects, in every layer. The
  kernel program aggregates first in the first layer (bias added last) and projects first in the second layer and in the
  heads, whose weights it lays side by side so that one pass computes both; its dense steps run as five tiled regions
  between host stretches that gather and scatter-add the rows.

  At the ideal instance a float is an extended real. The two orders of "project" and "aggregate" agree by distributivity
  and an exchange of finite sums, which hold where every entry is a real number: the precondition makes the argument
  arrays real, the inverse in-degree of a node is real, and each layer keeps its features real. The frames of the two
  kernel programs are generated; the reference's frame is its run with the results dropped; nothing was rewritten by the
  idealization, so its conjunct is trivial.
-/
import proofs.«128211_j27066883899544_2_alg».proof.Defs
import proofs.«128211_j27066883899544_2_alg».proof.Proof.Gen.Kernel
import proofs.«128211_j27066883899544_2_alg».proof.Proof.Gen.Kernel.Frame
import proofs.«128211_j27066883899544_2_alg».proof.Proof.Gen.KernelIdeal
import proofs.«128211_j27066883899544_2_alg».proof.Proof.Gen.KernelIdeal.Frame
import proofs.«128211_j27066883899544_2_alg».proof.Proof.Gen.ReferenceIdeal
import proofs.«128211_j27066883899544_2_alg».proof.Proof.Gen.Pre_finite_inputs
import proofs.«128211_j27066883899544_2_alg».proof.Proof.RefRunPatched
import proofs.«128211_j27066883899544_2_alg».proof.Proof.RefReadPatched
import proofs.«128211_j27066883899544_2_alg».proof.Proof.KValue
import proofs.«128211_j27066883899544_2_alg».proof.Proof.RefValue
import proofs.«128211_j27066883899544_2_alg».proof.Proof.PreReal
import proofs.«128211_j27066883899544_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The two runs side by side: the kernel program's results are the heads' project-first layers, the reference's the
    heads' aggregate-first layers, and on real arguments these are the same tables. -/
theorem algebraic : Cert.algebraic_KernelIdeal_ReferenceIdeal := by
  intro m ρ m' ρ' hpre hagree
  refine ⟨fun c => Cert.KernelIdeal.KValue.muOf m c, fun c => Cert.KernelIdeal.KValue.lsOf m c,
    Cert.KernelIdeal.KValue.run_values m ρ, ?_⟩
  refine (θ_run Cert.ReferenceIdeal.defs _ _).mono (fun _ h c => ?_) (Cert.ReferenceIdeal.ValueP.run (F := Ideal) m' ρ')
  obtain ⟨r0, r1, r2, r3, r4, r5, r6, r7, r10⟩ := Cert.PreReal.real_args m hpre c
  obtain ⟨a0, a1, a2, a3, a4, a5, a6, a7, a8, a9, a10, a11, a12, a13⟩ := hagree c
  refine ⟨(h c).1.trans ?_, (h c).2.1.trans ?_, (h c).2.2⟩
  · rw [Cert.ReferenceIdeal.ReadP.val_main_v73_eq, Cert.ReferenceIdeal.RefValue.ref_mu, a0, a1, a2, a3, a4, a5, a6, a7, a8, a9, a13]
    exact Cert.Bridge.head_eq _ _ _ _ _ _ _ _ r0 r1 r2 r3 r4 r5 r6 _ _ _ r7
  · rw [Cert.ReferenceIdeal.ReadP.val_main_v92_eq, Cert.ReferenceIdeal.RefValue.ref_ls, a0, a1, a2, a3, a4, a5, a6, a10, a11, a12, a13]
    exact Cert.Bridge.head_eq _ _ _ _ _ _ _ _ r0 r1 r2 r3 r4 r5 r6 _ _ _ r10

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
